-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x4096 : Shape := ⟨2, ![8192, 4096]⟩
abbrev S768x4096 : Shape := ⟨2, ![768, 4096]⟩
abbrev S4096 : Shape := ⟨1, ![4096]⟩
abbrev S768x512 : Shape := ⟨2, ![768, 512]⟩
abbrev S512 : Shape := ⟨1, ![512]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S768x4096 : S_.BroadcastsInDim S768x4096 (![] : Fin 0 → Fin S768x4096.rank)
  reducesTo_S768x4096_S_d0_1 : S768x4096.ReducesTo [0, 1] S_
  bcast_S_S4096 : S_.BroadcastsInDim S4096 (![] : Fin 0 → Fin S4096.rank)
  reducesTo_S4096_S_d0 : S4096.ReducesTo [0] S_
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S768x4096 .f32) (main_arg5 : FVec F S4096 .f32) (main_arg6 : FVec F S768x512 .f32) (main_arg7 : FVec F S512 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S768x4096 .f32 := Host.absf main_arg4
  let main_cst_6 : FVec F S_ .f32 := constant S_ .f32 0x7F800000#32
  let main_v20 : FVec F S768x4096 .f32 := broadcastInDim S768x4096 ![] bcast_S_S768x4096 main_cst_6
  let main_v21 : IVec S768x4096 1 := cmpf .olt main_v19 main_v20
  let main_c_7 : IVec S_ 1 := constantI S_ 1 1#1
  let main_v22 : IVec S_ 1 := (fun x v => Host.reduce IntOp.andi x v reducesTo_S768x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S768x512 .f32 := Host.absf main_arg6
  let main_cst_10 : FVec F S_ .f32 := constant S_ .f32 0x7F800000#32
  let main_v30 : FVec F S768x512 .f32 := broadcastInDim S768x512 ![] bcast_S_S768x512 main_cst_10
  let main_v31 : IVec S768x512 1 := cmpf .olt main_v29 main_v30
  let main_c_11 : IVec S_ 1 := constantI S_ 1 1#1
  let main_v32 : IVec S_ 1 := (fun x v => Host.reduce IntOp.andi x v reducesTo_S768x512_S_d0_1 h_S_) main_v31 main_c_11
  let main_v33 : IVec S_ 1 := andi main_v28 main_v32
  fn_part2 (F := F) main_arg7 main_v33

def fn {F : FTy → Type} [FloatOps F] (main_arg0 : FVec F S8192x256 .f32) (main_arg1 : FVec F S8192x4096 .f32) (main_arg2 : FVec F S768x4096 .f32) (main_arg3 : FVec F S4096 .f32) (main_arg4 : FVec F S768x4096 .f32) (main_arg5 : FVec F S4096 .f32) (main_arg6 : FVec F S768x512 .f32) (main_arg7 : FVec F S512 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S768x4096 .f32 := Host.absf main_arg2
  let main_cst_2 : FVec F S_ .f32 := constant S_ .f32 0x7F800000#32
  let main_v10 : FVec F S768x4096 .f32 := broadcastInDim S768x4096 ![] bcast_S_S768x4096 main_cst_2
  let main_v11 : IVec S768x4096 1 := cmpf .olt main_v9 main_v10
  let main_c_3 : IVec S_ 1 := constantI S_ 1 1#1
  let main_v12 : IVec S_ 1 := (fun x v => Host.reduce IntOp.andi x v reducesTo_S768x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S8192x256 : Shape := ⟨2, ![8192, 256]⟩
abbrev S8192x4096 : Shape := ⟨2, ![8192, 4096]⟩
abbrev S768x4096 : Shape := ⟨2, ![768, 4096]⟩
abbrev S4096 : Shape := ⟨1, ![4096]⟩
abbrev S768x512 : Shape := ⟨2, ![768, 512]⟩
abbrev S512 : Shape := ⟨1, ![512]⟩
abbrev S8 : Shape := ⟨1, ![8]⟩
abbrev S8192x512x8 : Shape := ⟨3, ![8192, 512, 8]⟩
abbrev S8192x8x512 : Shape := ⟨3, ![8192, 8, 512]⟩
abbrev S1x8x1 : Shape := ⟨3, ![1, 8, 1]⟩
abbrev S768x512x8 : Shape := ⟨3, ![768, 512, 8]⟩
abbrev S768x8x512 : Shape := ⟨3, ![768, 8, 512]⟩
abbrev S512x8 : Shape := ⟨2, ![512, 8]⟩
abbrev S8x512 : Shape := ⟨2, ![8, 512]⟩
abbrev S1x4096 : Shape := ⟨2, ![1, 4096]⟩
abbrev S1x512 : Shape := ⟨2, ![1, 512]⟩
abbrev S8192x512 : Shape := ⟨2, ![8192, 512]⟩
abbrev S128x256 : Shape := ⟨2, ![128, 256]⟩
abbrev S128x8x512 : Shape := ⟨3, ![128, 8, 512]⟩
abbrev S128x512 : Shape := ⟨2, ![128, 512]⟩
abbrev S128x768 : Shape := ⟨2, ![128, 768]⟩
abbrev S128x4096 : Shape := ⟨2, ![128, 4096]⟩
abbrev S128x1x512 : Shape := ⟨3, ![128, 1, 512]⟩

abbrev nBuf : Space → Nat
  | .hbm => 34
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S768x4096, .f32⟩
  | .hbm, ⟨3, _⟩ => ⟨S4096, .f32⟩
  | .hbm, ⟨4, _⟩ => ⟨S768x4096, .f32⟩
  | .hbm, ⟨5, _⟩ => ⟨S4096, .f32⟩
  | .hbm, ⟨6, _⟩ => ⟨S768x512, .f32⟩
  | .hbm, ⟨7, _⟩ => ⟨S512, .f32⟩
  | .hbm, ⟨8, _⟩ => ⟨S8, .f32⟩
  | .hbm, ⟨9, _⟩ => ⟨S8, .f32⟩
  | .hbm, ⟨10, _⟩ => ⟨S8192x512x8, .f32⟩
  | .hbm, ⟨11, _⟩ => ⟨S8192x8x512, .f32⟩
  | .hbm, ⟨12, _⟩ => ⟨S1x8x1, .f32⟩
  | .hbm, ⟨13, _⟩ => ⟨S1x8x1, .f32⟩
  | .hbm, ⟨14, _⟩ => ⟨S768x512x8, .f32⟩
  | .hbm, ⟨15, _⟩ => ⟨S768x8x512, .f32⟩
  | .hbm, ⟨16, _⟩ => ⟨S768x4096, .f32⟩
  | .hbm, ⟨17, _⟩ => ⟨S768x4096, .bf16⟩
  | .hbm, ⟨18, _⟩ => ⟨S768x512x8, .f32⟩
  | .hbm, ⟨19, _⟩ => ⟨S768x8x512, .f32⟩
  | .hbm, ⟨20, _⟩ => ⟨S768x4096, .f32⟩
  | .hbm, ⟨21, _⟩ => ⟨S768x4096, .bf16⟩
  | .hbm, ⟨22, _⟩ => ⟨S768x512, .bf16⟩
  | .hbm, ⟨23, _⟩ => ⟨S512x8, .f32⟩
  | .hbm, ⟨24, _⟩ => ⟨S8x512, .f32⟩
  | .hbm, ⟨25, _⟩ => ⟨S1x4096, .f32⟩
  | .hbm, ⟨26, _⟩ => ⟨S512x8, .f32⟩
  | .hbm, ⟨27, _⟩ => ⟨S8x512, .f32⟩
  | .hbm, ⟨28, _⟩ => ⟨S1x4096, .f32⟩
  | .hbm, ⟨29, _⟩ => ⟨S1x512, .f32⟩
  | .hbm, ⟨30, _⟩ => ⟨S8192x512, .f32⟩
  | .hbm, ⟨31, _⟩ => ⟨S8192x8x512, .f32⟩
  | .hbm, ⟨32, _⟩ => ⟨S8192x512x8, .f32⟩
  | .hbm, ⟨33, _⟩ => ⟨S8192x4096, .f32⟩
  | .local _ .vmem, ⟨0, _⟩ => ⟨S128x256, .f32⟩
  | .local _ .vmem, ⟨1, _⟩ => ⟨S128x256, .f32⟩
  | .local _ .vmem, ⟨2, _⟩ => ⟨S128x8x512, .f32⟩
  | .local _ .vmem, ⟨3, _⟩ => ⟨S128x8x512, .f32⟩
  | .local _ .vmem, ⟨4, _⟩ => ⟨S768x4096, .bf16⟩
  | .local _ .vmem, ⟨5, _⟩ => ⟨S1x4096, .f32⟩
  | .local _ .vmem, ⟨6, _⟩ => ⟨S768x4096, .bf16⟩
  | .local _ .vmem, ⟨7, _⟩ => ⟨S1x4096, .f32⟩
  | .local _ .vmem, ⟨8, _⟩ => ⟨S768x512, .bf16⟩
  | .local _ .vmem, ⟨9, _⟩ => ⟨S1x512, .f32⟩
  | .local _ .vmem, ⟨10, _⟩ => ⟨S1x8x1, .f32⟩
  | .local _ .vmem, ⟨11, _⟩ => ⟨S1x8x1, .f32⟩
  | .local _ .vmem, ⟨12, _⟩ => ⟨S128x512, .f32⟩
  | .local _ .vmem, ⟨13, _⟩ => ⟨S128x512, .f32⟩
  | .local _ .vmem, ⟨14, _⟩ => ⟨S128x8x512, .f32⟩
  | .local _ .vmem, ⟨15, _⟩ => ⟨S128x8x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x4096_S8192x512x8 : S8192x4096.ShapeCasts S8192x512x8
  transposes_S8192x512x8_S8192x8x512_0_2_1 : S8192x512x8.Transposes [0, 2, 1] S8192x8x512
  shapeCasts_S8_S1x8x1 : S8.ShapeCasts S1x8x1
  shapeCasts_S768x4096_S768x512x8 : S768x4096.ShapeCasts S768x512x8
  transposes_S768x512x8_S768x8x512_0_2_1 : S768x512x8.Transposes [0, 2, 1] S768x8x512
  shapeCasts_S768x8x512_S768x4096 : S768x8x512.ShapeCasts S768x4096
  bitsLt_bf16_f32 : FTy.bits .bf16 < FTy.bits .f32
  shapeCasts_S4096_S512x8 : S4096.ShapeCasts S512x8
  transposes_S512x8_S8x512_1_0 : S512x8.Transposes [1, 0] S8x512
  shapeCasts_S8x512_S1x4096 : S8x512.ShapeCasts S1x4096
  shapeCasts_S512_S1x512 : S512.ShapeCasts S1x512
  inb_S128x256_S128x256_0_0 : ∀ a, (![0, 0] : Fin 2 → Nat) a + S128x256.size a ≤ S128x256.size a
  h_S128x256 : 0 < S128x256.numel
  inb_S128x8x512_S128x8x512_0_0_0 : ∀ a, (![0, 0, 0] : Fin 3 → Nat) a + S128x8x512.size a ≤ S128x8x512.size a
  h_S128x8x512 : 0 < S128x8x512.numel
  shapeCasts_S128x8x512_S128x8x512 : S128x8x512.ShapeCasts S128x8x512
  reduces_S128x8x512_S128x512 : S128x8x512.Reduces [1] S128x512
  concatenates_S128x256_S128x512_S128x768_d1 : Shape.Concatenates [S128x256, S128x512] S128x768 1
  inb_S768x4096_S768x4096_0_0 : ∀ a, (![0, 0] : Fin 2 → Nat) a + S768x4096.size a ≤ S768x4096.size a
  h_S768x4096 : 0 < S768x4096.numel
  shapeCasts_S768x4096_S768x4096 : S768x4096.ShapeCasts S768x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S128x4096_S128x8x512 : S128x4096.ShapeCasts S128x8x512
  inb_S1x8x1_S1x8x1_0_0_0 : ∀ a, (![0, 0, 0] : Fin 3 → Nat) a + S1x8x1.size a ≤ S1x8x1.size a
  h_S1x8x1 : 0 < S1x8x1.numel
  shapeCasts_S1x8x1_S1x8x1 : S1x8x1.ShapeCasts S1x8x1
  broadcasts_S1x8x1_S128x8x512 : S1x8x1.Broadcasts S128x8x512
  shapeCasts_S128x512_S128x1x512 : S128x512.ShapeCasts S128x1x512
  broadcasts_S128x1x512_S128x8x512 : S128x1x512.Broadcasts S128x8x512
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  transposes_S8192x8x512_S8192x512x8_0_2_1 : S8192x8x512.Transposes [0, 2, 1] S8192x512x8
  shapeCasts_S8192x512x8_S8192x4096 : S8192x512x8.ShapeCasts S8192x4096
  dot_S128x768_S768x4096_S128x4096_1_0_0_1_n_n_wf : DotDims.WF S128x768 S768x4096 S128x4096 [1] [0] [0] [1] [] []
  dot_S128x768_S768x512_S128x512_1_0_0_1_n_n_wf : DotDims.WF S128x768 S768x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .f32 = 32 ∨ (Rect.block (s := S8192x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8x512.size a ≤ S8192x8x512.size a
  hwx0_1 : ∀ i : grid0.Coords, EltTy.bits .f32 = 32 ∨ (Rect.block (s := S8192x8x512) S128x8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x4096.size a ≤ S768x4096.size a
  hwx0_2 : ∀ i : grid0.Coords, EltTy.bits .bf16 = 32 ∨ (Rect.block (s := S768x4096) S768x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x4096.size a ≤ S768x4096.size a
  hwx0_4 : ∀ i : grid0.Coords, EltTy.bits .bf16 = 32 ∨ (Rect.block (s := S768x4096) S768x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x512.size a ≤ S768x512.size a
  hwx0_6 : ∀ i : grid0.Coords, EltTy.bits .bf16 = 32 ∨ (Rect.block (s := S768x512) S768x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8x1.size a ≤ S1x8x1.size a
  hwx0_8 : ∀ i : grid0.Coords, EltTy.bits .f32 = 32 ∨ (Rect.block (s := S1x8x1) S1x8x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8x1.size a ≤ S1x8x1.size a
  hwx0_9 : ∀ i : grid0.Coords, EltTy.bits .f32 = 32 ∨ (Rect.block (s := S1x8x1) S1x8x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x512.size a ≤ S8192x512.size a
  hwx0_10 : ∀ i : grid0.Coords, EltTy.bits .f32 = 32 ∨ (Rect.block (s := S8192x512) S128x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x8x512.size a ≤ S8192x8x512.size a
  hwx0_11 : ∀ i : grid0.Coords, EltTy.bits .f32 = 32 ∨ (Rect.block (s := S8192x8x512) S128x8x512.size (cc0_transform_11 i) (hinb0_11 i)).WholeWords (EltTy.packing .f32)

variable [Facts₀]

def dot_S128x768_S768x4096_S128x4096_1_0_0_1_n_n : DotDims S128x768 S768x4096 S128x4096 where
  lhsContracting := [1]
  rhsContracting := [0]
  lhsNonContracting := [0]
  rhsNonContracting := [1]
  lhsBatch := []
  rhsBatch := []
  wf := dot_S128x768_S768x4096_S128x4096_1_0_0_1_n_n_wf
def dot_S128x768_S768x512_S128x512_1_0_0_1_n_n : DotDims S128x768 S768x512 S128x512 where
  lhsContracting := [1]
  rhsContracting := [0]
  lhsNonContracting := [0]
  rhsNonContracting := [1]
  lhsBatch := []
  rhsBatch := []
  wf := dot_S128x768_S768x512_S128x512_1_0_0_1_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S768x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S768x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S768x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x8x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x8x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20_0) S128x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v20_1) S128x8x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192x4096 : Shape := ⟨2, ![8192, 4096]⟩
abbrev S768x4096 : Shape := ⟨2, ![768, 4096]⟩
abbrev S4096 : Shape := ⟨1, ![4096]⟩
abbrev S768x512 : Shape := ⟨2, ![768, 512]⟩
abbrev S512 : Shape := ⟨1, ![512]⟩
abbrev S8 : Shape := ⟨1, ![8]⟩
abbrev S8192x512x8 : Shape := ⟨3, ![8192, 512, 8]⟩
abbrev S_ : Shape := ⟨0, ![]⟩
abbrev S8192x512 : Shape := ⟨2, ![8192, 512]⟩
abbrev S8192x768 : Shape := ⟨2, ![8192, 768]⟩
abbrev S1x4096 : Shape := ⟨2, ![1, 4096]⟩
abbrev S1x1x8 : Shape := ⟨3, ![1, 1, 8]⟩
abbrev S8192x512x1 : Shape := ⟨3, ![8192, 512, 1]⟩
abbrev S1x512 : Shape := ⟨2, ![1, 512]⟩

abbrev nBuf : Space → Nat
  | .hbm => 85
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S768x4096, .f32⟩
  | .hbm, ⟨3, _⟩ => ⟨S4096, .f32⟩
  | .hbm, ⟨4, _⟩ => ⟨S768x4096, .f32⟩
  | .hbm, ⟨5, _⟩ => ⟨S4096, .f32⟩
  | .hbm, ⟨6, _⟩ => ⟨S768x512, .f32⟩
  | .hbm, ⟨7, _⟩ => ⟨S512, .f32⟩
  | .hbm, ⟨8, _⟩ => ⟨S8, .f32⟩
  | .hbm, ⟨9, _⟩ => ⟨S8, .f32⟩
  | .hbm, ⟨10, _⟩ => ⟨S8192x512x8, .f32⟩
  | .hbm, ⟨11, _⟩ => ⟨S_, .f32⟩
  | .hbm, ⟨12, _⟩ => ⟨S8192x512, .f32⟩
  | .hbm, ⟨13, _⟩ => ⟨S8192x768, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x512x8, .f32⟩
  | .hbm, ⟨19, _⟩ => ⟨S1x1x8, .f32⟩
  | .hbm, ⟨20, _⟩ => ⟨S8192x512x8, .f32⟩
  | .hbm, ⟨21, _⟩ => ⟨S8192x512x8, .f32⟩
  | .hbm, ⟨22, _⟩ => ⟨S8192x512x8, .f32⟩
  | .hbm, ⟨23, _⟩ => ⟨S8192x512x8, .f32⟩
  | .hbm, ⟨24, _⟩ => ⟨S_, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S8192x512x1, .f32⟩
  | .hbm, ⟨30, _⟩ => ⟨S8192x512x8, .f32⟩
  | .hbm, ⟨31, _⟩ => ⟨S8192x512x8, .f32⟩
  | .hbm, ⟨32, _⟩ => ⟨S8192x512x8, .f32⟩
  | .hbm, ⟨33, _⟩ => ⟨S_, .f32⟩
  | .hbm, ⟨34, _⟩ => ⟨S8192x512, .f32⟩
  | .hbm, ⟨35, _⟩ => ⟨S8192x512x1, .f32⟩
  | .hbm, ⟨36, _⟩ => ⟨S8192x512x8, .f32⟩
  | .hbm, ⟨37, _⟩ => ⟨S8192x512x8, .f32⟩
  | .hbm, ⟨38, _⟩ => ⟨S8192x512x8, .f32⟩
  | .hbm, ⟨39, _⟩ => ⟨S_, .f32⟩
  | .hbm, ⟨40, _⟩ => ⟨S8192x512, .f32⟩
  | .hbm, ⟨41, _⟩ => ⟨S8192x768, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512x1, .f32⟩
  | .hbm, ⟨48, _⟩ => ⟨S8192x4096, .f32⟩
  | .hbm, ⟨49, _⟩ => ⟨S1x4096, .f32⟩
  | .hbm, ⟨50, _⟩ => ⟨S8192x4096, .f32⟩
  | .hbm, ⟨51, _⟩ => ⟨S8192x4096, .f32⟩
  | .hbm, ⟨52, _⟩ => ⟨S8192x512x8, .f32⟩
  | .hbm, ⟨53, _⟩ => ⟨S1x1x8, .f32⟩
  | .hbm, ⟨54, _⟩ => ⟨S8192x512x8, .f32⟩
  | .hbm, ⟨55, _⟩ => ⟨S8192x512x8, .f32⟩
  | .hbm, ⟨56, _⟩ => ⟨S8192x512x8, .f32⟩
  | .hbm, ⟨57, _⟩ => ⟨S8192x512x8, .f32⟩
  | .hbm, ⟨58, _⟩ => ⟨S_, .f32⟩
  | .hbm, ⟨59, _⟩ => ⟨S8192x512, .f32⟩
  | .hbm, ⟨60, _⟩ => ⟨S_, .f32⟩
  | .hbm, ⟨61, _⟩ => ⟨S8192x512, .f32⟩
  | .hbm, ⟨62, _⟩ => ⟨S8192x512, .f32⟩
  | .hbm, ⟨63, _⟩ => ⟨S8192x512x1, .f32⟩
  | .hbm, ⟨64, _⟩ => ⟨S8192x512x8, .f32⟩
  | .hbm, ⟨65, _⟩ => ⟨S8192x512x8, .f32⟩
  | .hbm, ⟨66, _⟩ => ⟨S8192x512x8, .f32⟩
  | .hbm, ⟨67, _⟩ => ⟨S_, .f32⟩
  | .hbm, ⟨68, _⟩ => ⟨S8192x512, .f32⟩
  | .hbm, ⟨69, _⟩ => ⟨S8192x512x1, .f32⟩
  | .hbm, ⟨70, _⟩ => ⟨S8192x512x8, .f32⟩
  | .hbm, ⟨71, _⟩ => ⟨S8192x512x8, .f32⟩
  | .hbm, ⟨72, _⟩ => ⟨S_, .f32⟩
  | .hbm, ⟨73, _⟩ => ⟨S8192x512x8, .f32⟩
  | .hbm, ⟨74, _⟩ => ⟨S8192x512x8, .f32⟩
  | .hbm, ⟨75, _⟩ => ⟨S8192x512x8, .f32⟩
  | .hbm, ⟨76, _⟩ => ⟨S8192x512x8, .f32⟩
  | .hbm, ⟨77, _⟩ => ⟨S8192x512x8, .f32⟩
  | .hbm, ⟨78, _⟩ => ⟨S8192x512x8, .f32⟩
  | .hbm, ⟨79, _⟩ => ⟨S1x1x8, .f32⟩
  | .hbm, ⟨80, _⟩ => ⟨S8192x512x8, .f32⟩
  | .hbm, ⟨81, _⟩ => ⟨S8192x512x8, .f32⟩
  | .hbm, ⟨82, _⟩ => ⟨S_, .f32⟩
  | .hbm, ⟨83, _⟩ => ⟨S8192x512, .f32⟩
  | .hbm, ⟨84, _⟩ => ⟨S8192x4096, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]

class Facts₀ : Prop where
  shapeCasts_S8192x4096_S8192x512x8 : S8192x4096.ShapeCasts S8192x512x8
  reducesTo_S8192x512x8_S8192x512_d2 : S8192x512x8.ReducesTo [2] S8192x512
  h_S_ : 0 < S_.numel
  concatenates_S8192x256_S8192x512_S8192x768_d1 : Shape.Concatenates [S8192x256, S8192x512] S8192x768 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S8_S1x1x8_2 : S8.BroadcastsInDim S1x1x8 (![2] : Fin 1 → Fin S1x1x8.rank)
  bcast_S1x1x8_S8192x512x8_0_1_2 : S1x1x8.BroadcastsInDim S8192x512x8 (![0, 1, 2] : Fin 3 → Fin S8192x512x8.rank)
  bcast_S_S8192x512 : S_.BroadcastsInDim S8192x512 (![] : Fin 0 → Fin S8192x512.rank)
  bcast_S8192x512_S8192x512x1_0_1 : S8192x512.BroadcastsInDim S8192x512x1 (![0, 1] : Fin 2 → Fin S8192x512x1.rank)
  bcast_S8192x512x1_S8192x512x8_0_1_2 : S8192x512x1.BroadcastsInDim S8192x512x8 (![0, 1, 2] : Fin 3 → Fin S8192x512x8.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512x8 : S_.BroadcastsInDim S8192x512x8 (![] : Fin 0 → Fin S8192x512x8.rank)
  shapeCasts_S8192x512x8_S8192x4096 : S8192x512x8.ShapeCasts S8192x4096
  dot_S8192x768_S768x4096_S8192x4096_1_0_0_1_n_n_wf : DotDims.WF S8192x768 S768x4096 S8192x4096 [1] [0] [0] [1] [] []
  dot_S8192x768_S768x512_S8192x512_1_0_0_1_n_n_wf : DotDims.WF S8192x768 S768x512 S8192x512 [1] [0] [0] [1] [] []

variable [Facts₀]

def dot_S8192x768_S768x4096_S8192x4096_1_0_0_1_n_n : DotDims S8192x768 S768x4096 S8192x4096 where
  lhsContracting := [1]
  rhsContracting := [0]
  lhsNonContracting := [0]
  rhsNonContracting := [1]
  lhsBatch := []
  rhsBatch := []
  wf := dot_S8192x768_S768x4096_S8192x4096_1_0_0_1_n_n_wf
def dot_S8192x768_S768x512_S8192x512_1_0_0_1_n_n : DotDims S8192x768 S768x512 S8192x512 where
  lhsContracting := [1]
  rhsContracting := [0]
  lhsNonContracting := [0]
  rhsNonContracting := [1]
  lhsBatch := []
  rhsBatch := []
  wf := dot_S8192x768_S768x512_S8192x512_1_0_0_1_n_n_wf

class Facts : Prop extends Facts₀ where

variable [Facts]
-- ==== Proof.Spec.lean ====
/-
  One step of a continuous-time GRU cell, row by row, in the extended reals.

  A batch row carries 256 inputs x and, for each of 512 units, eight "buckets" s(u, ·) of state, one per time
  constant τ(m). The step:
    h(u)    = Σ_m s(u, m)                                     the unit's value,
    z       = [x, h]                                          768 numbers,
    r(u, ·) = softmax_m( −(z·W_r(·, (u, m)) + b_r(u, m) − τ(m))² )   the retrieval gate,
    q(u)    = Σ_m r(u, m) · s(u, m),
    d(u)    = tanh([x, q]·W_d(·, u) + b_d(u))                 the detected signal,
    g(u, ·) = softmax_m( −(z·W_s(·, (u, m)) + b_s(u, m) − τ(m))² )   the storage gate,
    s'(u, m) = ((1 − g(u, m)) · s(u, m) + g(u, m) · d(u)) · δ(m)     the decayed new state,
  and the two results are s' and its sum over the buckets. Bucket m of unit u sits at flat column u·8 + m of the
  state row and of the gate weights. The softmax is taken as written: subtract the largest score (never below the
  pattern of −∞), exponentiate, divide by the sum. Nothing is assumed finite: every operation is the extended reals'.
-/
import Idealize.ShloMosaic.PureOps.Ideal
import Idealize.ShloMosaic.Lib.ValueIdx

noncomputable section

open scoped BigOperators

namespace Cert.CtGru

open Idealize.ShloMosaic Idealize.ShloMosaic.ValueIdx

/-- An a×b array, a length-a vector and an a×b×c array of extended reals. -/
abbrev Mat (a b : ℕ) := (⟨2, ![a, b]⟩ : Shape).Idx → EReal
abbrev Vec1 (a : ℕ) := (⟨1, ![a]⟩ : Shape).Idx → EReal
abbrev Cube (a b c : ℕ) := (⟨3, ![a, b, c]⟩ : Shape).Idx → EReal

/-- The eight time constants' bit patterns (powers of √10 rounded to f32) and the eight decay factors'. -/
def tauBits : Fin 8 → BitVec 32 := fun
  | 0 => 0x3F800000#32 | 1 => 0x404A62C2#32 | 2 => 0x41200000#32 | 3 => 0x41FCFB72#32 | 4 => 0x42C80000#32 | 5 => 0x439E1D27#32 | 6 => 0x447A0000#32 | 7 => 0x4545A471#32
  | _ => 0#32
def decBits : Fin 8 → BitVec 32 := fun
  | 0 => 0x3EBC5AB1#32 | 1 => 0x3F3A98C1#32 | 2 => 0x3F67A36D#32 | 3 => 0x3F7807FF#32 | 4 => 0x3F7D73E9#32 | 5 => 0x3F7F3116#32 | 6 => 0x3F7FBE7F#32 | 7 => 0x3F7FEB48#32
  | _ => 0#32
/-- τ(m) and δ(m): the patterns' exact values. -/
def tau (m : Fin 8) : EReal := Ideal.ofBits .f32 (tauBits m)
def dec (m : Fin 8) : EReal := Ideal.ofBits .f32 (decBits m)

/-- The pattern of −∞ the maximum starts from, and of 1. -/
def negInf : EReal := Ideal.ofBits .f32 0xFF800000#32
def one : EReal := Ideal.ofBits .f32 0x3F800000#32

/-- Bucket m of unit u in the unit-major flat order: column u·8 + m. -/
def col (u : Fin 512) (m : Fin 8) : Fin 4096 := ⟨u.val * 8 + m.val, by have := u.isLt; have := m.isLt; omega⟩
/-- The same bucket in the bucket-major flat order: column m·512 + u. -/
def bcol (m : Fin 8) (u : Fin 512) : Fin 4096 := ⟨m.val * 512 + u.val, by have := u.isLt; have := m.isLt; omega⟩

/-- 256 inputs followed by 512 unit values. -/
def catRow (xr : Fin 256 → EReal) (yr : Fin 512 → EReal) (k : Fin 768) : EReal :=
  if h : k.val < 256 then xr ⟨k.val, h⟩ else yr ⟨k.val - 256, by have := k.isLt; omega⟩

/-- The unit's value: the sum of its buckets. -/
def sumRow (sr : Fin 512 → Fin 8 → EReal) (u : Fin 512) : EReal := ∑ m : Fin 8, sr u m

/-- The affine map into bucket m of unit u of a gate. -/
def linRow (z : Fin 768 → EReal) (W : Mat 768 4096) (bias : Vec1 4096) (u : Fin 512) (m : Fin 8) : EReal :=
  (∑ k : Fin 768, z k * W (ix2 k (col u m))) + bias (ix1 (col u m))

/-- The score of bucket m: minus the squared distance of the bucket's value to its time constant. -/
def score (l : Fin 8 → EReal) (m : Fin 8) : EReal := -((l m - tau m) * (l m - tau m))
/-- The largest score, never below the pattern of −∞. -/
def peak (a : Fin 8 → EReal) : EReal := max negInf ((Finset.univ : Finset (Fin 8)).fold max negInf a)
/-- A bucket's unnormalised weight. -/
def weight (a : Fin 8 → EReal) (m : Fin 8) : EReal := Ideal.exp (a m - peak a)
/-- The softmax over the eight buckets of the scores of l. -/
def gate (l : Fin 8 → EReal) (m : Fin 8) : EReal :=
  Ideal.div (weight (score l) m) (∑ m' : Fin 8, weight (score l) m')

/-- q(u): the retrieval gate's average of the unit's buckets. -/
def recallRow (xr : Fin 256 → EReal) (sr : Fin 512 → Fin 8 → EReal) (Wr : Mat 768 4096) (br : Vec1 4096) (u : Fin 512) : EReal :=
  ∑ m : Fin 8, gate (linRow (catRow xr (sumRow sr)) Wr br u) m * sr u m

/-- d(u): the detected signal. -/
def detectRow (xr : Fin 256 → EReal) (sr : Fin 512 → Fin 8 → EReal) (Wr : Mat 768 4096) (br : Vec1 4096)
    (Wd : Mat 768 512) (bd : Vec1 512) (u : Fin 512) : EReal :=
  Ideal.tanh ((∑ k : Fin 768, catRow xr (recallRow xr sr Wr br) k * Wd (ix2 k u)) + bd (ix1 u))

/-- s'(u, m): the new state of bucket m of unit u. -/
def stepRow (xr : Fin 256 → EReal) (sr : Fin 512 → Fin 8 → EReal) (Wr : Mat 768 4096) (br : Vec1 4096)
    (Ws : Mat 768 4096) (bs : Vec1 4096) (Wd : Mat 768 512) (bd : Vec1 512) (u : Fin 512) (m : Fin 8) : EReal :=
  ((one - gate (linRow (catRow xr (sumRow sr)) Ws bs u) m) * sr u m
    + gate (linRow (catRow xr (sumRow sr)) Ws bs u) m * detectRow xr sr Wr br Wd bd u) * dec m

/-- Row b of the inputs, and of the state as (unit, bucket). -/
def xRow (x : Mat 8192 256) (b : Fin 8192) (k : Fin 256) : EReal := x (ix2 b k)
def sRow (s : Mat 8192 4096) (b : Fin 8192) (u : Fin 512) (m : Fin 8) : EReal := s (ix2 b (col u m))

/-- The new state of every row as a batch × unit × bucket array. -/
def newState (x : Mat 8192 256) (s : Mat 8192 4096) (Wr : Mat 768 4096) (br : Vec1 4096) (Ws : Mat 768 4096) (bs : Vec1 4096)
    (Wd : Mat 768 512) (bd : Vec1 512) : Cube 8192 512 8 :=
  fun i => stepRow (xRow x (i 0)) (sRow s (i 0)) Wr br Ws bs Wd bd (i 1) (i 2)

/-- The new unit values: each unit's new buckets summed. -/
def newUnits (x : Mat 8192 256) (s : Mat 8192 4096) (Wr : Mat 768 4096) (br : Vec1 4096) (Ws : Mat 768 4096) (bs : Vec1 4096)
    (Wd : Mat 768 512) (bd : Vec1 512) : Mat 8192 512 :=
  fun i => ∑ m : Fin 8, stepRow (xRow x (i 0)) (sRow s (i 0)) Wr br Ws bs Wd bd (i 1) m

theorem newState_ix3 (x : Mat 8192 256) (s : Mat 8192 4096) (Wr : Mat 768 4096) (br : Vec1 4096) (Ws : Mat 768 4096) (bs : Vec1 4096)
    (Wd : Mat 768 512) (bd : Vec1 512) (b : Fin 8192) (u : Fin 512) (m : Fin 8) :
    newState x s Wr br Ws bs Wd bd (ix3 b u m) = stepRow (xRow x b) (sRow s b) Wr br Ws bs Wd bd u m := rfl

theorem newUnits_ix2 (x : Mat 8192 256) (s : Mat 8192 4096) (Wr : Mat 768 4096) (br : Vec1 4096) (Ws : Mat 768 4096) (bs : Vec1 4096)
    (Wd : Mat 768 512) (bd : Vec1 512) (b : Fin 8192) (u : Fin 512) :
    newUnits x s Wr br Ws bs Wd bd (ix2 b u) = ∑ m : Fin 8, stepRow (xRow x b) (sRow s b) Wr br Ws bs Wd bd u m := rfl

end Cert.CtGru

end
-- ==== Proof.LibFlatten.lean ====
/-
  A reshape between a flat axis and a pair of axes, read at an entry.

  Row-major order puts entry (j, k) of a b×c pair of axes at flat position j·c + k. So an a×n array viewed as a×b×c
  (n = b·c) holds at (i, j, k) the entry (i, j·c + k), and the other way round; the same without the leading axis,
  from a length-n vector to b×c and from b×c to a 1×n row; and a length-n vector viewed as 1×n×1 holds at (0, k, 0)
  the vector's entry k. The flat coordinate is any `q : Fin n` with value j·c + k.
-/
import Idealize.ShloMosaic.Lib.Pipeline.Value
import Idealize.ShloMosaic.Lib.ValueIdx

noncomputable section

namespace Cert.Flatten

open Idealize.ShloMosaic Idealize.ShloMosaic.ValueIdx

variable {α : Type} {a b c n : Nat}

/-- An a×n array viewed as a×b×c, at (i, j, k): the entry (i, j·c + k). -/
theorem split_apply (x : (⟨2, ![a, n]⟩ : Shape).Idx → α) (h : (⟨2, ![a, n]⟩ : Shape).ShapeCasts ⟨3, ![a, b, c]⟩)
    (hn : n = b * c) (i : Fin a) (j : Fin b) (k : Fin c) (q : Fin n) (hq : q.val = j.val * c + k.val) :
    shapeCast ⟨3, ![a, b, c]⟩ x h (ix3 i j k) = x (ix2 i q) :=
  shapeCast_apply x h (ix3 i j k) (ix2 i q) (by
    rw [Shape.rowMajor_val_two, Shape.rowMajor_val_three]
    show i.val * n + q.val = (i.val * b + j.val) * c + k.val
    rw [hq, hn, Nat.add_mul, Nat.mul_assoc, Nat.add_assoc])

/-- An a×b×c array flattened to a×n, at (i, j·c + k): the entry (i, j, k). -/
theorem merge_apply (x : (⟨3, ![a, b, c]⟩ : Shape).Idx → α) (h : (⟨3, ![a, b, c]⟩ : Shape).ShapeCasts ⟨2, ![a, n]⟩)
    (hn : n = b * c) (i : Fin a) (j : Fin b) (k : Fin c) (q : Fin n) (hq : q.val = j.val * c + k.val) :
    shapeCast ⟨2, ![a, n]⟩ x h (ix2 i q) = x (ix3 i j k) :=
  shapeCast_apply x h (ix2 i q) (ix3 i j k) (by
    rw [Shape.rowMajor_val_two, Shape.rowMajor_val_three]
    show (i.val * b + j.val) * c + k.val = i.val * n + q.val
    rw [hq, hn, Nat.add_mul, Nat.mul_assoc, Nat.add_assoc])

/-- A length-n vector viewed as b×c, at (j, k): the entry j·c + k. -/
theorem split1_apply (x : (⟨1, ![n]⟩ : Shape).Idx → α) (h : (⟨1, ![n]⟩ : Shape).ShapeCasts ⟨2, ![b, c]⟩)
    (j : Fin b) (k : Fin c) (q : Fin n) (hq : q.val = j.val * c + k.val) :
    shapeCast ⟨2, ![b, c]⟩ x h (ix2 j k) = x (ix1 q) :=
  shapeCast_apply x h (ix2 j k) (ix1 q) (by
    rw [Shape.rowMajor_val_two, Shape.rowMajor_val_one]
    show q.val = j.val * c + k.val
    exact hq)

/-- A b×c array flattened to a 1×n row, at (0, j·c + k): the entry (j, k). -/
theorem merge1_apply (x : (⟨2, ![b, c]⟩ : Shape).Idx → α) (h : (⟨2, ![b, c]⟩ : Shape).ShapeCasts ⟨2, ![1, n]⟩)
    (j : Fin b) (k : Fin c) (q : Fin n) (hq : q.val = j.val * c + k.val) :
    shapeCast ⟨2, ![1, n]⟩ x h (ix2 0 q) = x (ix2 j k) :=
  shapeCast_apply x h (ix2 0 q) (ix2 j k) (by
    rw [Shape.rowMajor_val_two, Shape.rowMajor_val_two]
    show j.val * c + k.val = 0 * n + q.val
    rw [hq, Nat.zero_mul, Nat.zero_add])

/-- A length-n vector viewed as 1×n×1, at (0, k, 0): the entry k. -/
theorem column3_apply (x : (⟨1, ![n]⟩ : Shape).Idx → α) (h : (⟨1, ![n]⟩ : Shape).ShapeCasts ⟨3, ![1, n, 1]⟩) (k : Fin n) :
    shapeCast ⟨3, ![1, n, 1]⟩ x h (ix3 0 k 0) = x (ix1 k) :=
  shapeCast_apply x h (ix3 0 k 0) (ix1 k) (by
    rw [Shape.rowMajor_val_three, Shape.rowMajor_val_one]
    show k.val = (0 * n + k.val) * 1 + 0
    rw [Nat.zero_mul, Nat.zero_add, Nat.mul_one, Nat.add_zero])

end Cert.Flatten

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.KHost.lean ====
/-
  What the kernel's region finds in each staged array, as a function of the arguments: the state laid out
  bucket-major (batch × bucket × unit), the two gate weight matrices and their biases with bucket-major columns, the
  detect weights and bias unchanged, and the two eight-entry tables as 1×8×1 columns.
-/
import proofs.«154529_j19593640804384_2_alg».proof.Proof.Gen.KernelIdeal.Frame
import proofs.«154529_j19593640804384_2_alg».proof.Proof.Spec
import proofs.«154529_j19593640804384_2_alg».proof.Proof.LibFlatten
import proofs.«154529_j19593640804384_2_alg».proof.Proof.LibRowVector
import Idealize.ShloMosaic.Lib.StableHlo.Run
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.CtGru

variable (m : (ℓ : Loc nD τ sig) → Buf (Elt Ideal) ℓ)

/-- The eight time constants and decay factors as the tables' entries. -/
theorem lit0_eq (k : Fin 8) : Ideal.ofBits .f32 (lit0 (S8.rowMajor (ix1 k))) = tau k := by
  have e : S8.rowMajor (ix1 k) = k := Fin.ext (Shape.rowMajor_val_one _)
  rw [e]; unfold tau
  fin_cases k <;> rfl
theorem lit1_eq (k : Fin 8) : Ideal.ofBits .f32 (lit1 (S8.rowMajor (ix1 k))) = dec k := by
  have e : S8.rowMajor (ix1 k) = k := Fin.ext (Shape.rowMajor_val_one _)
  rw [e]; unfold dec
  fin_cases k <;> rfl

/-- The staged state: the state argument viewed batch × unit × bucket, the last two axes swapped. -/
theorem V_v1 (c : Dev nD) : (V m c main_v1 : S8192x8x512.Idx → EReal) =
    transpose S8192x8x512 [0, 2, 1] (shapeCast S8192x512x8 (m ((c : Thread nD τ).loc main_arg1)) shapeCasts_S8192x4096_S8192x512x8)
      transposes_S8192x512x8_S8192x8x512_0_2_1 := by
  show StableHlo.after hostOps0 (fun b => m (c, b)) (Proc.devRef .tc main_v1) = _
  after_results; rfl

theorem V_v1_apply (c : Dev nD) (b : Fin 8192) (k : Fin 8) (u : Fin 512) :
    (V m c main_v1 : S8192x8x512.Idx → EReal) (ix3 b k u)
      = (m ((c : Thread nD τ).loc main_arg1) : S8192x4096.Idx → EReal) (ix2 b (col u k)) := by
  rw [V_v1]
  refine (transpose_ix3_021_apply _ _ b k u).trans ?_
  exact Flatten.split_apply _ _ rfl b u k (col u k) rfl

/-- A staged gate weight matrix: the argument's columns regrouped bucket-major. -/
theorem V_v7 (c : Dev nD) : (V m c main_v7 : S768x4096.Idx → EReal) =
    (truncf .bf16 (shapeCast S768x4096 (transpose S768x8x512 [0, 2, 1]
      (shapeCast S768x512x8 (m ((c : Thread nD τ).loc main_arg2)) Gen.shapeCasts_S768x4096_S768x512x8)
      Gen.transposes_S768x512x8_S768x8x512_0_2_1) Gen.shapeCasts_S768x8x512_S768x4096 : FVec Ideal S768x4096 .f32) Gen.bitsLt_bf16_f32 : FVec Ideal S768x4096 .bf16) := by
  show StableHlo.after hostOps0 (fun b => m (c, b)) (Proc.devRef .tc main_v7) = _
  after_results; rfl

theorem V_v7_apply (c : Dev nD) (k : Fin 768) (u : Fin 512) (j : Fin 8) :
    (V m c main_v7 : S768x4096.Idx → EReal) (ix2 k (bcol j u))
      = (m ((c : Thread nD τ).loc main_arg2) : S768x4096.Idx → EReal) (ix2 k (col u j)) := by
  rw [V_v7]
  refine (truncf_apply (ψ := .bf16) _ Gen.bitsLt_bf16_f32 _).trans ?_
  refine (Flatten.merge_apply _ _ rfl k j u (bcol j u) rfl).trans ?_
  refine (transpose_ix3_021_apply _ _ k j u).trans ?_
  exact Flatten.split_apply _ _ rfl k u j (col u j) rfl

theorem V_v11 (c : Dev nD) : (V m c main_v11 : S768x4096.Idx → EReal) =
    (truncf .bf16 (shapeCast S768x4096 (transpose S768x8x512 [0, 2, 1]
      (shapeCast S768x512x8 (m ((c : Thread nD τ).loc main_arg4)) Gen.shapeCasts_S768x4096_S768x512x8)
      Gen.transposes_S768x512x8_S768x8x512_0_2_1) Gen.shapeCasts_S768x8x512_S768x4096 : FVec Ideal S768x4096 .f32) Gen.bitsLt_bf16_f32 : FVec Ideal S768x4096 .bf16) := by
  show StableHlo.after hostOps0 (fun b => m (c, b)) (Proc.devRef .tc main_v11) = _
  after_results; rfl

theorem V_v11_apply (c : Dev nD) (k : Fin 768) (u : Fin 512) (j : Fin 8) :
    (V m c main_v11 : S768x4096.Idx → EReal) (ix2 k (bcol j u))
      = (m ((c : Thread nD τ).loc main_arg4) : S768x4096.Idx → EReal) (ix2 k (col u j)) := by
  rw [V_v11]
  refine (truncf_apply (ψ := .bf16) _ Gen.bitsLt_bf16_f32 _).trans ?_
  refine (Flatten.merge_apply _ _ rfl k j u (bcol j u) rfl).trans ?_
  refine (transpose_ix3_021_apply _ _ k j u).trans ?_
  exact Flatten.split_apply _ _ rfl k u j (col u j) rfl

/-- A staged gate bias: the argument regrouped bucket-major, as a 1×4096 row. -/
theorem V_v15 (c : Dev nD) : (V m c main_v15 : S1x4096.Idx → EReal) =
    shapeCast S1x4096 (transpose S8x512 [1, 0] (shapeCast S512x8 (m ((c : Thread nD τ).loc main_arg3)) Gen.shapeCasts_S4096_S512x8)
      Gen.transposes_S512x8_S8x512_1_0) Gen.shapeCasts_S8x512_S1x4096 := by
  show StableHlo.after hostOps0 (fun b => m (c, b)) (Proc.devRef .tc main_v15) = _
  after_results; rfl

theorem V_v15_apply (c : Dev nD) (u : Fin 512) (j : Fin 8) :
    (V m c main_v15 : S1x4096.Idx → EReal) (ix2 0 (bcol j u))
      = (m ((c : Thread nD τ).loc main_arg3) : S4096.Idx → EReal) (ix1 (col u j)) := by
  rw [V_v15]
  refine (Flatten.merge1_apply _ _ j u (bcol j u) rfl).trans ?_
  refine (transpose_ix2_apply _ _ j u).trans ?_
  exact Flatten.split1_apply _ _ u j (col u j) rfl

theorem V_v18 (c : Dev nD) : (V m c main_v18 : S1x4096.Idx → EReal) =
    shapeCast S1x4096 (transpose S8x512 [1, 0] (shapeCast S512x8 (m ((c : Thread nD τ).loc main_arg5)) Gen.shapeCasts_S4096_S512x8)
      Gen.transposes_S512x8_S8x512_1_0) Gen.shapeCasts_S8x512_S1x4096 := by
  show StableHlo.after hostOps0 (fun b => m (c, b)) (Proc.devRef .tc main_v18) = _
  after_results; rfl

theorem V_v18_apply (c : Dev nD) (u : Fin 512) (j : Fin 8) :
    (V m c main_v18 : S1x4096.Idx → EReal) (ix2 0 (bcol j u))
      = (m ((c : Thread nD τ).loc main_arg5) : S4096.Idx → EReal) (ix1 (col u j)) := by
  rw [V_v18]
  refine (Flatten.merge1_apply _ _ j u (bcol j u) rfl).trans ?_
  refine (transpose_ix2_apply _ _ j u).trans ?_
  exact Flatten.split1_apply _ _ u j (col u j) rfl

/-- The staged detect weights are the argument (a change of float format). -/
theorem V_v12 (c : Dev nD) : (V m c main_v12 : S768x512.Idx → EReal) = (m ((c : Thread nD τ).loc main_arg6) : S768x512.Idx → EReal) := by
  show StableHlo.after hostOps0 (fun b => m (c, b)) (Proc.devRef .tc main_v12) = _
  after_results; rfl

/-- The staged detect bias: the argument as a 1×512 row. -/
theorem V_v19 (c : Dev nD) : (V m c main_v19 : S1x512.Idx → EReal) =
    shapeCast S1x512 (m ((c : Thread nD τ).loc main_arg7)) Gen.shapeCasts_S512_S1x512 := by
  show StableHlo.after hostOps0 (fun b => m (c, b)) (Proc.devRef .tc main_v19) = _
  after_results; rfl

theorem V_v19_apply (c : Dev nD) (u : Fin 512) :
    (V m c main_v19 : S1x512.Idx → EReal) (ix2 0 u) = (m ((c : Thread nD τ).loc main_arg7) : S512.Idx → EReal) (ix1 u) := by
  rw [V_v19]
  exact RowVector.shapeCast_row _ _ u

/-- The staged tables: the eight time constants, and the eight decay factors, as 1×8×1 columns. -/
theorem V_v2_apply (c : Dev nD) (j : Fin 8) : (V m c main_v2 : S1x8x1.Idx → EReal) (ix3 0 j 0) = tau j := by
  have e : (V m c main_v2 : S1x8x1.Idx → EReal) =
      shapeCast S1x8x1 (fun i : S8.Idx => Ideal.ofBits .f32 (lit0 (S8.rowMajor i))) Gen.shapeCasts_S8_S1x8x1 := by
    show StableHlo.after hostOps0 (fun b => m (c, b)) (Proc.devRef .tc main_v2) = _
    after_results; rfl
  rw [e]
  exact (Flatten.column3_apply _ _ j).trans (lit0_eq j)

theorem V_v3_apply (c : Dev nD) (j : Fin 8) : (V m c main_v3 : S1x8x1.Idx → EReal) (ix3 0 j 0) = dec j := by
  have e : (V m c main_v3 : S1x8x1.Idx → EReal) =
      shapeCast S1x8x1 (fun i : S8.Idx => Ideal.ofBits .f32 (lit1 (S8.rowMajor i))) Gen.shapeCasts_S8_S1x8x1 := by
    show StableHlo.after hostOps0 (fun b => m (c, b)) (Proc.devRef .tc main_v3) = _
    after_results; rfl
  rw [e]
  exact (Flatten.column3_apply _ _ j).trans (lit1_eq j)

end Cert.KernelIdeal.KValue

end
-- ==== Proof.KBlocks.lean ====
/-
  The kernel's blocks at a grid point: point t takes batch rows 128·t … 128·t + 127 of the inputs and of the
  bucket-major state, and the whole of every weight, bias and table.
-/
import proofs.«154529_j19593640804384_2_alg».proof.Proof.KHost

noncomputable section

namespace Cert.KernelIdeal.KValue

open Cert.KernelIdeal Cert.KernelIdeal.Gen Idealize.ShloMosaic Idealize.ShloMosaic.TcCoe Idealize.SL.Sem
open Idealize.ShloMosaic.ValueIdx Cert.CtGru

variable (m : (ℓ : Loc nD τ sig) → Buf (Elt Ideal) ℓ)

/-- Batch row r of point t's block. -/
def brow (t : Fin cfg0.N) (r : Fin 128) : Fin 8192 :=
  ⟨t.val * 128 + r.val, by have h := t.isLt; have hN : cfg0.N = 64 := N_0; have := r.isLt; omega⟩

/-- The moving windows' block indices: the point on the batch axis, zero elsewhere. -/
theorem idx_moving : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_10.index t (0 : Fin 2) = t.val ∧ win0_10.index t (1 : Fin 2) = 0
    ∧ win0_11.index t (0 : Fin 3) = t.val ∧ win0_11.index t (1 : Fin 3) = 0 ∧ win0_11.index t (2 : Fin 3) = 0 :=
  (by decide +kernel : ∀ t : Fin grid0.N, _)

/-- The resident windows' block indices are zero. -/
theorem idx_resident : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = 0 ∧ win0_8.index t (1 : Fin 3) = 0 ∧ win0_8.index t (2 : Fin 3) = 0
    ∧ win0_9.index t (0 : Fin 3) = 0 ∧ win0_9.index t (1 : Fin 3) = 0 ∧ win0_9.index t (2 : Fin 3) = 0 :=
  (by decide +kernel : ∀ t : Fin grid0.N, _)

/-- The inputs' block: rows of the inputs. -/
theorem iblk0_apply (c : Dev nD) (t : Fin cfg0.N) (r : Fin 128) (k : Fin 256) :
    (iblk m c 0 t : S128x256.Idx → EReal) (ix2 r k)
      = (m ((c : Thread nD τ).loc main_arg0) : S8192x256.Idx → EReal) (ix2 (brow t r) k) := by
  obtain ⟨e0, e1, -⟩ := idx_moving t
  unfold iblk
  rw [View.read_apply]
  show V m c main_arg0 _ = _
  rw [V_main_arg0]
  refine congrArg _ (funext fun a => Fin.ext ?_)
  match a with
  | ⟨0, _⟩ => show win0_0.index t (0 : Fin 2) * 128 + 1 * r.val = t.val * 128 + r.val; rw [e0]; omega
  | ⟨1, _⟩ => show win0_0.index t (1 : Fin 2) * 256 + 1 * k.val = k.val; rw [e1]; omega

/-- The state's block: rows of the state, bucket-major. -/
theorem iblk1_apply (c : Dev nD) (t : Fin cfg0.N) (r : Fin 128) (j : Fin 8) (u : Fin 512) :
    (iblk m c 1 t : S128x8x512.Idx → EReal) (ix3 r j u)
      = (m ((c : Thread nD τ).loc main_arg1) : S8192x4096.Idx → EReal) (ix2 (brow t r) (col u j)) := by
  obtain ⟨-, -, e0, e1, e2, -⟩ := idx_moving t
  unfold iblk
  rw [View.read_apply]
  show V m c main_v1 _ = _
  refine Eq.trans (congrArg _ (funext fun a => Fin.ext ?_)) (V_v1_apply m c (brow t r) j u)
  match a with
  | ⟨0, _⟩ => show win0_1.index t (0 : Fin 3) * 128 + 1 * r.val = t.val * 128 + r.val; rw [e0]; omega
  | ⟨1, _⟩ => show win0_1.index t (1 : Fin 3) * 8 + 1 * j.val = j.val; rw [e1]; omega
  | ⟨2, _⟩ => show win0_1.index t (2 : Fin 3) * 512 + 1 * u.val = u.val; rw [e2]; omega

theorem iblk2_apply (c : Dev nD) (t : Fin cfg0.N) (k : Fin 768) (u : Fin 512) (j : Fin 8) :
    (iblk m c 2 t : S768x4096.Idx → EReal) (ix2 k (bcol j u)) = (m ((c : Thread nD τ).loc main_arg2) : S768x4096.Idx → EReal) (ix2 k (col u j)) := by
  obtain ⟨e0, e1, -⟩ := idx_resident t
  unfold iblk
  rw [View.read_apply]
  show V m c main_v7 _ = _
  refine Eq.trans (congrArg _ (funext fun a => Fin.ext ?_)) (V_v7_apply m c k u j)
  match a with
  | ⟨0, _⟩ => show win0_2.index t (0 : Fin 2) * 768 + 1 * k.val = k.val; rw [e0]; omega
  | ⟨1, _⟩ => show win0_2.index t (1 : Fin 2) * 4096 + 1 * (bcol j u).val = (bcol j u).val; rw [e1]; omega

theorem iblk3_apply (c : Dev nD) (t : Fin cfg0.N) (u : Fin 512) (j : Fin 8) :
    (iblk m c 3 t : S1x4096.Idx → EReal) (ix2 0 (bcol j u)) = (m ((c : Thread nD τ).loc main_arg3) : S4096.Idx → EReal) (ix1 (col u j)) := by
  obtain ⟨-, -, e0, e1, -⟩ := idx_resident t
  unfold iblk
  rw [View.read_apply]
  show V m c main_v15 _ = _
  refine Eq.trans (congrArg _ (funext fun a => Fin.ext ?_)) (V_v15_apply m c u j)
  match a with
  | ⟨0, _⟩ => show win0_3.index t (0 : Fin 2) * 1 + 1 * 0 = 0; rw [e0]
  | ⟨1, _⟩ => show win0_3.index t (1 : Fin 2) * 4096 + 1 * (bcol j u).val = (bcol j u).val; rw [e1]; omega

theorem iblk4_apply (c : Dev nD) (t : Fin cfg0.N) (k : Fin 768) (u : Fin 512) (j : Fin 8) :
    (iblk m c 4 t : S768x4096.Idx → EReal) (ix2 k (bcol j u)) = (m ((c : Thread nD τ).loc main_arg4) : S768x4096.Idx → EReal) (ix2 k (col u j)) := by
  obtain ⟨-, -, -, -, e0, e1, -⟩ := idx_resident t
  unfold iblk
  rw [View.read_apply]
  show V m c main_v11 _ = _
  refine Eq.trans (congrArg _ (funext fun a => Fin.ext ?_)) (V_v11_apply m c k u j)
  match a with
  | ⟨0, _⟩ => show win0_4.index t (0 : Fin 2) * 768 + 1 * k.val = k.val; rw [e0]; omega
  | ⟨1, _⟩ => show win0_4.index t (1 : Fin 2) * 4096 + 1 * (bcol j u).val = (bcol j u).val; rw [e1]; omega

theorem iblk5_apply (c : Dev nD) (t : Fin cfg0.N) (u : Fin 512) (j : Fin 8) :
    (iblk m c 5 t : S1x4096.Idx → EReal) (ix2 0 (bcol j u)) = (m ((c : Thread nD τ).loc main_arg5) : S4096.Idx → EReal) (ix1 (col u j)) := by
  obtain ⟨-, -, -, -, -, -, e0, e1, -⟩ := idx_resident t
  unfold iblk
  rw [View.read_apply]
  show V m c main_v18 _ = _
  refine Eq.trans (congrArg _ (funext fun a => Fin.ext ?_)) (V_v18_apply m c u j)
  match a with
  | ⟨0, _⟩ => show win0_5.index t (0 : Fin 2) * 1 + 1 * 0 = 0; rw [e0]
  | ⟨1, _⟩ => show win0_5.index t (1 : Fin 2) * 4096 + 1 * (bcol j u).val = (bcol j u).val; rw [e1]; omega

theorem iblk6_apply (c : Dev nD) (t : Fin cfg0.N) (k : Fin 768) (u : Fin 512) :
    (iblk m c 6 t : S768x512.Idx → EReal) (ix2 k u) = (m ((c : Thread nD τ).loc main_arg6) : S768x512.Idx → EReal) (ix2 k u) := by
  obtain ⟨-, -, -, -, -, -, -, -, e0, e1, -⟩ := idx_resident t
  unfold iblk
  rw [View.read_apply]
  show V m c main_v12 _ = _
  refine Eq.trans (congrArg _ (funext fun a => Fin.ext ?_)) (congrFun (V_v12 m c) (ix2 k u))
  match a with
  | ⟨0, _⟩ => show win0_6.index t (0 : Fin 2) * 768 + 1 * k.val = k.val; rw [e0]; omega
  | ⟨1, _⟩ => show win0_6.index t (1 : Fin 2) * 512 + 1 * u.val = u.val; rw [e1]; omega

theorem iblk7_apply (c : Dev nD) (t : Fin cfg0.N) (u : Fin 512) :
    (iblk m c 7 t : S1x512.Idx → EReal) (ix2 0 u) = (m ((c : Thread nD τ).loc main_arg7) : S512.Idx → EReal) (ix1 u) := by
  obtain ⟨-, -, -, -, -, -, -, -, -, -, e0, e1, -⟩ := idx_resident t
  unfold iblk
  rw [View.read_apply]
  show V m c main_v19 _ = _
  refine Eq.trans (congrArg _ (funext fun a => Fin.ext ?_)) (V_v19_apply m c u)
  match a with
  | ⟨0, _⟩ => show win0_7.index t (0 : Fin 2) * 1 + 1 * 0 = 0; rw [e0]
  | ⟨1, _⟩ => show win0_7.index t (1 : Fin 2) * 512 + 1 * u.val = u.val; rw [e1]; omega

theorem iblk8_apply (c : Dev nD) (t : Fin cfg0.N) (j : Fin 8) :
    (iblk m c 8 t : S1x8x1.Idx → EReal) (ix3 0 j 0) = tau j := by
  obtain ⟨-, -, -, -, -, -, -, -, -, -, -, -, e0, e1, e2, -⟩ := idx_resident t
  unfold iblk
  rw [View.read_apply]
  show V m c main_v2 _ = _
  refine Eq.trans (congrArg _ (funext fun a => Fin.ext ?_)) (V_v2_apply m c j)
  match a with
  | ⟨0, _⟩ => show win0_8.index t (0 : Fin 3) * 1 + 1 * 0 = 0; rw [e0]
  | ⟨1, _⟩ => show win0_8.index t (1 : Fin 3) * 8 + 1 * j.val = j.val; rw [e1]; omega
  | ⟨2, _⟩ => show win0_8.index t (2 : Fin 3) * 1 + 1 * 0 = 0; rw [e2]

theorem iblk9_apply (c : Dev nD) (t : Fin cfg0.N) (j : Fin 8) :
    (iblk m c 9 t : S1x8x1.Idx → EReal) (ix3 0 j 0) = dec j := by
  obtain ⟨-, -, -, -, -, -, -, -, -, -, -, -, -, -, -, e0, e1, e2⟩ := idx_resident t
  unfold iblk
  rw [View.read_apply]
  show V m c main_v3 _ = _
  refine Eq.trans (congrArg _ (funext fun a => Fin.ext ?_)) (V_v3_apply m c j)
  match a with
  | ⟨0, _⟩ => show win0_9.index t (0 : Fin 3) * 1 + 1 * 0 = 0; rw [e0]
  | ⟨1, _⟩ => show win0_9.index t (1 : Fin 3) * 8 + 1 * j.val = j.val; rw [e1]; omega
  | ⟨2, _⟩ => show win0_9.index t (2 : Fin 3) * 1 + 1 * 0 = 0; rw [e2]

end Cert.KernelIdeal.KValue

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.PayloadLayout.lean ====
/-
  The re-layings and bucket reductions of the cell step's body, each read at one entry of a block of 128 rows.

  A row of 4096 gate values is bucket-major here: bucket m of unit u sits at column m·512 + u, so the row viewed as
  8 × 512 holds it at (m, u). A per-(row, unit) value is copied to the unit's eight buckets, a per-bucket constant to
  every row and unit, a 1 × n row to every row. The 768 numbers a row feeds to a matrix product are its 256 inputs
  followed by 512 per-unit values. A sum, or a maximum started from a given pattern, over the bucket axis is the sum,
  or the fold of max, over m = 0 … 7 of the entries (r, m, u).
-/
import proofs.«154529_j19593640804384_2_alg».proof.KernelIdeal
import proofs.«154529_j19593640804384_2_alg».proof.Proof.Spec
import proofs.«154529_j19593640804384_2_alg».proof.Proof.LibFlatten
import proofs.«154529_j19593640804384_2_alg».proof.Proof.LibRowVector
import Idealize.ShloMosaic.Lib.ValueIdx
import Idealize.ShloMosaic.Lib.Pipeline.Value
import Idealize.ShloMosaic.PureOps.Ideal.Laws

noncomputable section

open scoped BigOperators

namespace Cert.KernelIdeal.PayloadLayout

open Idealize.ShloMosaic Idealize.ShloMosaic.ValueIdx Cert.KernelIdeal Cert.CtGru

variable {α : Type}

/-- A row of 4096 viewed as 8 × 512, at (r, m, u): the row's column m·512 + u. -/
theorem split_apply (x : S128x4096.Idx → α) (h : S128x4096.ShapeCasts S128x8x512) (r : Fin 128) (m : Fin 8) (u : Fin 512) :
    shapeCast S128x8x512 x h (ix3 r m u) = x (ix2 r (bcol m u)) :=
  Cert.Flatten.split_apply x h rfl r m u (bcol m u) rfl

/-- A per-(row, unit) value given a unit bucket axis and copied along it, at (r, m, u): the value at (r, u). -/
theorem keepdims_apply (y : S128x512.Idx → α) (h1 : S128x512.ShapeCasts S128x1x512) (h2 : S128x1x512.Broadcasts S128x8x512)
    (r : Fin 128) (m : Fin 8) (u : Fin 512) :
    broadcastTo S128x8x512 (shapeCast S128x1x512 y h1) h2 (ix3 r m u) = y (ix2 r u) :=
  (broadcastTo_apply (shapeCast S128x1x512 y h1) h2 (ix3 r m u) (ix3 r 0 u) (fun a => match a with
    | ⟨0, _⟩ => by
      show r.val = if (128 : Nat) = 1 then 0 else r.val
      rw [if_neg (by decide)]
    | ⟨1, _⟩ => by
      show (0 : Nat) = if (1 : Nat) = 1 then 0 else _
      rw [if_pos rfl]
    | ⟨2, _⟩ => by
      show u.val = if (512 : Nat) = 1 then 0 else u.val
      rw [if_neg (by decide)])).trans
  (shapeCast_apply y h1 (ix3 r 0 u) (ix2 r u) (by
    rw [Shape.rowMajor_val_two, Shape.rowMajor_val_three]
    show r.val * 512 + u.val = (r.val * 1 + 0) * 512 + u.val
    omega))

/-- A per-bucket constant copied to every row and unit, at (r, m, u): the constant of bucket m. -/
theorem bucket_apply (t : S1x8x1.Idx → α) (h : S1x8x1.Broadcasts S128x8x512) (r : Fin 128) (m : Fin 8) (u : Fin 512) :
    broadcastTo S128x8x512 t h (ix3 r m u) = t (ix3 0 m 0) :=
  broadcastTo_apply t h (ix3 r m u) (ix3 0 m 0) (fun a => match a with
    | ⟨0, _⟩ => by
      show (0 : Nat) = if (1 : Nat) = 1 then 0 else _
      rw [if_pos rfl]
    | ⟨1, _⟩ => by
      show m.val = if (8 : Nat) = 1 then 0 else m.val
      rw [if_neg (by decide)]
    | ⟨2, _⟩ => by
      show (0 : Nat) = if (1 : Nat) = 1 then 0 else _
      rw [if_pos rfl])

/-- A 1 × 4096 row copied to the 128 rows, at (r, c): the row at c. -/
theorem row4096_apply (v : S1x4096.Idx → α) (h : S1x4096.Broadcasts S128x4096) (r : Fin 128) (c : Fin 4096) :
    broadcastTo S128x4096 v h (ix2 r c) = v (ix2 0 c) :=
  Cert.RowVector.broadcastTo_row (by decide) v h r c

/-- A 1 × 512 row copied to the 128 rows, at (r, u): the row at u. -/
theorem row512_apply (v : S1x512.Idx → α) (h : S1x512.Broadcasts S128x512) (r : Fin 128) (u : Fin 512) :
    broadcastTo S128x512 v h (ix2 r u) = v (ix2 0 u) :=
  Cert.RowVector.broadcastTo_row (by decide) v h r u

/-- 256 inputs and 512 per-unit values joined along the columns, at (r, k): the specification's joined row at k. -/
theorem concat_apply (x : S128x256.Idx → EReal) (y : S128x512.Idx → EReal)
    (h : Shape.Concatenates [S128x256, S128x512] S128x768 1) (r : Fin 128) (k : Fin 768) :
    concatenate S128x768 1 [⟨S128x256, x⟩, ⟨S128x512, y⟩] h (ix2 r k)
      = catRow (fun k' => x (ix2 r k')) (fun u => y (ix2 r u)) k := by
  unfold catRow
  by_cases hk : k.val < 256
  · rw [dif_pos hk]
    exact concatenate_pair_apply_left 1 x y h (ix2 r k) rfl (ix2 r ⟨k.val, hk⟩) (fun b => match b with
      | ⟨0, _⟩ => rfl
      | ⟨1, _⟩ => rfl)
  · rw [dif_neg hk]
    exact concatenate_pair_apply_right 1 x y h (ix2 r k) rfl rfl (ix2 r ⟨k.val - 256, by have := k.isLt; omega⟩)
      (fun b hb => match b, hb with
        | ⟨0, _⟩, _ => rfl
        | ⟨1, _⟩, hb => absurd (Fin.ext rfl) hb)
      (by show (k.val - 256) + 256 = k.val; omega)

/-- The entry of the 128 × 8 × 512 block over (r, u) with bucket m is (r, m, u). -/
theorem lift_ix (h : S128x8x512.Reduces [1] S128x512) (r : Fin 128) (u : Fin 512) (m : Fin 8) :
    h.lift (ix2 r u) m = ix3 r m u := by
  funext c
  match c with
  | ⟨0, _⟩ => exact Fin.ext rfl
  | ⟨1, _⟩ => exact Fin.ext rfl
  | ⟨2, _⟩ => exact Fin.ext rfl

/-- The sum over the bucket axis, at (r, u): the sum over m of the entries (r, m, u). -/
theorem sum_buckets (v : FVec Ideal S128x8x512 .f32) (h : S128x8x512.Reduces [1] S128x512) (r : Fin 128) (u : Fin 512) :
    multiReduction .add [1] S128x512 v 0x00000000#32 h (.inl rfl) rfl (ix2 r u) = ∑ m : Fin 8, v (ix3 r m u) :=
  (Ideal.multiReduction_add_single v 0x00000000#32 h (.inl rfl) rfl (ix2 r u)).trans
    (Finset.sum_congr rfl fun m _ => congrArg v (lift_ix h r u m))

/-- The maximum over the bucket axis started from the pattern of −∞, at (r, u): the fold of max over m. -/
theorem max_buckets (v : FVec Ideal S128x8x512 .f32) (h : S128x8x512.Reduces [1] S128x512) (r : Fin 128) (u : Fin 512) :
    multiReduction .maximumf [1] S128x512 v 0xFF800000#32 h (.inl rfl) rfl (ix2 r u)
      = (Finset.univ : Finset (Fin 8)).fold max negInf (fun m => v (ix3 r m u)) :=
  (Ideal.multiReduction_maximumf_single v 0xFF800000#32 h (.inl rfl) rfl (ix2 r u)).trans
    (congrArg (fun f => (Finset.univ : Finset (Fin 8)).fold max negInf f) (funext fun m => congrArg v (lift_ix h r u m)))

end Cert.KernelIdeal.PayloadLayout

end
-- ==== Proof.PayloadGate.lean ====
/-
  The body's softmax over the eight buckets, as one function of the bucket values, read at an entry.

  From bucket values l(r, m, u) and time constants t(m) the body forms the scores 0 − (l − t)², their maximum over m
  taken from the pattern of −∞ and then once more against that pattern, the exponentials of the scores less that
  maximum, and those divided by their sum over m. At (r, m, u) this is the specification's gate of the eight values
  l(r, ·, u), at bucket m: in the extended reals 0 − x is −x, and every other step is the same operation.
-/
import proofs.«154529_j19593640804384_2_alg».proof.Proof.PayloadLayout

noncomputable section

open scoped BigOperators

namespace Cert.KernelIdeal.PayloadGate

open Idealize.ShloMosaic Idealize.ShloMosaic.ValueIdx Cert.KernelIdeal Cert.CtGru Cert.KernelIdeal.PayloadLayout

/-- The scores: zero less the squared distance of each bucket value to its bucket's time constant. -/
def scoreVec (l : FVec Ideal S128x8x512 .f32) (t : FVec Ideal S1x8x1 .f32) (hb : S1x8x1.Broadcasts S128x8x512) :
    FVec Ideal S128x8x512 .f32 :=
  subf (broadcast S128x8x512 (Scalar.ofBits (F := Ideal) .f32 0x00000000#32))
    (mulf (subf l (broadcastTo S128x8x512 t hb)) (subf l (broadcastTo S128x8x512 t hb)))

/-- The largest score of each (row, unit), never below the pattern of −∞. -/
def peakVec (a : FVec Ideal S128x8x512 .f32) (hr : S128x8x512.Reduces [1] S128x512) : FVec Ideal S128x512 .f32 :=
  maximumf (broadcast S128x512 (Scalar.ofBits (F := Ideal) .f32 0xFF800000#32))
    (multiReduction .maximumf [1] S128x512 a 0xFF800000#32 hr (.inl rfl) rfl)

/-- The unnormalised weights: the exponential of each score less its (row, unit)'s largest. -/
def weightVec (a : FVec Ideal S128x8x512 .f32) (hr : S128x8x512.Reduces [1] S128x512)
    (hc : S128x512.ShapeCasts S128x1x512) (hk : S128x1x512.Broadcasts S128x8x512) : FVec Ideal S128x8x512 .f32 :=
  exp (subf a (broadcastTo S128x8x512 (shapeCast S128x1x512 (peakVec a hr) hc) hk))

/-- The weights divided by their sum over the buckets. -/
def normVec (w : FVec Ideal S128x8x512 .f32) (hr : S128x8x512.Reduces [1] S128x512)
    (hc : S128x512.ShapeCasts S128x1x512) (hk : S128x1x512.Broadcasts S128x8x512) : FVec Ideal S128x8x512 .f32 :=
  divf w (broadcastTo S128x8x512 (shapeCast S128x1x512 (multiReduction .add [1] S128x512 w 0x00000000#32 hr (.inl rfl) rfl) hc) hk)

/-- The whole chain: the gate of every (row, unit) over its buckets. -/
def gateVec (l : FVec Ideal S128x8x512 .f32) (t : FVec Ideal S1x8x1 .f32) (hb : S1x8x1.Broadcasts S128x8x512)
    (hr : S128x8x512.Reduces [1] S128x512) (hc : S128x512.ShapeCasts S128x1x512) (hk : S128x1x512.Broadcasts S128x8x512) :
    FVec Ideal S128x8x512 .f32 :=
  normVec (weightVec (scoreVec l t hb) hr hc hk) hr hc hk

/-- In the extended reals zero less x is −x. -/
theorem zero_sub_ereal (x : EReal) : (0 : EReal) - x = -x := by
  rw [sub_eq_add_neg, zero_add]

/-- A score at (r, m, u): the specification's score of the eight values l(r, ·, u), at m. -/
theorem scoreVec_apply (l : FVec Ideal S128x8x512 .f32) (t : FVec Ideal S1x8x1 .f32) (hb : S1x8x1.Broadcasts S128x8x512)
    (ht : ∀ m : Fin 8, t (ix3 0 m 0) = tau m) (r : Fin 128) (m : Fin 8) (u : Fin 512) :
    scoreVec l t hb (ix3 r m u) = score (fun m' => l (ix3 r m' u)) m := by
  show Ideal.ofBits .f32 0x00000000#32
      - (l (ix3 r m u) - broadcastTo S128x8x512 t hb (ix3 r m u)) * (l (ix3 r m u) - broadcastTo S128x8x512 t hb (ix3 r m u))
    = -((l (ix3 r m u) - tau m) * (l (ix3 r m u) - tau m))
  rw [bucket_apply t hb r m u, ht m, Ideal.ofBits_zero_f32, zero_sub_ereal]

/-- The largest score at (r, u): the specification's peak of the eight scores. -/
theorem peakVec_apply (a : FVec Ideal S128x8x512 .f32) (hr : S128x8x512.Reduces [1] S128x512) (r : Fin 128) (u : Fin 512) :
    peakVec a hr (ix2 r u) = peak (fun m => a (ix3 r m u)) := by
  unfold peakVec
  rw [maximumf_apply, broadcast_apply, max_buckets a hr r u]
  rfl

/-- A weight at (r, m, u): the specification's weight of the eight scores, at m. -/
theorem weightVec_apply (a : FVec Ideal S128x8x512 .f32) (hr : S128x8x512.Reduces [1] S128x512)
    (hc : S128x512.ShapeCasts S128x1x512) (hk : S128x1x512.Broadcasts S128x8x512) (r : Fin 128) (m : Fin 8) (u : Fin 512) :
    weightVec a hr hc hk (ix3 r m u) = weight (fun m' => a (ix3 r m' u)) m := by
  show Ideal.exp (a (ix3 r m u) - broadcastTo S128x8x512 (shapeCast S128x1x512 (peakVec a hr) hc) hk (ix3 r m u))
    = Ideal.exp (a (ix3 r m u) - peak (fun m' => a (ix3 r m' u)))
  rw [keepdims_apply (peakVec a hr) hc hk r m u, peakVec_apply a hr r u]

/-- A normalised weight at (r, m, u): the weight divided by the sum of the eight weights. -/
theorem normVec_apply (w : FVec Ideal S128x8x512 .f32) (hr : S128x8x512.Reduces [1] S128x512)
    (hc : S128x512.ShapeCasts S128x1x512) (hk : S128x1x512.Broadcasts S128x8x512) (r : Fin 128) (m : Fin 8) (u : Fin 512) :
    normVec w hr hc hk (ix3 r m u) = Ideal.div (w (ix3 r m u)) (∑ m' : Fin 8, w (ix3 r m' u)) := by
  show Ideal.div (w (ix3 r m u))
      (broadcastTo S128x8x512 (shapeCast S128x1x512 (multiReduction .add [1] S128x512 w 0x00000000#32 hr (.inl rfl) rfl) hc) hk (ix3 r m u))
    = Ideal.div (w (ix3 r m u)) (∑ m' : Fin 8, w (ix3 r m' u))
  rw [keepdims_apply _ hc hk r m u, sum_buckets w hr r u]

/-- The chain at (r, m, u): the specification's gate of the eight bucket values l(r, ·, u), at m. -/
theorem gateVec_apply (l : FVec Ideal S128x8x512 .f32) (t : FVec Ideal S1x8x1 .f32) (hb : S1x8x1.Broadcasts S128x8x512)
    (hr : S128x8x512.Reduces [1] S128x512) (hc : S128x512.ShapeCasts S128x1x512) (hk : S128x1x512.Broadcasts S128x8x512)
    (ht : ∀ m : Fin 8, t (ix3 0 m 0) = tau m) (r : Fin 128) (m : Fin 8) (u : Fin 512) :
    gateVec l t hb hr hc hk (ix3 r m u) = gate (fun m' => l (ix3 r m' u)) m := by
  have hs : (fun m' : Fin 8 => scoreVec l t hb (ix3 r m' u)) = score (fun m' => l (ix3 r m' u)) :=
    funext fun m' => scoreVec_apply l t hb ht r m' u
  unfold gateVec gate
  rw [normVec_apply _ hr hc hk r m u, weightVec_apply _ hr hc hk r m u, hs]
  exact congrArg (Ideal.div _) (Finset.sum_congr rfl fun m' _ => by rw [weightVec_apply _ hr hc hk r m' u, hs])

end Cert.KernelIdeal.PayloadGate

end
-- ==== Proof.PayloadMatmul.lean ====
/-
  The body's two matrix products with their biases, read at an entry.

  A gate's affine map: the block's 768-number rows times a 768 × 4096 weight block into the zero accumulator, plus the
  1 × 4096 bias row copied to every row, the 4096 columns then viewed as 8 × 512. At (r, m, u) that is the sum over
  k of z(r, k) · W(k, m·512 + u), plus the bias at column m·512 + u. The detected signal: the rows times a 768 × 512
  block plus a 1 × 512 bias row, through tanh; at (r, u) the tanh of the sum over k of z(r, k) · W(k, u) plus the bias
  at u. A reshape to the same shape changes nothing.
-/
import proofs.«154529_j19593640804384_2_alg».proof.Proof.PayloadLayout
import proofs.«154529_j19593640804384_2_alg».proof.Proof.LibPlainDot

noncomputable section

open scoped BigOperators

namespace Cert.KernelIdeal.PayloadMatmul

open Idealize.ShloMosaic Idealize.ShloMosaic.ValueIdx Cert.KernelIdeal Cert.CtGru Cert.KernelIdeal.PayloadLayout

/-- A gate's affine map on the block, as 128 × 8 × 512 bucket values. -/
def linVec (D : DotDims S128x768 S768x4096 S128x4096) (z : FVec Ideal S128x768 .bf16) (W : FVec Ideal S768x4096 .bf16)
    (b : FVec Ideal S1x4096 .f32) (hW : S768x4096.ShapeCasts S768x4096) (hb : S1x4096.ShapeCasts S1x4096)
    (hbb : S1x4096.Broadcasts S128x4096) (hs : S128x4096.ShapeCasts S128x8x512) : FVec Ideal S128x8x512 .f32 :=
  shapeCast S128x8x512
    (addf (matmul D none z (shapeCast S768x4096 W hW) (constant (F := Ideal) S128x4096 .f32 0x00000000#32))
      (broadcastTo S128x4096 (shapeCast S1x4096 b hb) hbb)) hs

/-- The affine map at (r, m, u): the row's product with column m·512 + u of the weights, plus that column's bias. -/
theorem linVec_apply (D : DotDims S128x768 S768x4096 S128x4096) (hD : D = DotDims.plain 128 768 4096)
    (z : FVec Ideal S128x768 .bf16) (W : FVec Ideal S768x4096 .bf16) (b : FVec Ideal S1x4096 .f32)
    (hW : S768x4096.ShapeCasts S768x4096) (hb : S1x4096.ShapeCasts S1x4096)
    (hbb : S1x4096.Broadcasts S128x4096) (hs : S128x4096.ShapeCasts S128x8x512) (r : Fin 128) (m : Fin 8) (u : Fin 512) :
    linVec D z W b hW hb hbb hs (ix3 r m u)
      = (∑ k : Fin 768, z (ix2 r k) * W (ix2 k (bcol m u))) + b (ix2 0 (bcol m u)) := by
  unfold linVec
  rw [split_apply _ hs r m u, shapeCast_self W hW, shapeCast_self b hb]
  show FloatOps.matmul D none z W (constant (F := Ideal) S128x4096 .f32 0x00000000#32) (ix2 r (bcol m u))
      + broadcastTo S128x4096 b hbb (ix2 r (bcol m u)) = _
  rw [Cert.PlainDot.matmul_zero_apply D hD none z W r (bcol m u), row4096_apply b hbb r (bcol m u)]

/-- The detected signal on the block, as 128 × 512 values. -/
def detVec (D : DotDims S128x768 S768x512 S128x512) (z : FVec Ideal S128x768 .bf16) (W : FVec Ideal S768x512 .bf16)
    (b : FVec Ideal S1x512 .f32) (hb : S1x512.ShapeCasts S1x512) (hbb : S1x512.Broadcasts S128x512) :
    FVec Ideal S128x512 .f32 :=
  tanh (addf (matmul D none z W (constant (F := Ideal) S128x512 .f32 0x00000000#32))
    (broadcastTo S128x512 (shapeCast S1x512 b hb) hbb))

/-- The detected signal at (r, u): tanh of the row's product with column u of the weights plus the bias at u. -/
theorem detVec_apply (D : DotDims S128x768 S768x512 S128x512) (hD : D = DotDims.plain 128 768 512)
    (z : FVec Ideal S128x768 .bf16) (W : FVec Ideal S768x512 .bf16) (b : FVec Ideal S1x512 .f32)
    (hb : S1x512.ShapeCasts S1x512) (hbb : S1x512.Broadcasts S128x512) (r : Fin 128) (u : Fin 512) :
    detVec D z W b hb hbb (ix2 r u) = Ideal.tanh ((∑ k : Fin 768, z (ix2 r k) * W (ix2 k u)) + b (ix2 0 u)) := by
  unfold detVec
  rw [shapeCast_self b hb]
  show Ideal.tanh (FloatOps.matmul D none z W (constant (F := Ideal) S128x512 .f32 0x00000000#32) (ix2 r u)
      + broadcastTo S128x512 b hbb (ix2 r u)) = _
  rw [Cert.PlainDot.matmul_zero_apply D hD none z W r u, row512_apply b hbb r u]

end Cert.KernelIdeal.PayloadMatmul

end
-- ==== Proof.Payload.lean ====
/-
  The kernel body's two stored values read at an index: on a block of 128 batch rows the body computes, for row r,
  the cell step of `Cert.CtGru` on the row's inputs and buckets (the state block being bucket-major).

  The body's arithmetic is the same formula as the specification's, laid out on whole blocks: the joined row
  [x, Σ_m s] feeds both gates' affine maps; each gate is the softmax chain over the bucket axis; the retrieval gate's
  average of the buckets, joined to x again, feeds the detected signal; the new bucket values are the storage gate's
  mix of the old bucket and the detected signal, times the bucket's decay. Each block operation is read at an entry
  and the entries are folded into the specification's definitions; the weight and bias blocks' columns are
  bucket-major (m·512 + u) where the specification's are unit-major (u·8 + m), which is what the hypotheses say.
-/
import proofs.«154529_j19593640804384_2_alg».proof.Proof.Gen.KernelIdeal.Frame
import proofs.«154529_j19593640804384_2_alg».proof.Proof.Spec
import proofs.«154529_j19593640804384_2_alg».proof.Proof.LibPlainDot
import proofs.«154529_j19593640804384_2_alg».proof.Proof.LibRowVector
import proofs.«154529_j19593640804384_2_alg».proof.Proof.PayloadLayout
import proofs.«154529_j19593640804384_2_alg».proof.Proof.PayloadGate
import proofs.«154529_j19593640804384_2_alg».proof.Proof.PayloadMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.CtGru
open Cert.KernelIdeal.PayloadLayout Cert.KernelIdeal.PayloadGate Cert.KernelIdeal.PayloadMatmul

/-- Zero offsets, however many axes. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The three reshapes to the same shape change nothing. -/
theorem pay1_eq (x1 : FVec Ideal S128x8x512 .f32) : k0_pay1 (F := Ideal) x1 = x1 :=
  shapeCast_self x1 shapeCasts_S128x8x512_S128x8x512
theorem pay3_eq (x8 : FVec Ideal S1x8x1 .f32) : k0_pay3 (F := Ideal) x8 = x8 :=
  shapeCast_self x8 shapeCasts_S1x8x1_S1x8x1
theorem pay5_eq (x6 : FVec Ideal S768x512 .bf16) : k0_pay5 (F := Ideal) x6 = x6 :=
  shapeCast_self x6 shapeCasts_S768x512_S768x512

/-- The joined row [x, Σ_m s] at (r, k). -/
theorem pay2_apply (x0 : FVec Ideal S128x256 .f32) (x1 : FVec Ideal S128x8x512 .f32) (r : Fin 128) (k : Fin 768) :
    k0_pay2 (F := Ideal) x0 x1 (ix2 r k)
      = catRow (fun k' => x0 (ix2 r k')) (sumRow (fun u m => x1 (ix3 r m u))) k := by
  show concatenate S128x768 1 [⟨S128x256, x0⟩, ⟨S128x512, multiReduction .add [1] S128x512 (k0_pay1 (F := Ideal) x1)
      0x00000000#32 reduces_S128x8x512_S128x512 (.inl rfl) rfl⟩] concatenates_S128x256_S128x512_S128x768_d1 (ix2 r k) = _
  refine (concat_apply x0 _ concatenates_S128x256_S128x512_S128x768_d1 r k).trans ?_
  refine congrArg (fun y => catRow (fun k' => x0 (ix2 r k')) y k) (funext fun u => ?_)
  rw [pay1_eq]
  exact sum_buckets x1 reduces_S128x8x512_S128x512 r u

/-- A gate of the block at (r, m, u), from its operands read at entries: the specification's gate of the affine
    map's eight values. -/
theorem gate_lin_apply (z : FVec Ideal S128x768 .bf16) (W : FVec Ideal S768x4096 .bf16) (b : FVec Ideal S1x4096 .f32)
    (t : FVec Ideal S1x8x1 .f32) (r : Fin 128) (zr : Fin 768 → EReal) (Wm : Mat 768 4096) (bv : Vec1 4096)
    (hz : ∀ k : Fin 768, z (ix2 r k) = zr k)
    (hW : ∀ (k : Fin 768) (u : Fin 512) (m : Fin 8), W (ix2 k (bcol m u)) = Wm (ix2 k (col u m)))
    (hb : ∀ (u : Fin 512) (m : Fin 8), b (ix2 0 (bcol m u)) = bv (ix1 (col u m)))
    (ht : ∀ m : Fin 8, t (ix3 0 m 0) = tau m) (m : Fin 8) (u : Fin 512) :
    gateVec (linVec dot_S128x768_S768x4096_S128x4096_1_0_0_1_n_n z W b shapeCasts_S768x4096_S768x4096 shapeCasts_S1x4096_S1x4096 broadcasts_S1x4096_S128x4096 shapeCasts_S128x4096_S128x8x512) t broadcasts_S1x8x1_S128x8x512 reduces_S128x8x512_S128x512 shapeCasts_S128x512_S128x1x512 broadcasts_S128x1x512_S128x8x512 (ix3 r m u)
      = gate (linRow zr Wm bv u) m := by
  rw [gateVec_apply _ t _ _ _ _ ht r m u]
  refine congrArg (fun l => gate l m) (funext fun m' => ?_)
  rw [linVec_apply dot_S128x768_S768x4096_S128x4096_1_0_0_1_n_n rfl z W b _ _ _ _ r m' u]
  unfold linRow
  rw [hb u m']
  exact congrArg (· + bv (ix1 (col u m'))) (Finset.sum_congr rfl fun k _ => by rw [hz k, hW k u m'])

/-- The joined row [x, q] at (r, k): q the retrieval gate's average of the buckets. -/
theorem pay4_apply (x0 : FVec Ideal S128x256 .f32) (x1 : FVec Ideal S128x8x512 .f32) (x2 : FVec Ideal S768x4096 .bf16)
    (x3 : FVec Ideal S1x4096 .f32) (x8 : FVec Ideal S1x8x1 .f32) (Wr : Mat 768 4096) (br : Vec1 4096)
    (h2 : ∀ (k : Fin 768) (u : Fin 512) (m : Fin 8), x2 (ix2 k (bcol m u)) = Wr (ix2 k (col u m)))
    (h3 : ∀ (u : Fin 512) (m : Fin 8), x3 (ix2 0 (bcol m u)) = br (ix1 (col u m)))
    (h8 : ∀ m : Fin 8, x8 (ix3 0 m 0) = tau m) (r : Fin 128) (k : Fin 768) :
    k0_pay4 (F := Ideal) x0 x1 x2 x3 x8 (ix2 r k)
      = catRow (fun k' => x0 (ix2 r k')) (recallRow (fun k' => x0 (ix2 r k')) (fun u m => x1 (ix3 r m u)) Wr br) k := by
  show concatenate S128x768 1 [⟨S128x256, x0⟩, ⟨S128x512, multiReduction .add [1] S128x512
      (mulf (gateVec (linVec dot_S128x768_S768x4096_S128x4096_1_0_0_1_n_n (k0_pay2 (F := Ideal) x0 x1) x2 x3 shapeCasts_S768x4096_S768x4096 shapeCasts_S1x4096_S1x4096 broadcasts_S1x4096_S128x4096 shapeCasts_S128x4096_S128x8x512)
          (k0_pay3 (F := Ideal) x8) broadcasts_S1x8x1_S128x8x512 reduces_S128x8x512_S128x512 shapeCasts_S128x512_S128x1x512 broadcasts_S128x1x512_S128x8x512) (k0_pay1 (F := Ideal) x1))
      0x00000000#32 reduces_S128x8x512_S128x512 (.inl rfl) rfl⟩] concatenates_S128x256_S128x512_S128x768_d1 (ix2 r k) = _
  refine (concat_apply x0 _ concatenates_S128x256_S128x512_S128x768_d1 r k).trans ?_
  refine congrArg (fun y => catRow (fun k' => x0 (ix2 r k')) y k) (funext fun u => ?_)
  refine (sum_buckets _ reduces_S128x8x512_S128x512 r u).trans ?_
  unfold recallRow
  refine Finset.sum_congr rfl fun m _ => ?_
  rw [mulf_apply, pay1_eq, pay3_eq]
  exact congrArg (· * x1 (ix3 r m u))
    (gate_lin_apply (k0_pay2 (F := Ideal) x0 x1) x2 x3 x8 r _ Wr br (fun k' => pay2_apply x0 x1 r k') h2 h3 h8 m u)

/-- The new bucket value at (r, m, u) from the body's intermediate blocks: the storage gate's mix of the old bucket
    and the detected signal, times the bucket's decay. -/
theorem pay6_apply (v2 : FVec Ideal S128x8x512 .f32) (v5 : FVec Ideal S128x768 .bf16) (v15 : FVec Ideal S1x8x1 .f32)
    (v35 : FVec Ideal S128x768 .bf16) (v37 : FVec Ideal S768x512 .bf16) (v39 : FVec Ideal S1x512 .f32)
    (v45 : FVec Ideal S768x4096 .bf16) (v48 : FVec Ideal S1x4096 .f32) (v69 : FVec Ideal S1x8x1 .f32)
    (r : Fin 128) (m : Fin 8) (u : Fin 512) :
    k0_pay6 (F := Ideal) v2 v5 v15 v35 v37 v39 v45 v48 v69 (ix3 r m u)
      = ((one - gateVec (linVec dot_S128x768_S768x4096_S128x4096_1_0_0_1_n_n v5 v45 v48 shapeCasts_S768x4096_S768x4096 shapeCasts_S1x4096_S1x4096 broadcasts_S1x4096_S128x4096 shapeCasts_S128x4096_S128x8x512) v15 broadcasts_S1x8x1_S128x8x512 reduces_S128x8x512_S128x512 shapeCasts_S128x512_S128x1x512 broadcasts_S128x1x512_S128x8x512 (ix3 r m u)) * v2 (ix3 r m u)
          + gateVec (linVec dot_S128x768_S768x4096_S128x4096_1_0_0_1_n_n v5 v45 v48 shapeCasts_S768x4096_S768x4096 shapeCasts_S1x4096_S1x4096 broadcasts_S1x4096_S128x4096 shapeCasts_S128x4096_S128x8x512) v15 broadcasts_S1x8x1_S128x8x512 reduces_S128x8x512_S128x512 shapeCasts_S128x512_S128x1x512 broadcasts_S128x1x512_S128x8x512 (ix3 r m u)
            * detVec dot_S128x768_S768x512_S128x512_1_0_0_1_n_n v35 v37 v39 shapeCasts_S1x512_S1x512 broadcasts_S1x512_S128x512 (ix2 r u))
        * v69 (ix3 0 m 0) := by
  show ((Ideal.ofBits .f32 0x3F800000#32
          - gateVec (linVec dot_S128x768_S768x4096_S128x4096_1_0_0_1_n_n v5 v45 v48 shapeCasts_S768x4096_S768x4096 shapeCasts_S1x4096_S1x4096 broadcasts_S1x4096_S128x4096 shapeCasts_S128x4096_S128x8x512) v15 broadcasts_S1x8x1_S128x8x512 reduces_S128x8x512_S128x512 shapeCasts_S128x512_S128x1x512 broadcasts_S128x1x512_S128x8x512 (ix3 r m u)) * v2 (ix3 r m u)
        + gateVec (linVec dot_S128x768_S768x4096_S128x4096_1_0_0_1_n_n v5 v45 v48 shapeCasts_S768x4096_S768x4096 shapeCasts_S1x4096_S1x4096 broadcasts_S1x4096_S128x4096 shapeCasts_S128x4096_S128x8x512) v15 broadcasts_S1x8x1_S128x8x512 reduces_S128x8x512_S128x512 shapeCasts_S128x512_S128x1x512 broadcasts_S128x1x512_S128x8x512 (ix3 r m u)
          * broadcastTo S128x8x512 (shapeCast S128x1x512
              (detVec dot_S128x768_S768x512_S128x512_1_0_0_1_n_n v35 v37 v39 shapeCasts_S1x512_S1x512 broadcasts_S1x512_S128x512)
              shapeCasts_S128x512_S128x1x512) broadcasts_S128x1x512_S128x8x512 (ix3 r m u))
      * broadcastTo S128x8x512 (shapeCast S1x8x1 v69 shapeCasts_S1x8x1_S1x8x1) broadcasts_S1x8x1_S128x8x512 (ix3 r m u) = _
  rw [keepdims_apply _ shapeCasts_S128x512_S128x1x512 broadcasts_S128x1x512_S128x8x512 r m u,
    shapeCast_self v69 shapeCasts_S1x8x1_S1x8x1, bucket_apply v69 broadcasts_S1x8x1_S128x8x512 r m u]
  rfl

/-- The body's new bucket value at (r, m, u) on the loaded blocks: the specification's step. -/
theorem body_apply (x0 : FVec Ideal S128x256 .f32) (x1 : FVec Ideal S128x8x512 .f32) (x2 : FVec Ideal S768x4096 .bf16)
    (x3 : FVec Ideal S1x4096 .f32) (x4 : FVec Ideal S768x4096 .bf16) (x5 : FVec Ideal S1x4096 .f32)
    (x6 : FVec Ideal S768x512 .bf16) (x7 : FVec Ideal S1x512 .f32) (x8 x9 : FVec Ideal S1x8x1 .f32)
    (Wr Ws : Mat 768 4096) (br bs : Vec1 4096) (Wd : Mat 768 512) (bd : Vec1 512)
    (h2 : ∀ (k : Fin 768) (u : Fin 512) (m : Fin 8), x2 (ix2 k (bcol m u)) = Wr (ix2 k (col u m)))
    (h3 : ∀ (u : Fin 512) (m : Fin 8), x3 (ix2 0 (bcol m u)) = br (ix1 (col u m)))
    (h4 : ∀ (k : Fin 768) (u : Fin 512) (m : Fin 8), x4 (ix2 k (bcol m u)) = Ws (ix2 k (col u m)))
    (h5 : ∀ (u : Fin 512) (m : Fin 8), x5 (ix2 0 (bcol m u)) = bs (ix1 (col u m)))
    (h6 : ∀ (k : Fin 768) (u : Fin 512), x6 (ix2 k u) = Wd (ix2 k u))
    (h7 : ∀ u : Fin 512, x7 (ix2 0 u) = bd (ix1 u))
    (h8 : ∀ m : Fin 8, x8 (ix3 0 m 0) = tau m) (h9 : ∀ m : Fin 8, x9 (ix3 0 m 0) = dec m)
    (r : Fin 128) (m : Fin 8) (u : Fin 512) :
    k0_pay6 (F := Ideal) (k0_pay1 (F := Ideal) x1) (k0_pay2 (F := Ideal) x0 x1) (k0_pay3 (F := Ideal) x8)
        (k0_pay4 (F := Ideal) x0 x1 x2 x3 x8) (k0_pay5 (F := Ideal) x6) x7 x4 x5 x9 (ix3 r m u)
      = stepRow (fun k => x0 (ix2 r k)) (fun u' m' => x1 (ix3 r m' u')) Wr br Ws bs Wd bd u m := by
  rw [pay6_apply, pay1_eq, pay3_eq, pay5_eq, h9 m,
    gate_lin_apply (k0_pay2 (F := Ideal) x0 x1) x4 x5 x8 r _ Ws bs (fun k' => pay2_apply x0 x1 r k') h4 h5 h8 m u,
    detVec_apply dot_S128x768_S768x512_S128x512_1_0_0_1_n_n rfl _ x6 x7 shapeCasts_S1x512_S1x512 broadcasts_S1x512_S128x512 r u, h7 u]
  unfold stepRow detectRow
  refine congrArg (fun d => ((one - gate (linRow (catRow (fun k => x0 (ix2 r k)) (sumRow fun u' m' => x1 (ix3 r m' u'))) Ws bs u) m)
      * x1 (ix3 r m u) + gate (linRow (catRow (fun k => x0 (ix2 r k)) (sumRow fun u' m' => x1 (ix3 r m' u'))) Ws bs u) m
      * Ideal.tanh (d + bd (ix1 u))) * dec m) ?_
  exact Finset.sum_congr rfl fun k _ => by rw [pay4_apply x0 x1 x2 x3 x8 Wr br h2 h3 h8 r k, h6 k u]

/-- The stored new-state block at (row r, bucket m, unit u). -/
theorem out11_apply (x0 : FVec Ideal S128x256 .f32) (x1 : FVec Ideal S128x8x512 .f32) (x2 : FVec Ideal S768x4096 .bf16)
    (x3 : FVec Ideal S1x4096 .f32) (x4 : FVec Ideal S768x4096 .bf16) (x5 : FVec Ideal S1x4096 .f32)
    (x6 : FVec Ideal S768x512 .bf16) (x7 : FVec Ideal S1x512 .f32) (x8 x9 : FVec Ideal S1x8x1 .f32)
    (Wr Ws : Mat 768 4096) (br bs : Vec1 4096) (Wd : Mat 768 512) (bd : Vec1 512)
    (h2 : ∀ (k : Fin 768) (u : Fin 512) (m : Fin 8), x2 (ix2 k (bcol m u)) = Wr (ix2 k (col u m)))
    (h3 : ∀ (u : Fin 512) (m : Fin 8), x3 (ix2 0 (bcol m u)) = br (ix1 (col u m)))
    (h4 : ∀ (k : Fin 768) (u : Fin 512) (m : Fin 8), x4 (ix2 k (bcol m u)) = Ws (ix2 k (col u m)))
    (h5 : ∀ (u : Fin 512) (m : Fin 8), x5 (ix2 0 (bcol m u)) = bs (ix1 (col u m)))
    (h6 : ∀ (k : Fin 768) (u : Fin 512), x6 (ix2 k u) = Wd (ix2 k u))
    (h7 : ∀ u : Fin 512, x7 (ix2 0 u) = bd (ix1 u))
    (h8 : ∀ m : Fin 8, x8 (ix3 0 m 0) = tau m) (h9 : ∀ m : Fin 8, x9 (ix3 0 m 0) = dec m)
    (r : Fin 128) (m : Fin 8) (u : Fin 512) :
    out0_11 (F := Ideal) x0 x1 x2 x3 x4 x5 x6 x7 x8 x9 (ix3 r m u)
      = stepRow (fun k => x0 (ix2 r k)) (fun u' m' => x1 (ix3 r m' u')) Wr br Ws bs Wd bd u m := by
  unfold out0_11
  rw [View.canon_unit_zero hz3]
  simp only [View.ld_unit_zero (S := S128x8x512) hz3, View.ld_unit_zero (S := S128x256) hz2,
    View.ld_unit_zero (S := S768x4096) hz2, View.ld_unit_zero (S := S1x4096) hz2, View.ld_unit_zero (S := S1x8x1) hz3,
    View.ld_unit_zero (S := S768x512) hz2, View.ld_unit_zero (S := S1x512) hz2]
  exact body_apply x0 x1 x2 x3 x4 x5 x6 x7 x8 x9 Wr Ws br bs Wd bd h2 h3 h4 h5 h6 h7 h8 h9 r m u

/-- The stored new unit values at (row r, unit u): the new buckets summed. -/
theorem out10_apply (x0 : FVec Ideal S128x256 .f32) (x1 : FVec Ideal S128x8x512 .f32) (x2 : FVec Ideal S768x4096 .bf16)
    (x3 : FVec Ideal S1x4096 .f32) (x4 : FVec Ideal S768x4096 .bf16) (x5 : FVec Ideal S1x4096 .f32)
    (x6 : FVec Ideal S768x512 .bf16) (x7 : FVec Ideal S1x512 .f32) (x8 x9 : FVec Ideal S1x8x1 .f32)
    (Wr Ws : Mat 768 4096) (br bs : Vec1 4096) (Wd : Mat 768 512) (bd : Vec1 512)
    (h2 : ∀ (k : Fin 768) (u : Fin 512) (m : Fin 8), x2 (ix2 k (bcol m u)) = Wr (ix2 k (col u m)))
    (h3 : ∀ (u : Fin 512) (m : Fin 8), x3 (ix2 0 (bcol m u)) = br (ix1 (col u m)))
    (h4 : ∀ (k : Fin 768) (u : Fin 512) (m : Fin 8), x4 (ix2 k (bcol m u)) = Ws (ix2 k (col u m)))
    (h5 : ∀ (u : Fin 512) (m : Fin 8), x5 (ix2 0 (bcol m u)) = bs (ix1 (col u m)))
    (h6 : ∀ (k : Fin 768) (u : Fin 512), x6 (ix2 k u) = Wd (ix2 k u))
    (h7 : ∀ u : Fin 512, x7 (ix2 0 u) = bd (ix1 u))
    (h8 : ∀ m : Fin 8, x8 (ix3 0 m 0) = tau m) (h9 : ∀ m : Fin 8, x9 (ix3 0 m 0) = dec m)
    (r : Fin 128) (u : Fin 512) :
    out0_10 (F := Ideal) x0 x1 x2 x3 x4 x5 x6 x7 x8 x9 (ix2 r u)
      = ∑ m : Fin 8, stepRow (fun k => x0 (ix2 r k)) (fun u' m' => x1 (ix3 r m' u')) Wr br Ws bs Wd bd u m := by
  unfold out0_10
  rw [View.canon_unit_zero hz2]
  simp only [View.ld_unit_zero (S := S128x8x512) hz3, View.ld_unit_zero (S := S128x256) hz2,
    View.ld_unit_zero (S := S768x4096) hz2, View.ld_unit_zero (S := S1x4096) hz2, View.ld_unit_zero (S := S1x8x1) hz3,
    View.ld_unit_zero (S := S768x512) hz2, View.ld_unit_zero (S := S1x512) hz2]
  refine (sum_buckets _ reduces_S128x8x512_S128x512 r u).trans ?_
  exact Finset.sum_congr rfl fun m _ =>
    body_apply x0 x1 x2 x3 x4 x5 x6 x7 x8 x9 Wr Ws br bs Wd bd h2 h3 h4 h5 h6 h7 h8 h9 r m u

end Cert.KernelIdeal.Payload

end
-- ==== Proof.KFinal.lean ====
/-
  The kernel's two result arrays after the region: each grid point writes back the cell step of its 128 batch rows,
  the blocks cover the arrays, so the unit values end at `newUnits` of the arguments and the state array at the
  bucket-major transpose of `newState`; the host then swaps the last two axes back and flattens.
-/
import proofs.«154529_j19593640804384_2_alg».proof.Proof.KBlocks
import proofs.«154529_j19593640804384_2_alg».proof.Proof.Payload
import Idealize.ShloMosaic.Lib.Pipeline.Value
import Idealize.ShloMosaic.Lib.StableHlo.Run

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.CtGru Idealize.ShloMosaic.StableHlo
open Idealize.ShloMosaic.Pipeline (Dat)

variable (m : (ℓ : Loc nD τ sig) → Buf (Elt Ideal) ℓ) (ρ : Dev nD → PrngReg)

/-- The arguments as launched on core c. -/
abbrev arg0 (c : Dev nD) : Mat 8192 256 := m ((c : Thread nD τ).loc main_arg0)
abbrev arg1 (c : Dev nD) : Mat 8192 4096 := m ((c : Thread nD τ).loc main_arg1)
abbrev arg2 (c : Dev nD) : Mat 768 4096 := m ((c : Thread nD τ).loc main_arg2)
abbrev arg3 (c : Dev nD) : Vec1 4096 := m ((c : Thread nD τ).loc main_arg3)
abbrev arg4 (c : Dev nD) : Mat 768 4096 := m ((c : Thread nD τ).loc main_arg4)
abbrev arg5 (c : Dev nD) : Vec1 4096 := m ((c : Thread nD τ).loc main_arg5)
abbrev arg6 (c : Dev nD) : Mat 768 512 := m ((c : Thread nD τ).loc main_arg6)
abbrev arg7 (c : Dev nD) : Vec1 512 := m ((c : Thread nD τ).loc main_arg7)

/-- The new state laid out bucket-major: batch × bucket × unit. -/
def newStateT (c : Dev nD) : S8192x8x512.Idx → EReal := fun i =>
  stepRow (xRow (arg0 m c) (i 0)) (sRow (arg1 m c) (i 0)) (arg2 m c) (arg3 m c) (arg4 m c) (arg5 m c) (arg6 m c) (arg7 m c) (i 2) (i 1)

theorem hrow0 (c : Dev nD) (t : Fin cfg0.N) (r : Fin 128) :
    (fun k : Fin 256 => (iblk m c 0 t : S128x256.Idx → EReal) (ix2 r k)) = xRow (arg0 m c) (brow t r) :=
  funext fun k => iblk0_apply m c t r k
theorem hrow1 (c : Dev nD) (t : Fin cfg0.N) (r : Fin 128) :
    (fun (u : Fin 512) (j : Fin 8) => (iblk m c 1 t : S128x8x512.Idx → EReal) (ix3 r j u)) = sRow (arg1 m c) (brow t r) :=
  funext fun u => funext fun j => iblk1_apply m c t r j u

/-- Point t writes back block t of the bucket-major new state. -/
theorem flushed11_eq (c : Dev nD) (t : Fin cfg0.N) :
    (dats m 0 c).flushed 11 t = ((cfg0.win 11).blk t).view.read (Elt Ideal) (newStateT m c) := by
  show (cfg0.win 11).cut (grid0.coords t) ((dats m 0 c).after 11 t) = _
  rw [after0_11]
  refine funext fun (y : S128x8x512.Idx) => ?_
  obtain ⟨r, j, u, rfl⟩ : ∃ (r : Fin 128) (j : Fin 8) (u : Fin 512), y = ix3 r j u := ⟨y 0, y 1, y 2, eq_ix3 y⟩
  obtain ⟨-, -, -, -, -, -, -, e0, e1, e2⟩ := idx_moving t
  have hemb : ((cfg0.win 11).blk t).view.emb (ix3 r j u) = ix3 (brow t r) j u := funext fun a => Fin.ext (by
    match a with
    | ⟨0, _⟩ => show win0_11.index t (0 : Fin 3) * 128 + 1 * r.val = t.val * 128 + r.val; rw [e0]; omega
    | ⟨1, _⟩ => show win0_11.index t (1 : Fin 3) * 8 + 1 * j.val = j.val; rw [e1]; omega
    | ⟨2, _⟩ => show win0_11.index t (2 : Fin 3) * 512 + 1 * u.val = u.val; rw [e2]; omega)
  rw [View.read_apply, hemb]
  refine (Payload.out11_apply (iblk m c 0 t) (iblk m c 1 t) (iblk m c 2 t) (iblk m c 3 t) (iblk m c 4 t) (iblk m c 5 t)
    (iblk m c 6 t) (iblk m c 7 t) (iblk m c 8 t) (iblk m c 9 t) (arg2 m c) (arg4 m c) (arg3 m c) (arg5 m c) (arg6 m c) (arg7 m c)
    (fun k u j => iblk2_apply m c t k u j) (fun u j => iblk3_apply m c t u j) (fun k u j => iblk4_apply m c t k u j)
    (fun u j => iblk5_apply m c t u j) (fun k u => iblk6_apply m c t k u) (fun u => iblk7_apply m c t u)
    (fun j => iblk8_apply m c t j) (fun j => iblk9_apply m c t j) r j u).trans ?_
  rw [hrow0 m c t r, hrow1 m c t r]
  rfl

/-- An index of the state array is in point t's block iff its batch row is among the point's 128. -/
theorem mem_blk11 (t : Fin cfg0.N) (i : S8192x8x512.Idx) :
    i ∈ ((cfg0.win 11).blk t).view.set ↔ ∀ a : Fin 3, win0_11.index t a * S128x8x512.size a ≤ (i a).val
      ∧ (i a).val < win0_11.index t a * S128x8x512.size a + S128x8x512.size a := by
  show i ∈ ((View.whole main_v20_1).slice (win0_11.rect t)).set ↔ _
  rw [View.set_slice_whole, Rect.mem_set_unit]
  exact Iff.rfl

/-- Every index of the state array is in the block of the point that holds its batch row. -/
theorem cover11 (i : S8192x8x512.Idx) :
    ∃ t : Fin cfg0.N, (cfg0.win 11).flush t = true ∧ i ∈ ((cfg0.win 11).blk t).view.set := by
  have h0 : (i 0).val < 8192 := (i 0).isLt
  have h1 : (i 1).val < 8 := (i 1).isLt
  have h2 : (i 2).val < 512 := (i 2).isLt
  have hN : cfg0.N = 64 := N_0
  obtain ⟨t, ht⟩ : ∃ t : Fin cfg0.N, t.val = (i 0).val / 128 := ⟨⟨(i 0).val / 128, by omega⟩, rfl⟩
  obtain ⟨-, -, -, -, -, -, -, e0, e1, e2⟩ := idx_moving t
  refine ⟨t, flush0_11 t, ?_⟩
  rw [mem_blk11]
  intro a
  match a with
  | ⟨0, _⟩ => show win0_11.index t (0 : Fin 3) * 128 ≤ (i 0).val ∧ (i 0).val < win0_11.index t (0 : Fin 3) * 128 + 128; rw [e0, ht]; omega
  | ⟨1, _⟩ => show win0_11.index t (1 : Fin 3) * 8 ≤ (i 1).val ∧ (i 1).val < win0_11.index t (1 : Fin 3) * 8 + 8; rw [e1]; omega
  | ⟨2, _⟩ => show win0_11.index t (2 : Fin 3) * 512 ≤ (i 2).val ∧ (i 2).val < win0_11.index t (2 : Fin 3) * 512 + 512; rw [e2]; omega

/-- The state array after the region: the bucket-major new state. -/
theorem final11 (c : Dev nD) : (dats m 0 c).arrAt 11 cfg0.N = newStateT m c :=
  (dats m 0 c).arrAt_eq_of_cover 11 (newStateT m c) (fun t _ => flushed11_eq m c t) cover11

/-- The new unit values of the arguments on core c. -/
abbrev units (c : Dev nD) : S8192x512.Idx → EReal :=
  newUnits (arg0 m c) (arg1 m c) (arg2 m c) (arg3 m c) (arg4 m c) (arg5 m c) (arg6 m c) (arg7 m c)

/-- Point t writes back block t of the new unit values. -/
theorem flushed10_eq (c : Dev nD) (t : Fin cfg0.N) :
    (dats m 0 c).flushed 10 t = ((cfg0.win 10).blk t).view.read (Elt Ideal) (units m c) := by
  show (cfg0.win 10).cut (grid0.coords t) ((dats m 0 c).after 10 t) = _
  rw [after0_10]
  refine funext fun (y : S128x512.Idx) => ?_
  obtain ⟨r, u, rfl⟩ : ∃ (r : Fin 128) (u : Fin 512), y = ix2 r u := ⟨y 0, y 1, eq_ix2 y⟩
  obtain ⟨-, -, -, -, -, e0, e1, -⟩ := idx_moving t
  have hemb : ((cfg0.win 10).blk t).view.emb (ix2 r u) = ix2 (brow t r) u := funext fun a => Fin.ext (by
    match a with
    | ⟨0, _⟩ => show win0_10.index t (0 : Fin 2) * 128 + 1 * r.val = t.val * 128 + r.val; rw [e0]; omega
    | ⟨1, _⟩ => show win0_10.index t (1 : Fin 2) * 512 + 1 * u.val = u.val; rw [e1]; omega)
  rw [View.read_apply, hemb]
  refine (Payload.out10_apply (iblk m c 0 t) (iblk m c 1 t) (iblk m c 2 t) (iblk m c 3 t) (iblk m c 4 t) (iblk m c 5 t)
    (iblk m c 6 t) (iblk m c 7 t) (iblk m c 8 t) (iblk m c 9 t) (arg2 m c) (arg4 m c) (arg3 m c) (arg5 m c) (arg6 m c) (arg7 m c)
    (fun k u j => iblk2_apply m c t k u j) (fun u j => iblk3_apply m c t u j) (fun k u j => iblk4_apply m c t k u j)
    (fun u j => iblk5_apply m c t u j) (fun k u => iblk6_apply m c t k u) (fun u => iblk7_apply m c t u)
    (fun j => iblk8_apply m c t j) (fun j => iblk9_apply m c t j) r u).trans ?_
  rw [hrow0 m c t r, hrow1 m c t r]
  rfl

theorem mem_blk10 (t : Fin cfg0.N) (i : S8192x512.Idx) :
    i ∈ ((cfg0.win 10).blk t).view.set ↔ ∀ a : Fin 2, win0_10.index t a * S128x512.size a ≤ (i a).val
      ∧ (i a).val < win0_10.index t a * S128x512.size a + S128x512.size a := by
  show i ∈ ((View.whole main_v20_0).slice (win0_10.rect t)).set ↔ _
  rw [View.set_slice_whole, Rect.mem_set_unit]
  exact Iff.rfl

theorem cover10 (i : S8192x512.Idx) :
    ∃ t : Fin cfg0.N, (cfg0.win 10).flush t = true ∧ i ∈ ((cfg0.win 10).blk t).view.set := by
  have h0 : (i 0).val < 8192 := (i 0).isLt
  have h1 : (i 1).val < 512 := (i 1).isLt
  have hN : cfg0.N = 64 := N_0
  obtain ⟨t, ht⟩ : ∃ t : Fin cfg0.N, t.val = (i 0).val / 128 := ⟨⟨(i 0).val / 128, by omega⟩, rfl⟩
  obtain ⟨-, -, -, -, -, e0, e1, -⟩ := idx_moving t
  refine ⟨t, flush0_10 t, ?_⟩
  rw [mem_blk10]
  intro a
  match a with
  | ⟨0, _⟩ => show win0_10.index t (0 : Fin 2) * 128 ≤ (i 0).val ∧ (i 0).val < win0_10.index t (0 : Fin 2) * 128 + 128; rw [e0, ht]; omega
  | ⟨1, _⟩ => show win0_10.index t (1 : Fin 2) * 512 ≤ (i 1).val ∧ (i 1).val < win0_10.index t (1 : Fin 2) * 512 + 512; rw [e1]; omega

/-- The unit-value array after the region. -/
theorem final10 (c : Dev nD) : (dats m 0 c).arrAt 10 cfg0.N = units m c :=
  (dats m 0 c).arrAt_eq_of_cover 10 (units m c) (fun t _ => flushed10_eq m c t) cover10

/-- Swapping the bucket-major state's last two axes gives the new state, batch × unit × bucket. -/
theorem transpose_newStateT (c : Dev nD) :
    transpose S8192x512x8 [0, 2, 1] (newStateT m c) Gen.transposes_S8192x8x512_S8192x512x8_0_2_1
      = newState (arg0 m c) (arg1 m c) (arg2 m c) (arg3 m c) (arg4 m c) (arg5 m c) (arg6 m c) (arg7 m c) := by
  funext i
  obtain ⟨b, u, j, rfl⟩ : ∃ (b : Fin 8192) (u : Fin 512) (j : Fin 8), i = ix3 b u j := ⟨i 0, i 1, i 2, eq_ix3 i⟩
  exact transpose_ix3_021_apply _ _ b u j

/-- The second result after the host's tail: the new state flattened unit-major. -/
theorem tail_v22 (c : Dev nD) :
    Pipeline.afterTail₀ cfgs (dats m) 0 (V0 m) [hostOps1] c main_v22
      = shapeCast S8192x4096 (newState (arg0 m c) (arg1 m c) (arg2 m c) (arg3 m c) (arg4 m c) (arg5 m c) (arg6 m c) (arg7 m c))
          Gen.shapeCasts_S8192x512x8_S8192x4096 := by
  unfold Pipeline.afterTail₀
  show StableHlo.after hostOps1 _ (Proc.devRef .tc main_v22) = _
  after_results
  rw [(Pipeline.withArrays_arr spec0 launch0.win.arr_inj c _ _ 11).trans (final11 m c), transpose_newStateT]
  rfl

/-- Every weakly fair execution of the kernel's program terminates with the new unit values and the new state,
    flattened unit-major, of its arguments, and leaves the arguments as they were. -/
theorem run : θ_run (defs (F := Ideal)) (onTc (τ := τ) (main (F := Ideal))) ⟨m, fun _ => 0, ρ⟩ fun r => ∀ c : Dev nD,
      r.2.mem ((c.tc : Thread nD τ).loc main_v20_0) = units m c
      ∧ r.2.mem ((c.tc : Thread nD τ).loc main_v22)
          = shapeCast S8192x4096 (newState (arg0 m c) (arg1 m c) (arg2 m c) (arg3 m c) (arg4 m c) (arg5 m c) (arg6 m c) (arg7 m c))
              Gen.shapeCasts_S8192x512x8_S8192x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 10).trans (final10 m c),
      ((h c).2 main_v22 (Pipeline.mem_restRefs_of main_v22 (by decide) (by decide))).trans (tail_v22 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.KValue

end
-- ==== Proof.RefStages.lean ====
/-
  The reference's arithmetic as array operations, stretch by stretch.

  The reference computes, on whole arrays: the state viewed as batch × unit × bucket and summed over the buckets; the
  inputs and those sums side by side; a gate (an affine map, the squared distance of every bucket to its time constant,
  negated, and a softmax over the buckets) twice, with the retrieval and with the storage weights; the detected signal;
  and the decayed mixture of the old state and the signal. Each stretch is named here as a function of the arrays it
  reads, for any float values, so that the run can be stated over these names and each name read at an index on its own.
-/
import proofs.«154529_j19593640804384_2_alg».proof.Proof.Gen.ReferenceIdeal

noncomputable section

namespace Cert.ReferenceIdeal.Stage

open Cert.ReferenceIdeal Cert.ReferenceIdeal.Gen Idealize.ShloMosaic

variable {F : FTy → Type} [FloatOps F]

/-- The table of the eight time constants, and of the eight decay factors. -/
def tauArr : FVec F S8 .f32 := fun i => FloatOps.ofBits .f32 (lit0 (S8.rowMajor i))
def decArr : FVec F S8 .f32 := fun i => FloatOps.ofBits .f32 (lit1 (S8.rowMajor i))

/-- A batch × 4096 array viewed as batch × unit × bucket, and back. -/
def cubeArr (s : FVec F S8192x4096 .f32) : FVec F S8192x512x8 .f32 :=
  shapeCast S8192x512x8 s shapeCasts_S8192x4096_S8192x512x8
def flatArr (y : FVec F S8192x512x8 .f32) : FVec F S8192x4096 .f32 :=
  shapeCast S8192x4096 y shapeCasts_S8192x512x8_S8192x4096

/-- The sum over the buckets, from zero. -/
def sumArr (y : FVec F S8192x512x8 .f32) : FVec F S8192x512 .f32 :=
  Host.reduceAdd y (constant S_ .f32 0x00000000#32) reducesTo_S8192x512x8_S8192x512_d2 h_S_

/-- 256 input columns followed by 512 unit columns. -/
def catArr (x : FVec F S8192x256 .f32) (y : FVec F S8192x512 .f32) : FVec F S8192x768 .f32 :=
  concatenate S8192x768 1 [⟨S8192x256, x⟩, ⟨S8192x512, y⟩] concatenates_S8192x256_S8192x512_S8192x768_d1

/-- A gate's affine map, as batch × unit × bucket. -/
def linArr (z : FVec F S8192x768 .f32) (W : FVec F S768x4096 .f32) (bias : FVec F S4096 .f32) : FVec F S8192x512x8 .f32 :=
  shapeCast S8192x512x8
    (addf (Host.dotGeneral dot_S8192x768_S768x4096_S8192x4096_1_0_0_1_n_n none z W)
      (broadcastInDim S8192x4096 ![0, 1] bcast_S1x4096_S8192x4096_0_1 (broadcastInDim S1x4096 ![1] bcast_S4096_S1x4096_1 bias)))
    shapeCasts_S8192x4096_S8192x512x8

/-- A per-bucket table copied to every batch row and unit. -/
def tableCube (t : FVec F S8 .f32) : FVec F S8192x512x8 .f32 :=
  broadcastInDim S8192x512x8 ![0, 1, 2] bcast_S1x1x8_S8192x512x8_0_1_2 (broadcastInDim S1x1x8 ![2] bcast_S8_S1x1x8_2 t)

/-- A batch × unit array copied to every bucket. -/
def keepCube (y : FVec F S8192x512 .f32) : FVec F S8192x512x8 .f32 :=
  broadcastInDim S8192x512x8 ![0, 1, 2] bcast_S8192x512x1_S8192x512x8_0_1_2
    (broadcastInDim S8192x512x1 ![0, 1] bcast_S8192x512_S8192x512x1_0_1 y)

/-- The scores: minus the squared distance to the table. -/
def scoreArr (l : FVec F S8192x512x8 .f32) (t : FVec F S8 .f32) : FVec F S8192x512x8 .f32 :=
  Host.negf (mulf (subf l (tableCube t)) (subf l (tableCube t)))

/-- The largest score over the buckets, never below the pattern of −∞. -/
def peakArr (a : FVec F S8192x512x8 .f32) : FVec F S8192x512 .f32 :=
  maximumf (broadcastInDim S8192x512 ![] bcast_S_S8192x512 (constant S_ .f32 0xFF800000#32))
    (Host.reduce FloatOps.maximumf a (constant S_ .f32 0xFF800000#32) reducesTo_S8192x512x8_S8192x512_d2 h_S_)

/-- The unnormalised weights, and the weights divided by their sum over the buckets. -/
def weightArr (a : FVec F S8192x512x8 .f32) : FVec F S8192x512x8 .f32 :=
  Host.exp (subf a (keepCube (peakArr a)))
def normArr (w : FVec F S8192x512x8 .f32) : FVec F S8192x512x8 .f32 :=
  Host.divf w (keepCube (sumArr w))

/-- A gate's scores and the gate. -/
def gateScore (z : FVec F S8192x768 .f32) (W : FVec F S768x4096 .f32) (bias : FVec F S4096 .f32) (t : FVec F S8 .f32) :
    FVec F S8192x512x8 .f32 :=
  scoreArr (linArr z W bias) t
def softArr (a : FVec F S8192x512x8 .f32) : FVec F S8192x512x8 .f32 := normArr (weightArr a)

/-- The detected signal, as batch × unit × 1. -/
def detArr (x : FVec F S8192x256 .f32) (g y : FVec F S8192x512x8 .f32) (Wd : FVec F S768x512 .f32) (bd : FVec F S512 .f32) :
    FVec F S8192x512x1 .f32 :=
  broadcastInDim S8192x512x1 ![0, 1] bcast_S8192x512_S8192x512x1_0_1
    (Host.tanh (addf (Host.dotGeneral dot_S8192x768_S768x512_S8192x512_1_0_0_1_n_n none (catArr x (sumArr (mulf g y))) Wd)
      (broadcastInDim S8192x512 ![0, 1] bcast_S1x512_S8192x512_0_1 (broadcastInDim S1x512 ![1] bcast_S512_S1x512_1 bd))))

/-- The decayed mixture of the old state and the detected signal. -/
def stepArr (g y : FVec F S8192x512x8 .f32) (d : FVec F S8192x512x1 .f32) (t : FVec F S8 .f32) : FVec F S8192x512x8 .f32 :=
  mulf (addf (mulf (subf (broadcastInDim S8192x512x8 ![] bcast_S_S8192x512x8 (constant S_ .f32 0x3F800000#32)) g) y)
      (mulf g (broadcastInDim S8192x512x8 ![0, 1, 2] bcast_S8192x512x1_S8192x512x8_0_1_2 d)))
    (tableCube t)

/-- The new state of the whole batch as batch × unit × bucket, as the reference computes it. -/
def outCube (x : FVec F S8192x256 .f32) (s : FVec F S8192x4096 .f32) (Wr : FVec F S768x4096 .f32) (br : FVec F S4096 .f32)
    (Ws : FVec F S768x4096 .f32) (bs : FVec F S4096 .f32) (Wd : FVec F S768x512 .f32) (bd : FVec F S512 .f32) :
    FVec F S8192x512x8 .f32 :=
  stepArr (softArr (gateScore (catArr x (sumArr (cubeArr s))) Ws bs tauArr)) (cubeArr s)
    (detArr x (softArr (gateScore (catArr x (sumArr (cubeArr s))) Wr br tauArr)) (cubeArr s) Wd bd) decArr

end Cert.ReferenceIdeal.Stage

end
-- ==== Proof.RefRun.lean ====
/-
  The reference's run, stretch by stretch.

  The reference is a straight line of 77 array operations. Its run leaves in every buffer what the operations before
  it computed; read in seven stretches — the state as a cube, its bucket sums and the concatenated row; the retrieval
  gate's scores; its softmax; the detected signal; the storage gate's scores; its softmax; the mixture — each buffer a
  later stretch reads holds the named array function (module RefStages) of the arguments, and the two results are the
  bucket sums and the flattening of the mixture. No operation writes an argument.
-/
import proofs.«154529_j19593640804384_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 77 operations, in order (the two concatenations spelt by their name). -/
abbrev ops : List (HloOp τ sig (Elt F)) :=
  [ nullary main_cst (fun i => FloatOps.ofBits .f32 (lit0 (S8.rowMajor i))),
    nullary main_cst_0 (fun i => FloatOps.ofBits .f32 (lit1 (S8.rowMajor i))),
    reshape main_arg1 main_v0 rfl shapeCasts_S8192x4096_S8192x512x8,
    nullary main_cst_1 (constant S_ .f32 0x00000000#32),
    binary main_v0 main_cst_1 main_v1 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    binary main_arg0 main_v1 main_v2 (Stage.catArr : (⟨S8192x256, .f32⟩ : BufTy).Contents (Elt F) → (⟨S8192x512, .f32⟩ : BufTy).Contents (Elt F) → (⟨S8192x768, .f32⟩ : BufTy).Contents (Elt F)),
    binary main_v2 main_arg2 main_v3 ((fun l r => Host.dotGeneral dot_S8192x768_S768x4096_S8192x4096_1_0_0_1_n_n none l r) : (⟨S8192x768, .f32⟩ : BufTy).Contents (Elt F) → (⟨S768x4096, .f32⟩ : BufTy).Contents (Elt F) → (⟨S8192x4096, .f32⟩ : BufTy).Contents (Elt F)),
    unary main_arg3 main_v4 (broadcastInDim S1x4096 ![1] bcast_S4096_S1x4096_1 : (⟨S4096, .f32⟩ : BufTy).Contents (Elt F) → (⟨S1x4096, .f32⟩ : BufTy).Contents (Elt F)),
    unary main_v4 main_v5 (broadcastInDim S8192x4096 ![0, 1] bcast_S1x4096_S8192x4096_0_1 : (⟨S1x4096, .f32⟩ : BufTy).Contents (Elt F) → (⟨S8192x4096, .f32⟩ : BufTy).Contents (Elt F)),
    binary main_v3 main_v5 main_v6 (addf : (⟨S8192x4096, .f32⟩ : BufTy).Contents (Elt F) → (⟨S8192x4096, .f32⟩ : BufTy).Contents (Elt F) → (⟨S8192x4096, .f32⟩ : BufTy).Contents (Elt F)),
    reshape main_v6 main_v7 rfl shapeCasts_S8192x4096_S8192x512x8,
    unary main_cst main_v8 (broadcastInDim S1x1x8 ![2] bcast_S8_S1x1x8_2 : (⟨S8, .f32⟩ : BufTy).Contents (Elt F) → (⟨S1x1x8, .f32⟩ : BufTy).Contents (Elt F)),
    unary main_v8 main_v9 (broadcastInDim S8192x512x8 ![0, 1, 2] bcast_S1x1x8_S8192x512x8_0_1_2 : (⟨S1x1x8, .f32⟩ : BufTy).Contents (Elt F) → (⟨S8192x512x8, .f32⟩ : BufTy).Contents (Elt F)),
    binary main_v7 main_v9 main_v10 (subf : (⟨S8192x512x8, .f32⟩ : BufTy).Contents (Elt F) → (⟨S8192x512x8, .f32⟩ : BufTy).Contents (Elt F) → (⟨S8192x512x8, .f32⟩ : BufTy).Contents (Elt F)),
    binary main_v10 main_v10 main_v11 (mulf : (⟨S8192x512x8, .f32⟩ : BufTy).Contents (Elt F) → (⟨S8192x512x8, .f32⟩ : BufTy).Contents (Elt F) → (⟨S8192x512x8, .f32⟩ : BufTy).Contents (Elt F)),
    unary main_v11 main_v12 (Host.negf : (⟨S8192x512x8, .f32⟩ : BufTy).Contents (Elt F) → (⟨S8192x512x8, .f32⟩ : BufTy).Contents (Elt F)),
    nullary main_cst_2 (constant S_ .f32 0xFF800000#32),
    binary main_v12 main_cst_2 main_v13 ((fun x v => Host.reduce FloatOps.maximumf x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    nullary main_cst_3 (constant S_ .f32 0xFF800000#32),
    unary main_cst_3 main_v14 (broadcastInDim S8192x512 ![] bcast_S_S8192x512 : (⟨S_, .f32⟩ : BufTy).Contents (Elt F) → (⟨S8192x512, .f32⟩ : BufTy).Contents (Elt F)),
    binary main_v14 main_v13 main_v15 (maximumf : (⟨S8192x512, .f32⟩ : BufTy).Contents (Elt F) → (⟨S8192x512, .f32⟩ : BufTy).Contents (Elt F) → (⟨S8192x512, .f32⟩ : BufTy).Contents (Elt F)),
    unary main_v15 main_v16 (broadcastInDim S8192x512x1 ![0, 1] bcast_S8192x512_S8192x512x1_0_1 : (⟨S8192x512, .f32⟩ : BufTy).Contents (Elt F) → (⟨S8192x512x1, .f32⟩ : BufTy).Contents (Elt F)),
    unary main_v16 main_v17 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v12 main_v17 main_v18 (subf : (⟨S8192x512x8, .f32⟩ : BufTy).Contents (Elt F) → (⟨S8192x512x8, .f32⟩ : BufTy).Contents (Elt F) → (⟨S8192x512x8, .f32⟩ : BufTy).Contents (Elt F)),
    unary main_v18 main_v19 (Host.exp : (⟨S8192x512x8, .f32⟩ : BufTy).Contents (Elt F) → (⟨S8192x512x8, .f32⟩ : BufTy).Contents (Elt F)),
    nullary main_cst_4 (constant S_ .f32 0x00000000#32),
    binary main_v19 main_cst_4 main_v20 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    unary main_v20 main_v21 (broadcastInDim S8192x512x1 ![0, 1] bcast_S8192x512_S8192x512x1_0_1 : (⟨S8192x512, .f32⟩ : BufTy).Contents (Elt F) → (⟨S8192x512x1, .f32⟩ : BufTy).Contents (Elt F)),
    unary main_v21 main_v22 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v19 main_v22 main_v23 (Host.divf : (⟨S8192x512x8, .f32⟩ : BufTy).Contents (Elt F) → (⟨S8192x512x8, .f32⟩ : BufTy).Contents (Elt F) → (⟨S8192x512x8, .f32⟩ : BufTy).Contents (Elt F)),
    binary main_v23 main_v0 main_v24 (mulf : (⟨S8192x512x8, .f32⟩ : BufTy).Contents (Elt F) → (⟨S8192x512x8, .f32⟩ : BufTy).Contents (Elt F) → (⟨S8192x512x8, .f32⟩ : BufTy).Contents (Elt F)),
    nullary main_cst_5 (constant S_ .f32 0x00000000#32),
    binary main_v24 main_cst_5 main_v25 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    binary main_arg0 main_v25 main_v26 (Stage.catArr : (⟨S8192x256, .f32⟩ : BufTy).Contents (Elt F) → (⟨S8192x512, .f32⟩ : BufTy).Contents (Elt F) → (⟨S8192x768, .f32⟩ : BufTy).Contents (Elt F)),
    binary main_v26 main_arg6 main_v27 ((fun l r => Host.dotGeneral dot_S8192x768_S768x512_S8192x512_1_0_0_1_n_n none l r) : (⟨S8192x768, .f32⟩ : BufTy).Contents (Elt F) → (⟨S768x512, .f32⟩ : BufTy).Contents (Elt F) → (⟨S8192x512, .f32⟩ : BufTy).Contents (Elt F)),
    unary main_arg7 main_v28 (broadcastInDim S1x512 ![1] bcast_S512_S1x512_1 : (⟨S512, .f32⟩ : BufTy).Contents (Elt F) → (⟨S1x512, .f32⟩ : BufTy).Contents (Elt F)),
    unary main_v28 main_v29 (broadcastInDim S8192x512 ![0, 1] bcast_S1x512_S8192x512_0_1 : (⟨S1x512, .f32⟩ : BufTy).Contents (Elt F) → (⟨S8192x512, .f32⟩ : BufTy).Contents (Elt F)),
    binary main_v27 main_v29 main_v30 (addf : (⟨S8192x512, .f32⟩ : BufTy).Contents (Elt F) → (⟨S8192x512, .f32⟩ : BufTy).Contents (Elt F) → (⟨S8192x512, .f32⟩ : BufTy).Contents (Elt F)),
    unary main_v30 main_v31 (Host.tanh : (⟨S8192x512, .f32⟩ : BufTy).Contents (Elt F) → (⟨S8192x512, .f32⟩ : BufTy).Contents (Elt F)),
    unary main_v31 main_v32 (broadcastInDim S8192x512x1 ![0, 1] bcast_S8192x512_S8192x512x1_0_1 : (⟨S8192x512, .f32⟩ : BufTy).Contents (Elt F) → (⟨S8192x512x1, .f32⟩ : BufTy).Contents (Elt F)),
    binary main_v2 main_arg4 main_v33 ((fun l r => Host.dotGeneral dot_S8192x768_S768x4096_S8192x4096_1_0_0_1_n_n none l r) : (⟨S8192x768, .f32⟩ : BufTy).Contents (Elt F) → (⟨S768x4096, .f32⟩ : BufTy).Contents (Elt F) → (⟨S8192x4096, .f32⟩ : BufTy).Contents (Elt F)),
    unary main_arg5 main_v34 (broadcastInDim S1x4096 ![1] bcast_S4096_S1x4096_1 : (⟨S4096, .f32⟩ : BufTy).Contents (Elt F) → (⟨S1x4096, .f32⟩ : BufTy).Contents (Elt F)),
    unary main_v34 main_v35 (broadcastInDim S8192x4096 ![0, 1] bcast_S1x4096_S8192x4096_0_1 : (⟨S1x4096, .f32⟩ : BufTy).Contents (Elt F) → (⟨S8192x4096, .f32⟩ : BufTy).Contents (Elt F)),
    binary main_v33 main_v35 main_v36 (addf : (⟨S8192x4096, .f32⟩ : BufTy).Contents (Elt F) → (⟨S8192x4096, .f32⟩ : BufTy).Contents (Elt F) → (⟨S8192x4096, .f32⟩ : BufTy).Contents (Elt F)),
    reshape main_v36 main_v37 rfl shapeCasts_S8192x4096_S8192x512x8,
    unary main_cst main_v38 (broadcastInDim S1x1x8 ![2] bcast_S8_S1x1x8_2 : (⟨S8, .f32⟩ : BufTy).Contents (Elt F) → (⟨S1x1x8, .f32⟩ : BufTy).Contents (Elt F)),
    unary main_v38 main_v39 (broadcastInDim S8192x512x8 ![0, 1, 2] bcast_S1x1x8_S8192x512x8_0_1_2 : (⟨S1x1x8, .f32⟩ : BufTy).Contents (Elt F) → (⟨S8192x512x8, .f32⟩ : BufTy).Contents (Elt F)),
    binary main_v37 main_v39 main_v40 (subf : (⟨S8192x512x8, .f32⟩ : BufTy).Contents (Elt F) → (⟨S8192x512x8, .f32⟩ : BufTy).Contents (Elt F) → (⟨S8192x512x8, .f32⟩ : BufTy).Contents (Elt F)),
    binary main_v40 main_v40 main_v41 (mulf : (⟨S8192x512x8, .f32⟩ : BufTy).Contents (Elt F) → (⟨S8192x512x8, .f32⟩ : BufTy).Contents (Elt F) → (⟨S8192x512x8, .f32⟩ : BufTy).Contents (Elt F)),
    unary main_v41 main_v42 (Host.negf : (⟨S8192x512x8, .f32⟩ : BufTy).Contents (Elt F) → (⟨S8192x512x8, .f32⟩ : BufTy).Contents (Elt F)),
    nullary main_cst_6 (constant S_ .f32 0xFF800000#32),
    binary main_v42 main_cst_6 main_v43 ((fun x v => Host.reduce FloatOps.maximumf x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    nullary main_cst_7 (constant S_ .f32 0xFF800000#32),
    unary main_cst_7 main_v44 (broadcastInDim S8192x512 ![] bcast_S_S8192x512 : (⟨S_, .f32⟩ : BufTy).Contents (Elt F) → (⟨S8192x512, .f32⟩ : BufTy).Contents (Elt F)),
    binary main_v44 main_v43 main_v45 (maximumf : (⟨S8192x512, .f32⟩ : BufTy).Contents (Elt F) → (⟨S8192x512, .f32⟩ : BufTy).Contents (Elt F) → (⟨S8192x512, .f32⟩ : BufTy).Contents (Elt F)),
    unary main_v45 main_v46 (broadcastInDim S8192x512x1 ![0, 1] bcast_S8192x512_S8192x512x1_0_1 : (⟨S8192x512, .f32⟩ : BufTy).Contents (Elt F) → (⟨S8192x512x1, .f32⟩ : BufTy).Contents (Elt F)),
    unary main_v46 main_v47 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v42 main_v47 main_v48 (subf : (⟨S8192x512x8, .f32⟩ : BufTy).Contents (Elt F) → (⟨S8192x512x8, .f32⟩ : BufTy).Contents (Elt F) → (⟨S8192x512x8, .f32⟩ : BufTy).Contents (Elt F)),
    unary main_v48 main_v49 (Host.exp : (⟨S8192x512x8, .f32⟩ : BufTy).Contents (Elt F) → (⟨S8192x512x8, .f32⟩ : BufTy).Contents (Elt F)),
    nullary main_cst_8 (constant S_ .f32 0x00000000#32),
    binary main_v49 main_cst_8 main_v50 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    unary main_v50 main_v51 (broadcastInDim S8192x512x1 ![0, 1] bcast_S8192x512_S8192x512x1_0_1 : (⟨S8192x512, .f32⟩ : BufTy).Contents (Elt F) → (⟨S8192x512x1, .f32⟩ : BufTy).Contents (Elt F)),
    unary main_v51 main_v52 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v49 main_v52 main_v53 (Host.divf : (⟨S8192x512x8, .f32⟩ : BufTy).Contents (Elt F) → (⟨S8192x512x8, .f32⟩ : BufTy).Contents (Elt F) → (⟨S8192x512x8, .f32⟩ : BufTy).Contents (Elt F)),
    nullary main_cst_9 (constant S_ .f32 0x3F800000#32),
    unary main_cst_9 main_v54 (broadcastInDim S8192x512x8 ![] bcast_S_S8192x512x8 : (⟨S_, .f32⟩ : BufTy).Contents (Elt F) → (⟨S8192x512x8, .f32⟩ : BufTy).Contents (Elt F)),
    binary main_v54 main_v53 main_v55 (subf : (⟨S8192x512x8, .f32⟩ : BufTy).Contents (Elt F) → (⟨S8192x512x8, .f32⟩ : BufTy).Contents (Elt F) → (⟨S8192x512x8, .f32⟩ : BufTy).Contents (Elt F)),
    binary main_v55 main_v0 main_v56 (mulf : (⟨S8192x512x8, .f32⟩ : BufTy).Contents (Elt F) → (⟨S8192x512x8, .f32⟩ : BufTy).Contents (Elt F) → (⟨S8192x512x8, .f32⟩ : BufTy).Contents (Elt F)),
    unary main_v32 main_v57 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v53 main_v57 main_v58 (mulf : (⟨S8192x512x8, .f32⟩ : BufTy).Contents (Elt F) → (⟨S8192x512x8, .f32⟩ : BufTy).Contents (Elt F) → (⟨S8192x512x8, .f32⟩ : BufTy).Contents (Elt F)),
    binary main_v56 main_v58 main_v59 (addf : (⟨S8192x512x8, .f32⟩ : BufTy).Contents (Elt F) → (⟨S8192x512x8, .f32⟩ : BufTy).Contents (Elt F) → (⟨S8192x512x8, .f32⟩ : BufTy).Contents (Elt F)),
    unary main_cst_0 main_v60 (broadcastInDim S1x1x8 ![2] bcast_S8_S1x1x8_2 : (⟨S8, .f32⟩ : BufTy).Contents (Elt F) → (⟨S1x1x8, .f32⟩ : BufTy).Contents (Elt F)),
    unary main_v60 main_v61 (broadcastInDim S8192x512x8 ![0, 1, 2] bcast_S1x1x8_S8192x512x8_0_1_2 : (⟨S1x1x8, .f32⟩ : BufTy).Contents (Elt F) → (⟨S8192x512x8, .f32⟩ : BufTy).Contents (Elt F)),
    binary main_v59 main_v61 main_v62 (mulf : (⟨S8192x512x8, .f32⟩ : BufTy).Contents (Elt F) → (⟨S8192x512x8, .f32⟩ : BufTy).Contents (Elt F) → (⟨S8192x512x8, .f32⟩ : BufTy).Contents (Elt F)),
    nullary main_cst_10 (constant S_ .f32 0x00000000#32),
    binary main_v62 main_cst_10 main_v63 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    reshape main_v62 main_v64 rfl shapeCasts_S8192x512x8_S8192x4096 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., reshape_bufs_sub .., nullary_bufs_sub .., binary_bufs_sub .., binary_bufs_sub .., binary_bufs_sub .., unary_bufs_sub .., unary_bufs_sub .., binary_bufs_sub .., reshape_bufs_sub .., unary_bufs_sub .., unary_bufs_sub .., binary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., binary_bufs_sub .., binary_bufs_sub .., unary_bufs_sub .., unary_bufs_sub .., binary_bufs_sub .., unary_bufs_sub .., unary_bufs_sub .., binary_bufs_sub .., unary_bufs_sub .., unary_bufs_sub .., binary_bufs_sub .., reshape_bufs_sub .., unary_bufs_sub .., unary_bufs_sub .., binary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., binary_bufs_sub .., unary_bufs_sub .., binary_bufs_sub .., binary_bufs_sub .., unary_bufs_sub .., unary_bufs_sub .., binary_bufs_sub .., nullary_bufs_sub .., binary_bufs_sub .., reshape_bufs_sub ..⟩

/-- Two lines run one after the other leave what the second leaves from what the first left. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Operations 1 … 6. -/
abbrev opsA : List (HloOp τ sig (Elt F)) :=
  [ nullary main_cst (fun i => FloatOps.ofBits .f32 (lit0 (S8.rowMajor i))),
    nullary main_cst_0 (fun i => FloatOps.ofBits .f32 (lit1 (S8.rowMajor i))),
    reshape main_arg1 main_v0 rfl shapeCasts_S8192x4096_S8192x512x8,
    nullary main_cst_1 (constant S_ .f32 0x00000000#32),
    binary main_v0 main_cst_1 main_v1 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    binary main_arg0 main_v1 main_v2 (Stage.catArr : (⟨S8192x256, .f32⟩ : BufTy).Contents (Elt F) → (⟨S8192x512, .f32⟩ : BufTy).Contents (Elt F) → (⟨S8192x768, .f32⟩ : BufTy).Contents (Elt F)) ]

/-- Operations 7 … 16. -/
abbrev opsB1 : List (HloOp τ sig (Elt F)) :=
  [ binary main_v2 main_arg2 main_v3 ((fun l r => Host.dotGeneral dot_S8192x768_S768x4096_S8192x4096_1_0_0_1_n_n none l r) : (⟨S8192x768, .f32⟩ : BufTy).Contents (Elt F) → (⟨S768x4096, .f32⟩ : BufTy).Contents (Elt F) → (⟨S8192x4096, .f32⟩ : BufTy).Contents (Elt F)),
    unary main_arg3 main_v4 (broadcastInDim S1x4096 ![1] bcast_S4096_S1x4096_1 : (⟨S4096, .f32⟩ : BufTy).Contents (Elt F) → (⟨S1x4096, .f32⟩ : BufTy).Contents (Elt F)),
    unary main_v4 main_v5 (broadcastInDim S8192x4096 ![0, 1] bcast_S1x4096_S8192x4096_0_1 : (⟨S1x4096, .f32⟩ : BufTy).Contents (Elt F) → (⟨S8192x4096, .f32⟩ : BufTy).Contents (Elt F)),
    binary main_v3 main_v5 main_v6 (addf : (⟨S8192x4096, .f32⟩ : BufTy).Contents (Elt F) → (⟨S8192x4096, .f32⟩ : BufTy).Contents (Elt F) → (⟨S8192x4096, .f32⟩ : BufTy).Contents (Elt F)),
    reshape main_v6 main_v7 rfl shapeCasts_S8192x4096_S8192x512x8,
    unary main_cst main_v8 (broadcastInDim S1x1x8 ![2] bcast_S8_S1x1x8_2 : (⟨S8, .f32⟩ : BufTy).Contents (Elt F) → (⟨S1x1x8, .f32⟩ : BufTy).Contents (Elt F)),
    unary main_v8 main_v9 (broadcastInDim S8192x512x8 ![0, 1, 2] bcast_S1x1x8_S8192x512x8_0_1_2 : (⟨S1x1x8, .f32⟩ : BufTy).Contents (Elt F) → (⟨S8192x512x8, .f32⟩ : BufTy).Contents (Elt F)),
    binary main_v7 main_v9 main_v10 (subf : (⟨S8192x512x8, .f32⟩ : BufTy).Contents (Elt F) → (⟨S8192x512x8, .f32⟩ : BufTy).Contents (Elt F) → (⟨S8192x512x8, .f32⟩ : BufTy).Contents (Elt F)),
    binary main_v10 main_v10 main_v11 (mulf : (⟨S8192x512x8, .f32⟩ : BufTy).Contents (Elt F) → (⟨S8192x512x8, .f32⟩ : BufTy).Contents (Elt F) → (⟨S8192x512x8, .f32⟩ : BufTy).Contents (Elt F)),
    unary main_v11 main_v12 (Host.negf : (⟨S8192x512x8, .f32⟩ : BufTy).Contents (Elt F) → (⟨S8192x512x8, .f32⟩ : BufTy).Contents (Elt F)) ]

/-- Operations 17 … 30. -/
abbrev opsB2 : List (HloOp τ sig (Elt F)) :=
  [ nullary main_cst_2 (constant S_ .f32 0xFF800000#32),
    binary main_v12 main_cst_2 main_v13 ((fun x v => Host.reduce FloatOps.maximumf x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    nullary main_cst_3 (constant S_ .f32 0xFF800000#32),
    unary main_cst_3 main_v14 (broadcastInDim S8192x512 ![] bcast_S_S8192x512 : (⟨S_, .f32⟩ : BufTy).Contents (Elt F) → (⟨S8192x512, .f32⟩ : BufTy).Contents (Elt F)),
    binary main_v14 main_v13 main_v15 (maximumf : (⟨S8192x512, .f32⟩ : BufTy).Contents (Elt F) → (⟨S8192x512, .f32⟩ : BufTy).Contents (Elt F) → (⟨S8192x512, .f32⟩ : BufTy).Contents (Elt F)),
    unary main_v15 main_v16 (broadcastInDim S8192x512x1 ![0, 1] bcast_S8192x512_S8192x512x1_0_1 : (⟨S8192x512, .f32⟩ : BufTy).Contents (Elt F) → (⟨S8192x512x1, .f32⟩ : BufTy).Contents (Elt F)),
    unary main_v16 main_v17 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v12 main_v17 main_v18 (subf : (⟨S8192x512x8, .f32⟩ : BufTy).Contents (Elt F) → (⟨S8192x512x8, .f32⟩ : BufTy).Contents (Elt F) → (⟨S8192x512x8, .f32⟩ : BufTy).Contents (Elt F)),
    unary main_v18 main_v19 (Host.exp : (⟨S8192x512x8, .f32⟩ : BufTy).Contents (Elt F) → (⟨S8192x512x8, .f32⟩ : BufTy).Contents (Elt F)),
    nullary main_cst_4 (constant S_ .f32 0x00000000#32),
    binary main_v19 main_cst_4 main_v20 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    unary main_v20 main_v21 (broadcastInDim S8192x512x1 ![0, 1] bcast_S8192x512_S8192x512x1_0_1 : (⟨S8192x512, .f32⟩ : BufTy).Contents (Elt F) → (⟨S8192x512x1, .f32⟩ : BufTy).Contents (Elt F)),
    unary main_v21 main_v22 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v19 main_v22 main_v23 (Host.divf : (⟨S8192x512x8, .f32⟩ : BufTy).Contents (Elt F) → (⟨S8192x512x8, .f32⟩ : BufTy).Contents (Elt F) → (⟨S8192x512x8, .f32⟩ : BufTy).Contents (Elt F)) ]

/-- Operations 31 … 40. -/
abbrev opsC : List (HloOp τ sig (Elt F)) :=
  [ binary main_v23 main_v0 main_v24 (mulf : (⟨S8192x512x8, .f32⟩ : BufTy).Contents (Elt F) → (⟨S8192x512x8, .f32⟩ : BufTy).Contents (Elt F) → (⟨S8192x512x8, .f32⟩ : BufTy).Contents (Elt F)),
    nullary main_cst_5 (constant S_ .f32 0x00000000#32),
    binary main_v24 main_cst_5 main_v25 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    binary main_arg0 main_v25 main_v26 (Stage.catArr : (⟨S8192x256, .f32⟩ : BufTy).Contents (Elt F) → (⟨S8192x512, .f32⟩ : BufTy).Contents (Elt F) → (⟨S8192x768, .f32⟩ : BufTy).Contents (Elt F)),
    binary main_v26 main_arg6 main_v27 ((fun l r => Host.dotGeneral dot_S8192x768_S768x512_S8192x512_1_0_0_1_n_n none l r) : (⟨S8192x768, .f32⟩ : BufTy).Contents (Elt F) → (⟨S768x512, .f32⟩ : BufTy).Contents (Elt F) → (⟨S8192x512, .f32⟩ : BufTy).Contents (Elt F)),
    unary main_arg7 main_v28 (broadcastInDim S1x512 ![1] bcast_S512_S1x512_1 : (⟨S512, .f32⟩ : BufTy).Contents (Elt F) → (⟨S1x512, .f32⟩ : BufTy).Contents (Elt F)),
    unary main_v28 main_v29 (broadcastInDim S8192x512 ![0, 1] bcast_S1x512_S8192x512_0_1 : (⟨S1x512, .f32⟩ : BufTy).Contents (Elt F) → (⟨S8192x512, .f32⟩ : BufTy).Contents (Elt F)),
    binary main_v27 main_v29 main_v30 (addf : (⟨S8192x512, .f32⟩ : BufTy).Contents (Elt F) → (⟨S8192x512, .f32⟩ : BufTy).Contents (Elt F) → (⟨S8192x512, .f32⟩ : BufTy).Contents (Elt F)),
    unary main_v30 main_v31 (Host.tanh : (⟨S8192x512, .f32⟩ : BufTy).Contents (Elt F) → (⟨S8192x512, .f32⟩ : BufTy).Contents (Elt F)),
    unary main_v31 main_v32 (broadcastInDim S8192x512x1 ![0, 1] bcast_S8192x512_S8192x512x1_0_1 : (⟨S8192x512, .f32⟩ : BufTy).Contents (Elt F) → (⟨S8192x512x1, .f32⟩ : BufTy).Contents (Elt F)) ]

/-- Operations 41 … 50. -/
abbrev opsD1 : List (HloOp τ sig (Elt F)) :=
  [ binary main_v2 main_arg4 main_v33 ((fun l r => Host.dotGeneral dot_S8192x768_S768x4096_S8192x4096_1_0_0_1_n_n none l r) : (⟨S8192x768, .f32⟩ : BufTy).Contents (Elt F) → (⟨S768x4096, .f32⟩ : BufTy).Contents (Elt F) → (⟨S8192x4096, .f32⟩ : BufTy).Contents (Elt F)),
    unary main_arg5 main_v34 (broadcastInDim S1x4096 ![1] bcast_S4096_S1x4096_1 : (⟨S4096, .f32⟩ : BufTy).Contents (Elt F) → (⟨S1x4096, .f32⟩ : BufTy).Contents (Elt F)),
    unary main_v34 main_v35 (broadcastInDim S8192x4096 ![0, 1] bcast_S1x4096_S8192x4096_0_1 : (⟨S1x4096, .f32⟩ : BufTy).Contents (Elt F) → (⟨S8192x4096, .f32⟩ : BufTy).Contents (Elt F)),
    binary main_v33 main_v35 main_v36 (addf : (⟨S8192x4096, .f32⟩ : BufTy).Contents (Elt F) → (⟨S8192x4096, .f32⟩ : BufTy).Contents (Elt F) → (⟨S8192x4096, .f32⟩ : BufTy).Contents (Elt F)),
    reshape main_v36 main_v37 rfl shapeCasts_S8192x4096_S8192x512x8,
    unary main_cst main_v38 (broadcastInDim S1x1x8 ![2] bcast_S8_S1x1x8_2 : (⟨S8, .f32⟩ : BufTy).Contents (Elt F) → (⟨S1x1x8, .f32⟩ : BufTy).Contents (Elt F)),
    unary main_v38 main_v39 (broadcastInDim S8192x512x8 ![0, 1, 2] bcast_S1x1x8_S8192x512x8_0_1_2 : (⟨S1x1x8, .f32⟩ : BufTy).Contents (Elt F) → (⟨S8192x512x8, .f32⟩ : BufTy).Contents (Elt F)),
    binary main_v37 main_v39 main_v40 (subf : (⟨S8192x512x8, .f32⟩ : BufTy).Contents (Elt F) → (⟨S8192x512x8, .f32⟩ : BufTy).Contents (Elt F) → (⟨S8192x512x8, .f32⟩ : BufTy).Contents (Elt F)),
    binary main_v40 main_v40 main_v41 (mulf : (⟨S8192x512x8, .f32⟩ : BufTy).Contents (Elt F) → (⟨S8192x512x8, .f32⟩ : BufTy).Contents (Elt F) → (⟨S8192x512x8, .f32⟩ : BufTy).Contents (Elt F)),
    unary main_v41 main_v42 (Host.negf : (⟨S8192x512x8, .f32⟩ : BufTy).Contents (Elt F) → (⟨S8192x512x8, .f32⟩ : BufTy).Contents (Elt F)) ]

/-- Operations 51 … 64. -/
abbrev opsD2 : List (HloOp τ sig (Elt F)) :=
  [ nullary main_cst_6 (constant S_ .f32 0xFF800000#32),
    binary main_v42 main_cst_6 main_v43 ((fun x v => Host.reduce FloatOps.maximumf x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    nullary main_cst_7 (constant S_ .f32 0xFF800000#32),
    unary main_cst_7 main_v44 (broadcastInDim S8192x512 ![] bcast_S_S8192x512 : (⟨S_, .f32⟩ : BufTy).Contents (Elt F) → (⟨S8192x512, .f32⟩ : BufTy).Contents (Elt F)),
    binary main_v44 main_v43 main_v45 (maximumf : (⟨S8192x512, .f32⟩ : BufTy).Contents (Elt F) → (⟨S8192x512, .f32⟩ : BufTy).Contents (Elt F) → (⟨S8192x512, .f32⟩ : BufTy).Contents (Elt F)),
    unary main_v45 main_v46 (broadcastInDim S8192x512x1 ![0, 1] bcast_S8192x512_S8192x512x1_0_1 : (⟨S8192x512, .f32⟩ : BufTy).Contents (Elt F) → (⟨S8192x512x1, .f32⟩ : BufTy).Contents (Elt F)),
    unary main_v46 main_v47 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v42 main_v47 main_v48 (subf : (⟨S8192x512x8, .f32⟩ : BufTy).Contents (Elt F) → (⟨S8192x512x8, .f32⟩ : BufTy).Contents (Elt F) → (⟨S8192x512x8, .f32⟩ : BufTy).Contents (Elt F)),
    unary main_v48 main_v49 (Host.exp : (⟨S8192x512x8, .f32⟩ : BufTy).Contents (Elt F) → (⟨S8192x512x8, .f32⟩ : BufTy).Contents (Elt F)),
    nullary main_cst_8 (constant S_ .f32 0x00000000#32),
    binary main_v49 main_cst_8 main_v50 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    unary main_v50 main_v51 (broadcastInDim S8192x512x1 ![0, 1] bcast_S8192x512_S8192x512x1_0_1 : (⟨S8192x512, .f32⟩ : BufTy).Contents (Elt F) → (⟨S8192x512x1, .f32⟩ : BufTy).Contents (Elt F)),
    unary main_v51 main_v52 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v49 main_v52 main_v53 (Host.divf : (⟨S8192x512x8, .f32⟩ : BufTy).Contents (Elt F) → (⟨S8192x512x8, .f32⟩ : BufTy).Contents (Elt F) → (⟨S8192x512x8, .f32⟩ : BufTy).Contents (Elt F)) ]

/-- Operations 65 … 77. -/
abbrev opsE : List (HloOp τ sig (Elt F)) :=
  [ nullary main_cst_9 (constant S_ .f32 0x3F800000#32),
    unary main_cst_9 main_v54 (broadcastInDim S8192x512x8 ![] bcast_S_S8192x512x8 : (⟨S_, .f32⟩ : BufTy).Contents (Elt F) → (⟨S8192x512x8, .f32⟩ : BufTy).Contents (Elt F)),
    binary main_v54 main_v53 main_v55 (subf : (⟨S8192x512x8, .f32⟩ : BufTy).Contents (Elt F) → (⟨S8192x512x8, .f32⟩ : BufTy).Contents (Elt F) → (⟨S8192x512x8, .f32⟩ : BufTy).Contents (Elt F)),
    binary main_v55 main_v0 main_v56 (mulf : (⟨S8192x512x8, .f32⟩ : BufTy).Contents (Elt F) → (⟨S8192x512x8, .f32⟩ : BufTy).Contents (Elt F) → (⟨S8192x512x8, .f32⟩ : BufTy).Contents (Elt F)),
    unary main_v32 main_v57 (broadcastInDim S8192x512x8 ![0, 1, 2] bcast_S8192x512x1_S8192x512x8_0_1_2 : (⟨S8192x512x1, .f32⟩ : BufTy).Contents (Elt F) → (⟨S8192x512x8, .f32⟩ : BufTy).Contents (Elt F)),
    binary main_v53 main_v57 main_v58 (mulf : (⟨S8192x512x8, .f32⟩ : BufTy).Contents (Elt F) → (⟨S8192x512x8, .f32⟩ : BufTy).Contents (Elt F) → (⟨S8192x512x8, .f32⟩ : BufTy).Contents (Elt F)),
    binary main_v56 main_v58 main_v59 (addf : (⟨S8192x512x8, .f32⟩ : BufTy).Contents (Elt F) → (⟨S8192x512x8, .f32⟩ : BufTy).Contents (Elt F) → (⟨S8192x512x8, .f32⟩ : BufTy).Contents (Elt F)),
    unary main_cst_0 main_v60 (broadcastInDim S1x1x8 ![2] bcast_S8_S1x1x8_2 : (⟨S8, .f32⟩ : BufTy).Contents (Elt F) → (⟨S1x1x8, .f32⟩ : BufTy).Contents (Elt F)),
    unary main_v60 main_v61 (broadcastInDim S8192x512x8 ![0, 1, 2] bcast_S1x1x8_S8192x512x8_0_1_2 : (⟨S1x1x8, .f32⟩ : BufTy).Contents (Elt F) → (⟨S8192x512x8, .f32⟩ : BufTy).Contents (Elt F)),
    binary main_v59 main_v61 main_v62 (mulf : (⟨S8192x512x8, .f32⟩ : BufTy).Contents (Elt F) → (⟨S8192x512x8, .f32⟩ : BufTy).Contents (Elt F) → (⟨S8192x512x8, .f32⟩ : BufTy).Contents (Elt F)),
    nullary main_cst_10 (constant S_ .f32 0x00000000#32),
    binary main_v62 main_cst_10 main_v63 ((fun x v => Host.reduceAdd x v reducesTo_S8192x512x8_S8192x512_d2 h_S_) : (⟨S8192x512x8, .f32⟩ : BufTy).Contents (Elt F) → (⟨S_, .f32⟩ : BufTy).Contents (Elt F) → (⟨S8192x512, .f32⟩ : BufTy).Contents (Elt F)),
    reshape main_v62 main_v64 rfl shapeCasts_S8192x512x8_S8192x4096 ]

set_option maxRecDepth 8192 in
set_option maxHeartbeats 4000000 in
/-- The seven stretches in a row are the whole line. -/
theorem ops_split : (ops : List (HloOp τ sig (Elt F))) = opsA ++ (opsB1 ++ (opsB2 ++ (opsC ++ (opsD1 ++ (opsD2 ++ (opsE)))))) := rfl

/-- The buffers' contents before the first stretch. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl

/-- The buffers' contents after the first 1 stretch. -/
def val1 (V0 : Valuation τ sig (Elt F)) : Valuation τ sig (Elt F) := after opsA (val0 V0)
/-- The buffers stretch A writes. -/
abbrev opsA_W : List (Ref sig .tc) := [main_cst, main_cst_0, main_v0, main_cst_1, main_v1, main_v2]
set_option maxRecDepth 8192 in
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem val1_keep (V0 : Valuation τ sig (Elt F)) (r : Ref sig .tc) (h : r ∉ opsA_W) :
    val1 V0 (Proc.devRef .tc r) = val0 V0 (Proc.devRef .tc r) :=
  after_of_writes_sub opsA _ opsA_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
set_option maxRecDepth 8192 in
set_option maxHeartbeats 4000000 in
theorem val1_main_cst (V0 : Valuation τ sig (Elt F)) : val1 V0 (no_index (Proc.devRef .tc main_cst)) = Stage.tauArr := by
  unfold val1
  simp only [opsA]
  after_results_simp
  all_goals rfl
set_option maxRecDepth 8192 in
set_option maxHeartbeats 4000000 in
theorem val1_main_cst_0 (V0 : Valuation τ sig (Elt F)) : val1 V0 (no_index (Proc.devRef .tc main_cst_0)) = Stage.decArr := by
  unfold val1
  simp only [opsA]
  after_results_simp
  all_goals rfl
set_option maxRecDepth 8192 in
set_option maxHeartbeats 4000000 in
theorem val1_main_v0 (V0 : Valuation τ sig (Elt F)) : val1 V0 (no_index (Proc.devRef .tc main_v0)) = Stage.cubeArr (V0 (Proc.devRef .tc main_arg1)) := by
  unfold val1
  simp only [opsA]
  after_results_simp
  simp only [val0_main_arg1] <;> rfl
set_option maxRecDepth 8192 in
set_option maxHeartbeats 4000000 in
theorem val1_main_v2 (V0 : Valuation τ sig (Elt F)) : val1 V0 (no_index (Proc.devRef .tc main_v2)) = Stage.catArr (V0 (Proc.devRef .tc main_arg0)) (Stage.sumArr (Stage.cubeArr (V0 (Proc.devRef .tc main_arg1)))) := by
  unfold val1
  simp only [opsA]
  after_results_simp
  simp only [val0_main_arg1, val0_main_arg0] <;> rfl

/-- The buffers' contents after the first 2 stretches. -/
def val2 (V0 : Valuation τ sig (Elt F)) : Valuation τ sig (Elt F) := after opsB1 (val1 V0)
/-- The buffers stretch B1 writes. -/
abbrev opsB1_W : List (Ref sig .tc) := [main_v3, main_v4, main_v5, main_v6, main_v7, main_v8, main_v9, main_v10, main_v11, main_v12]
set_option maxRecDepth 8192 in
theorem opsB1_writes : (opsB1 : List (HloOp τ sig (Elt F))).Forall fun op => op.writes ⊆ (opsB1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem val2_keep (V0 : Valuation τ sig (Elt F)) (r : Ref sig .tc) (h : r ∉ opsB1_W) :
    val2 V0 (Proc.devRef .tc r) = val1 V0 (Proc.devRef .tc r) :=
  after_of_writes_sub opsB1 _ opsB1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_cst (V0 : Valuation τ sig (Elt F)) : val2 V0 (no_index (Proc.devRef .tc main_cst)) = Stage.tauArr :=
  (val2_keep V0 main_cst (by decide)).trans (val1_main_cst V0)
theorem val2_main_cst_0 (V0 : Valuation τ sig (Elt F)) : val2 V0 (no_index (Proc.devRef .tc main_cst_0)) = Stage.decArr :=
  (val2_keep V0 main_cst_0 (by decide)).trans (val1_main_cst_0 V0)
theorem val2_main_v0 (V0 : Valuation τ sig (Elt F)) : val2 V0 (no_index (Proc.devRef .tc main_v0)) = Stage.cubeArr (V0 (Proc.devRef .tc main_arg1)) :=
  (val2_keep V0 main_v0 (by decide)).trans (val1_main_v0 V0)
theorem val2_main_v2 (V0 : Valuation τ sig (Elt F)) : val2 V0 (no_index (Proc.devRef .tc main_v2)) = Stage.catArr (V0 (Proc.devRef .tc main_arg0)) (Stage.sumArr (Stage.cubeArr (V0 (Proc.devRef .tc main_arg1)))) :=
  (val2_keep V0 main_v2 (by decide)).trans (val1_main_v2 V0)
set_option maxRecDepth 8192 in
set_option maxHeartbeats 4000000 in
theorem val2_main_v12 (V0 : Valuation τ sig (Elt F)) : val2 V0 (no_index (Proc.devRef .tc main_v12)) = Stage.gateScore (Stage.catArr (V0 (Proc.devRef .tc main_arg0)) (Stage.sumArr (Stage.cubeArr (V0 (Proc.devRef .tc main_arg1))))) (V0 (Proc.devRef .tc main_arg2)) (V0 (Proc.devRef .tc main_arg3)) Stage.tauArr := by
  unfold val2
  simp only [opsB1]
  after_results_simp
  simp only [val1_main_cst, val1_main_arg3, val1_main_arg2, val1_main_v2] <;> rfl

/-- The buffers' contents after the first 3 stretches. -/
def val3 (V0 : Valuation τ sig (Elt F)) : Valuation τ sig (Elt F) := after opsB2 (val2 V0)
/-- The buffers stretch B2 writes. -/
abbrev opsB2_W : List (Ref sig .tc) := [main_cst_2, main_v13, main_cst_3, main_v14, main_v15, main_v16, main_v17, main_v18, main_v19, main_cst_4, main_v20, main_v21, main_v22, main_v23]
set_option maxRecDepth 8192 in
theorem opsB2_writes : (opsB2 : List (HloOp τ sig (Elt F))).Forall fun op => op.writes ⊆ (opsB2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem val3_keep (V0 : Valuation τ sig (Elt F)) (r : Ref sig .tc) (h : r ∉ opsB2_W) :
    val3 V0 (Proc.devRef .tc r) = val2 V0 (Proc.devRef .tc r) :=
  after_of_writes_sub opsB2 _ opsB2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_cst (V0 : Valuation τ sig (Elt F)) : val3 V0 (no_index (Proc.devRef .tc main_cst)) = Stage.tauArr :=
  (val3_keep V0 main_cst (by decide)).trans (val2_main_cst V0)
theorem val3_main_cst_0 (V0 : Valuation τ sig (Elt F)) : val3 V0 (no_index (Proc.devRef .tc main_cst_0)) = Stage.decArr :=
  (val3_keep V0 main_cst_0 (by decide)).trans (val2_main_cst_0 V0)
theorem val3_main_v0 (V0 : Valuation τ sig (Elt F)) : val3 V0 (no_index (Proc.devRef .tc main_v0)) = Stage.cubeArr (V0 (Proc.devRef .tc main_arg1)) :=
  (val3_keep V0 main_v0 (by decide)).trans (val2_main_v0 V0)
theorem val3_main_v2 (V0 : Valuation τ sig (Elt F)) : val3 V0 (no_index (Proc.devRef .tc main_v2)) = Stage.catArr (V0 (Proc.devRef .tc main_arg0)) (Stage.sumArr (Stage.cubeArr (V0 (Proc.devRef .tc main_arg1)))) :=
  (val3_keep V0 main_v2 (by decide)).trans (val2_main_v2 V0)
set_option maxRecDepth 8192 in
set_option maxHeartbeats 4000000 in
theorem val3_main_v23 (V0 : Valuation τ sig (Elt F)) : val3 V0 (no_index (Proc.devRef .tc main_v23)) = Stage.softArr (Stage.gateScore (Stage.catArr (V0 (Proc.devRef .tc main_arg0)) (Stage.sumArr (Stage.cubeArr (V0 (Proc.devRef .tc main_arg1))))) (V0 (Proc.devRef .tc main_arg2)) (V0 (Proc.devRef .tc main_arg3)) Stage.tauArr) := by
  unfold val3
  simp only [opsB2]
  after_results_simp
  simp only [val2_main_v12] <;> rfl

/-- The buffers' contents after the first 4 stretches. -/
def val4 (V0 : Valuation τ sig (Elt F)) : Valuation τ sig (Elt F) := after opsC (val3 V0)
/-- The buffers stretch C writes. -/
abbrev opsC_W : List (Ref sig .tc) := [main_v24, main_cst_5, main_v25, main_v26, main_v27, main_v28, main_v29, main_v30, main_v31, main_v32]
set_option maxRecDepth 8192 in
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem val4_keep (V0 : Valuation τ sig (Elt F)) (r : Ref sig .tc) (h : r ∉ opsC_W) :
    val4 V0 (Proc.devRef .tc r) = val3 V0 (Proc.devRef .tc r) :=
  after_of_writes_sub opsC _ opsC_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_cst (V0 : Valuation τ sig (Elt F)) : val4 V0 (no_index (Proc.devRef .tc main_cst)) = Stage.tauArr :=
  (val4_keep V0 main_cst (by decide)).trans (val3_main_cst V0)
theorem val4_main_cst_0 (V0 : Valuation τ sig (Elt F)) : val4 V0 (no_index (Proc.devRef .tc main_cst_0)) = Stage.decArr :=
  (val4_keep V0 main_cst_0 (by decide)).trans (val3_main_cst_0 V0)
theorem val4_main_v0 (V0 : Valuation τ sig (Elt F)) : val4 V0 (no_index (Proc.devRef .tc main_v0)) = Stage.cubeArr (V0 (Proc.devRef .tc main_arg1)) :=
  (val4_keep V0 main_v0 (by decide)).trans (val3_main_v0 V0)
theorem val4_main_v2 (V0 : Valuation τ sig (Elt F)) : val4 V0 (no_index (Proc.devRef .tc main_v2)) = Stage.catArr (V0 (Proc.devRef .tc main_arg0)) (Stage.sumArr (Stage.cubeArr (V0 (Proc.devRef .tc main_arg1)))) :=
  (val4_keep V0 main_v2 (by decide)).trans (val3_main_v2 V0)
set_option maxRecDepth 8192 in
set_option maxHeartbeats 4000000 in
theorem val4_main_v32 (V0 : Valuation τ sig (Elt F)) : val4 V0 (no_index (Proc.devRef .tc main_v32)) = Stage.detArr (V0 (Proc.devRef .tc main_arg0)) (Stage.softArr (Stage.gateScore (Stage.catArr (V0 (Proc.devRef .tc main_arg0)) (Stage.sumArr (Stage.cubeArr (V0 (Proc.devRef .tc main_arg1))))) (V0 (Proc.devRef .tc main_arg2)) (V0 (Proc.devRef .tc main_arg3)) Stage.tauArr)) (Stage.cubeArr (V0 (Proc.devRef .tc main_arg1))) (V0 (Proc.devRef .tc main_arg6)) (V0 (Proc.devRef .tc main_arg7)) := by
  unfold val4
  simp only [opsC]
  after_results_simp
  simp only [val3_main_arg7, val3_main_arg6, val3_main_v0, val3_main_v23, val3_main_arg0] <;> rfl

/-- The buffers' contents after the first 5 stretches. -/
def val5 (V0 : Valuation τ sig (Elt F)) : Valuation τ sig (Elt F) := after opsD1 (val4 V0)
/-- The buffers stretch D1 writes. -/
abbrev opsD1_W : List (Ref sig .tc) := [main_v33, main_v34, main_v35, main_v36, main_v37, main_v38, main_v39, main_v40, main_v41, main_v42]
set_option maxRecDepth 8192 in
theorem opsD1_writes : (opsD1 : List (HloOp τ sig (Elt F))).Forall fun op => op.writes ⊆ (opsD1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem val5_keep (V0 : Valuation τ sig (Elt F)) (r : Ref sig .tc) (h : r ∉ opsD1_W) :
    val5 V0 (Proc.devRef .tc r) = val4 V0 (Proc.devRef .tc r) :=
  after_of_writes_sub opsD1 _ opsD1_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_cst_0 (V0 : Valuation τ sig (Elt F)) : val5 V0 (no_index (Proc.devRef .tc main_cst_0)) = Stage.decArr :=
  (val5_keep V0 main_cst_0 (by decide)).trans (val4_main_cst_0 V0)
theorem val5_main_v0 (V0 : Valuation τ sig (Elt F)) : val5 V0 (no_index (Proc.devRef .tc main_v0)) = Stage.cubeArr (V0 (Proc.devRef .tc main_arg1)) :=
  (val5_keep V0 main_v0 (by decide)).trans (val4_main_v0 V0)
theorem val5_main_v32 (V0 : Valuation τ sig (Elt F)) : val5 V0 (no_index (Proc.devRef .tc main_v32)) = Stage.detArr (V0 (Proc.devRef .tc main_arg0)) (Stage.softArr (Stage.gateScore (Stage.catArr (V0 (Proc.devRef .tc main_arg0)) (Stage.sumArr (Stage.cubeArr (V0 (Proc.devRef .tc main_arg1))))) (V0 (Proc.devRef .tc main_arg2)) (V0 (Proc.devRef .tc main_arg3)) Stage.tauArr)) (Stage.cubeArr (V0 (Proc.devRef .tc main_arg1))) (V0 (Proc.devRef .tc main_arg6)) (V0 (Proc.devRef .tc main_arg7)) :=
  (val5_keep V0 main_v32 (by decide)).trans (val4_main_v32 V0)
set_option maxRecDepth 8192 in
set_option maxHeartbeats 4000000 in
theorem val5_main_v42 (V0 : Valuation τ sig (Elt F)) : val5 V0 (no_index (Proc.devRef .tc main_v42)) = Stage.gateScore (Stage.catArr (V0 (Proc.devRef .tc main_arg0)) (Stage.sumArr (Stage.cubeArr (V0 (Proc.devRef .tc main_arg1))))) (V0 (Proc.devRef .tc main_arg4)) (V0 (Proc.devRef .tc main_arg5)) Stage.tauArr := by
  unfold val5
  simp only [opsD1]
  after_results_simp
  simp only [val4_main_cst, val4_main_arg5, val4_main_arg4, val4_main_v2] <;> rfl

/-- The buffers' contents after the first 6 stretches. -/
def val6 (V0 : Valuation τ sig (Elt F)) : Valuation τ sig (Elt F) := after opsD2 (val5 V0)
/-- The buffers stretch D2 writes. -/
abbrev opsD2_W : List (Ref sig .tc) := [main_cst_6, main_v43, main_cst_7, main_v44, main_v45, main_v46, main_v47, main_v48, main_v49, main_cst_8, main_v50, main_v51, main_v52, main_v53]
set_option maxRecDepth 8192 in
theorem opsD2_writes : (opsD2 : List (HloOp τ sig (Elt F))).Forall fun op => op.writes ⊆ (opsD2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem val6_keep (V0 : Valuation τ sig (Elt F)) (r : Ref sig .tc) (h : r ∉ opsD2_W) :
    val6 V0 (Proc.devRef .tc r) = val5 V0 (Proc.devRef .tc r) :=
  after_of_writes_sub opsD2 _ opsD2_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_cst_0 (V0 : Valuation τ sig (Elt F)) : val6 V0 (no_index (Proc.devRef .tc main_cst_0)) = Stage.decArr :=
  (val6_keep V0 main_cst_0 (by decide)).trans (val5_main_cst_0 V0)
theorem val6_main_v0 (V0 : Valuation τ sig (Elt F)) : val6 V0 (no_index (Proc.devRef .tc main_v0)) = Stage.cubeArr (V0 (Proc.devRef .tc main_arg1)) :=
  (val6_keep V0 main_v0 (by decide)).trans (val5_main_v0 V0)
theorem val6_main_v32 (V0 : Valuation τ sig (Elt F)) : val6 V0 (no_index (Proc.devRef .tc main_v32)) = Stage.detArr (V0 (Proc.devRef .tc main_arg0)) (Stage.softArr (Stage.gateScore (Stage.catArr (V0 (Proc.devRef .tc main_arg0)) (Stage.sumArr (Stage.cubeArr (V0 (Proc.devRef .tc main_arg1))))) (V0 (Proc.devRef .tc main_arg2)) (V0 (Proc.devRef .tc main_arg3)) Stage.tauArr)) (Stage.cubeArr (V0 (Proc.devRef .tc main_arg1))) (V0 (Proc.devRef .tc main_arg6)) (V0 (Proc.devRef .tc main_arg7)) :=
  (val6_keep V0 main_v32 (by decide)).trans (val5_main_v32 V0)
set_option maxRecDepth 8192 in
set_option maxHeartbeats 4000000 in
theorem val6_main_v53 (V0 : Valuation τ sig (Elt F)) : val6 V0 (no_index (Proc.devRef .tc main_v53)) = Stage.softArr (Stage.gateScore (Stage.catArr (V0 (Proc.devRef .tc main_arg0)) (Stage.sumArr (Stage.cubeArr (V0 (Proc.devRef .tc main_arg1))))) (V0 (Proc.devRef .tc main_arg4)) (V0 (Proc.devRef .tc main_arg5)) Stage.tauArr) := by
  unfold val6
  simp only [opsD2]
  after_results_simp
  simp only [val5_main_v42] <;> rfl

/-- The buffers' contents after the first 7 stretches. -/
def val7 (V0 : Valuation τ sig (Elt F)) : Valuation τ sig (Elt F) := after opsE (val6 V0)
/-- The buffers stretch E writes. -/
abbrev opsE_W : List (Ref sig .tc) := [main_cst_9, main_v54, main_v55, main_v56, main_v57, main_v58, main_v59, main_v60, main_v61, main_v62, main_cst_10, main_v63, main_v64]
set_option maxRecDepth 8192 in
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem val7_keep (V0 : Valuation τ sig (Elt F)) (r : Ref sig .tc) (h : r ∉ opsE_W) :
    val7 V0 (Proc.devRef .tc r) = val6 V0 (Proc.devRef .tc r) :=
  after_of_writes_sub opsE _ opsE_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
set_option maxRecDepth 8192 in
set_option maxHeartbeats 4000000 in
theorem val7_main_v63 (V0 : Valuation τ sig (Elt F)) : val7 V0 (no_index (Proc.devRef .tc main_v63)) = Stage.sumArr (Stage.outCube (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) := by
  unfold val7
  simp only [opsE]
  after_results_simp
  simp only [val6_main_cst_0, val6_main_v32, val6_main_v53, val6_main_v0] <;> rfl
set_option maxRecDepth 8192 in
set_option maxHeartbeats 4000000 in
theorem val7_main_v64 (V0 : Valuation τ sig (Elt F)) : val7 V0 (no_index (Proc.devRef .tc main_v64)) = Stage.flatArr (Stage.outCube (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) := by
  unfold val7
  simp only [opsE]
  after_results_simp
  simp only [val6_main_cst_0, val6_main_v32, val6_main_v53, val6_main_v0] <;> rfl

/-- What the whole line leaves is what the seventh stretch leaves. -/
theorem after_ops (V0 : Valuation τ sig (Elt F)) : after ops V0 = val7 V0 := by
  rw [ops_split]
  simp only [after_app]
  rfl

set_option maxRecDepth 8192 in
set_option maxHeartbeats 40000000 in
/-- On every device, for any float values, from any memory with zero counters: every weakly fair execution of the
    reference terminates with the bucket sums and the flattening of the mixture of its arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = Stage.sumArr (Stage.outCube (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_v64) = Stage.flatArr (Stage.outCube (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v63).trans (by simp only [after_ops]; exact val7_main_v63 (launchContents m c)),
      (h c main_v64).trans (by simp only [after_ops]; exact val7_main_v64 (launchContents m c)),
      (h c main_arg0).trans (by simp only [after_ops]; exact val7_main_arg0 (launchContents m c)),
      (h c main_arg1).trans (by simp only [after_ops]; exact val7_main_arg1 (launchContents m c)),
      (h c main_arg2).trans (by simp only [after_ops]; exact val7_main_arg2 (launchContents m c)),
      (h c main_arg3).trans (by simp only [after_ops]; exact val7_main_arg3 (launchContents m c)),
      (h c main_arg4).trans (by simp only [after_ops]; exact val7_main_arg4 (launchContents m c)),
      (h c main_arg5).trans (by simp only [after_ops]; exact val7_main_arg5 (launchContents m c)),
      (h c main_arg6).trans (by simp only [after_ops]; exact val7_main_arg6 (launchContents m c)),
      (h c main_arg7).trans (by simp only [after_ops]; exact val7_main_arg7 (launchContents m c))⟩)
    (run_seq scopedRefs_eq scopedSems_eq defs main (fun _ => ops) main_eq (fun _ => ops_sub) m ρ)

end Cert.ReferenceIdeal.RefRun

end
-- ==== Proof.RefRead.lean ====
/-
  The reference's array functions read at an index.

  Each named stretch of the reference (module RefStages), at the ideal values, holds at batch row b, unit u and bucket m
  the corresponding quantity of the cell step's specification for row b: the state cube holds s(u, m) at flat column
  u·8 + m; the bucket sums are sums over m; the concatenation is the row [x, ·]; the affine map is a sum over the 768
  columns plus the bias at column u·8 + m; the softmax is taken bucket by bucket as the specification writes it; the
  tables hold τ(m) and δ(m). Every operation is read where it stands: no sum is reordered and nothing is assumed finite.
-/
import proofs.«154529_j19593640804384_2_alg».proof.Proof.RefStages
import proofs.«154529_j19593640804384_2_alg».proof.Proof.Spec
import proofs.«154529_j19593640804384_2_alg».proof.Proof.LibPlainDot
import proofs.«154529_j19593640804384_2_alg».proof.Proof.LibFlatten
import Idealize.ShloMosaic.PureOps.Ideal.Laws
import Idealize.ShloMosaic.PureOps.Reduce
import Idealize.ShloMosaic.Lib.Pipeline.Value
import Idealize.ShloMosaic.Lib.ValueIdx

noncomputable section

open scoped BigOperators

namespace Cert.ReferenceIdeal.RefRead

open Cert.ReferenceIdeal Cert.ReferenceIdeal.Gen Cert.ReferenceIdeal.Stage Idealize.ShloMosaic Idealize.ShloMosaic.ValueIdx Cert.CtGru

/-! ## The tables -/

theorem lit0_eq (m : Fin 8) : lit0 m = tauBits m := by fin_cases m <;> rfl
theorem lit1_eq (m : Fin 8) : lit1 m = decBits m := by fin_cases m <;> rfl

/-- Entry m of a length-8 array sits at row-major position m. -/
theorem rowMajor_ix1 (m : Fin 8) : S8.rowMajor (ix1 m) = m := Fin.ext (Shape.rowMajor_val_one (ix1 m))

theorem tauArr_apply (m : Fin 8) : (tauArr : FVec Ideal S8 .f32) (ix1 m) = tau m :=
  congrArg (Ideal.ofBits .f32) ((congrArg lit0 (rowMajor_ix1 m)).trans (lit0_eq m))
theorem decArr_apply (m : Fin 8) : (decArr : FVec Ideal S8 .f32) (ix1 m) = dec m :=
  congrArg (Ideal.ofBits .f32) ((congrArg lit1 (rowMajor_ix1 m)).trans (lit1_eq m))

/-! ## Layout -/

/-- The state cube at (b, u, m) is the state at flat column u·8 + m. -/
theorem cubeArr_apply (s : FVec Ideal S8192x4096 .f32) (b : Fin 8192) (u : Fin 512) (m : Fin 8) :
    cubeArr s (ix3 b u m) = s (ix2 b (col u m)) :=
  Cert.Flatten.split_apply s shapeCasts_S8192x4096_S8192x512x8 rfl b u m (col u m) rfl

/-- A per-bucket table copied to every row and unit, at (b, u, m): the table at m. -/
theorem tableCube_apply (t : FVec Ideal S8 .f32) (b : Fin 8192) (u : Fin 512) (m : Fin 8) :
    tableCube t (ix3 b u m) = t (ix1 m) :=
  (broadcastInDim_apply _ bcast_S1x1x8_S8192x512x8_0_1_2 _ (ix3 b u m) (ix3 (0 : Fin 1) (0 : Fin 1) m) (fun a => match a with
      | ⟨0, _⟩ => by show (0 : Nat) = if (1 : Nat) = 1 then 0 else _; rw [if_pos rfl]
      | ⟨1, _⟩ => by show (0 : Nat) = if (1 : Nat) = 1 then 0 else _; rw [if_pos rfl]
      | ⟨2, _⟩ => by show m.val = if (8 : Nat) = 1 then 0 else m.val; rw [if_neg (by decide)])).trans
    (broadcastInDim_apply _ bcast_S8_S1x1x8_2 t (ix3 (0 : Fin 1) (0 : Fin 1) m) (ix1 m) (fun a => match a with
      | ⟨0, _⟩ => by show m.val = if (8 : Nat) = 1 then 0 else m.val; rw [if_neg (by decide)]))

/-- A batch × unit array given a unit bucket axis, at (b, u, 0). -/
theorem column_apply (y : FVec Ideal S8192x512 .f32) (b : Fin 8192) (u : Fin 512) :
    broadcastInDim S8192x512x1 ![0, 1] bcast_S8192x512_S8192x512x1_0_1 y (ix3 b u (0 : Fin 1)) = y (ix2 b u) :=
  broadcastInDim_apply _ bcast_S8192x512_S8192x512x1_0_1 y (ix3 b u (0 : Fin 1)) (ix2 b u) (fun a => match a with
      | ⟨0, _⟩ => by show b.val = if (8192 : Nat) = 1 then 0 else b.val; rw [if_neg (by decide)]
      | ⟨1, _⟩ => by show u.val = if (512 : Nat) = 1 then 0 else u.val; rw [if_neg (by decide)])

/-- A batch × unit × 1 array copied to every bucket, at (b, u, m): the array at (b, u, 0). -/
theorem spread_apply (d : FVec Ideal S8192x512x1 .f32) (b : Fin 8192) (u : Fin 512) (m : Fin 8) :
    broadcastInDim S8192x512x8 ![0, 1, 2] bcast_S8192x512x1_S8192x512x8_0_1_2 d (ix3 b u m) = d (ix3 b u (0 : Fin 1)) :=
  broadcastInDim_apply _ bcast_S8192x512x1_S8192x512x8_0_1_2 d (ix3 b u m) (ix3 b u (0 : Fin 1)) (fun a => match a with
      | ⟨0, _⟩ => by show b.val = if (8192 : Nat) = 1 then 0 else b.val; rw [if_neg (by decide)]
      | ⟨1, _⟩ => by show u.val = if (512 : Nat) = 1 then 0 else u.val; rw [if_neg (by decide)]
      | ⟨2, _⟩ => by show (0 : Nat) = if (1 : Nat) = 1 then 0 else _; rw [if_pos rfl])

/-- A batch × unit array copied to every bucket, at (b, u, m): the array at (b, u). -/
theorem keepCube_apply (y : FVec Ideal S8192x512 .f32) (b : Fin 8192) (u : Fin 512) (m : Fin 8) :
    keepCube y (ix3 b u m) = y (ix2 b u) :=
  (spread_apply _ b u m).trans (column_apply y b u)

/-- A length-4096 bias copied to every batch row, at (b, c): the bias at c. -/
theorem biasRow_apply (bias : FVec Ideal S4096 .f32) (b : Fin 8192) (c : Fin 4096) :
    broadcastInDim S8192x4096 ![0, 1] bcast_S1x4096_S8192x4096_0_1 (broadcastInDim S1x4096 ![1] bcast_S4096_S1x4096_1 bias) (ix2 b c)
      = bias (ix1 c) :=
  (broadcastInDim_apply _ bcast_S1x4096_S8192x4096_0_1 _ (ix2 b c) (ix2 (0 : Fin 1) c) (fun a => match a with
      | ⟨0, _⟩ => by show (0 : Nat) = if (1 : Nat) = 1 then 0 else _; rw [if_pos rfl]
      | ⟨1, _⟩ => by show c.val = if (4096 : Nat) = 1 then 0 else c.val; rw [if_neg (by decide)])).trans
    (broadcastInDim_apply _ bcast_S4096_S1x4096_1 bias (ix2 (0 : Fin 1) c) (ix1 c) (fun a => match a with
      | ⟨0, _⟩ => by show c.val = if (4096 : Nat) = 1 then 0 else c.val; rw [if_neg (by decide)]))

/-- The same for the length-512 bias. -/
theorem biasRow512_apply (bias : FVec Ideal S512 .f32) (b : Fin 8192) (c : Fin 512) :
    broadcastInDim S8192x512 ![0, 1] bcast_S1x512_S8192x512_0_1 (broadcastInDim S1x512 ![1] bcast_S512_S1x512_1 bias) (ix2 b c)
      = bias (ix1 c) :=
  (broadcastInDim_apply _ bcast_S1x512_S8192x512_0_1 _ (ix2 b c) (ix2 (0 : Fin 1) c) (fun a => match a with
      | ⟨0, _⟩ => by show (0 : Nat) = if (1 : Nat) = 1 then 0 else _; rw [if_pos rfl]
      | ⟨1, _⟩ => by show c.val = if (512 : Nat) = 1 then 0 else c.val; rw [if_neg (by decide)])).trans
    (broadcastInDim_apply _ bcast_S512_S1x512_1 bias (ix2 (0 : Fin 1) c) (ix1 c) (fun a => match a with
      | ⟨0, _⟩ => by show c.val = if (512 : Nat) = 1 then 0 else c.val; rw [if_neg (by decide)]))

/-! ## Sums and the maximum over the buckets -/

theorem red3 : S8192x512x8.Reduces [2] S8192x512 := by decide

/-- The index (b, u) with the bucket m put back. -/
theorem lift3 (b : Fin 8192) (u : Fin 512) (m : Fin 8) : red3.lift (ix2 b u) m = ix3 b u m := by
  funext a
  apply Fin.ext
  match a with
  | ⟨0, _⟩ => rfl
  | ⟨1, _⟩ => rfl
  | ⟨2, _⟩ => rfl

/-- The bucket sum at (b, u): the sum over m, from zero. -/
theorem sumArr_apply (y : FVec Ideal S8192x512x8 .f32) (b : Fin 8192) (u : Fin 512) :
    sumArr y (ix2 b u) = ∑ m : Fin 8, y (ix3 b u m) := by
  unfold sumArr Host.reduceAdd
  refine (Ideal.hostReduceAdd_single reducesTo_S8192x512x8_S8192x512_d2 red3 y _ (ix2 b u)).trans ?_
  rw [constant_apply, Ideal.ofBits_zero_f32, zero_add]
  exact Finset.sum_congr rfl fun m _ => congrArg y (lift3 b u m)

/-! ## The concatenated row -/

/-- The concatenation at (b, k): the row [x(b, ·), y(b, ·)] at k. -/
theorem catArr_apply (x : FVec Ideal S8192x256 .f32) (y : FVec Ideal S8192x512 .f32) (b : Fin 8192) (k : Fin 768) :
    catArr x y (ix2 b k) = catRow (fun k' => x (ix2 b k')) (fun u => y (ix2 b u)) k := by
  unfold catArr catRow
  by_cases h : k.val < 256
  · rw [dif_pos h]
    exact concatenate_pair_apply_left (1 : Fin 2) x y concatenates_S8192x256_S8192x512_S8192x768_d1 (ix2 b k) rfl
      (ix2 b ⟨k.val, h⟩) (fun a => match a with | ⟨0, _⟩ => rfl | ⟨1, _⟩ => rfl)
  · rw [dif_neg h]
    exact concatenate_pair_apply_right (1 : Fin 2) x y concatenates_S8192x256_S8192x512_S8192x768_d1 (ix2 b k) rfl rfl
      (ix2 b ⟨k.val - 256, by have := k.isLt; omega⟩)
      (fun a ha => match a, ha with
        | ⟨0, _⟩, _ => rfl
        | ⟨1, _⟩, ha => absurd (Fin.ext rfl) ha)
      (by show (k.val - 256) + 256 = k.val; omega)

/-- Row b of [x, the bucket sums of the state]. -/
theorem zrow_eq (x : FVec Ideal S8192x256 .f32) (s : FVec Ideal S8192x4096 .f32) (b : Fin 8192) :
    (fun k => catArr x (sumArr (cubeArr s)) (ix2 b k)) = catRow (xRow x b) (sumRow (sRow s b)) := by
  funext k
  rw [catArr_apply]
  refine congrArg₂ (fun f g => catRow f g k) rfl (funext fun u => ?_)
  rw [sumArr_apply]
  exact Finset.sum_congr rfl fun m _ => cubeArr_apply s b u m

/-! ## A gate -/

/-- The affine map at (b, u, m): row b against column u·8 + m, plus the bias there. -/
theorem linArr_apply (z : FVec Ideal S8192x768 .f32) (W : FVec Ideal S768x4096 .f32) (bias : FVec Ideal S4096 .f32)
    (b : Fin 8192) (u : Fin 512) (m : Fin 8) :
    linArr z W bias (ix3 b u m) = linRow (fun k => z (ix2 b k)) W bias u m := by
  unfold linArr linRow
  refine (Cert.Flatten.split_apply _ shapeCasts_S8192x4096_S8192x512x8 rfl b u m (col u m) rfl).trans ?_
  rw [addf_apply, biasRow_apply]
  refine congrArg (· + bias (ix1 (col u m))) ?_
  simp only [Host.dotGeneral]
  exact Cert.PlainDot.dotGeneral_apply _ rfl _ _ z W b (col u m)

/-- The scores at (b, u, m). -/
theorem scoreArr_apply (l : FVec Ideal S8192x512x8 .f32) (t : FVec Ideal S8 .f32) (b : Fin 8192) (u : Fin 512) (m : Fin 8) :
    scoreArr l t (ix3 b u m) = -((l (ix3 b u m) - t (ix1 m)) * (l (ix3 b u m) - t (ix1 m))) := by
  show -((l (ix3 b u m) - tableCube t (ix3 b u m)) * (l (ix3 b u m) - tableCube t (ix3 b u m))) = _
  rw [tableCube_apply]

/-- A gate's scores for row b and unit u: the specification's scores of the affine map's eight values. -/
theorem gateScore_row (z : FVec Ideal S8192x768 .f32) (W : FVec Ideal S768x4096 .f32) (bias : FVec Ideal S4096 .f32)
    (b : Fin 8192) (u : Fin 512) :
    (fun m => gateScore z W bias tauArr (ix3 b u m)) = score (linRow (fun k => z (ix2 b k)) W bias u) := by
  funext m
  unfold gateScore score
  rw [scoreArr_apply, linArr_apply, tauArr_apply]

/-- The largest score at (b, u). -/
theorem peakArr_apply (a : FVec Ideal S8192x512x8 .f32) (b : Fin 8192) (u : Fin 512) :
    peakArr a (ix2 b u) = peak (fun m => a (ix3 b u m)) := by
  unfold peakArr peak
  rw [maximumf_apply]
  refine congrArg₂ max ?_ ?_
  · exact broadcastInDim_apply _ bcast_S_S8192x512 _ (ix2 b u) ix0 (fun a => a.elim0)
  · refine (Host.reduce_eq_fold_single FloatOps.maximumf a _ reducesTo_S8192x512x8_S8192x512_d2 red3 h_S_ (ix2 b u)).trans ?_
    exact Finset.fold_congr (fun m _ => congrArg a (lift3 b u m))

/-- The unnormalised weights at (b, u, m). -/
theorem weightArr_apply (a : FVec Ideal S8192x512x8 .f32) (b : Fin 8192) (u : Fin 512) (m : Fin 8) :
    weightArr a (ix3 b u m) = weight (fun m' => a (ix3 b u m')) m := by
  show Ideal.exp (a (ix3 b u m) - keepCube (peakArr a) (ix3 b u m)) = _
  rw [keepCube_apply, peakArr_apply]
  rfl

/-- The weights divided by their sum over the buckets, at (b, u, m). -/
theorem normArr_apply (w : FVec Ideal S8192x512x8 .f32) (b : Fin 8192) (u : Fin 512) (m : Fin 8) :
    normArr w (ix3 b u m) = Ideal.div (w (ix3 b u m)) (∑ m' : Fin 8, w (ix3 b u m')) := by
  show Ideal.div (w (ix3 b u m)) (keepCube (sumArr w) (ix3 b u m)) = _
  rw [keepCube_apply, sumArr_apply]

/-- The softmax at (b, u, m). -/
theorem softArr_apply (a : FVec Ideal S8192x512x8 .f32) (b : Fin 8192) (u : Fin 512) (m : Fin 8) :
    softArr a (ix3 b u m)
      = Ideal.div (weight (fun m' => a (ix3 b u m')) m) (∑ m' : Fin 8, weight (fun m'' => a (ix3 b u m'')) m') := by
  unfold softArr
  rw [normArr_apply, weightArr_apply]
  exact congrArg _ (Finset.sum_congr rfl fun m' _ => weightArr_apply a b u m')

/-- A gate at (b, u, m): the specification's gate of the affine map of row b. -/
theorem gate_apply (z : FVec Ideal S8192x768 .f32) (W : FVec Ideal S768x4096 .f32) (bias : FVec Ideal S4096 .f32)
    (b : Fin 8192) (u : Fin 512) (m : Fin 8) :
    softArr (gateScore z W bias tauArr) (ix3 b u m) = gate (linRow (fun k => z (ix2 b k)) W bias u) m := by
  rw [softArr_apply, gateScore_row]
  rfl

/-! ## The detected signal and the mixture -/

/-- The detected signal at (b, u, 0). -/
theorem detArr_apply (x : FVec Ideal S8192x256 .f32) (s : FVec Ideal S8192x4096 .f32) (Wr : FVec Ideal S768x4096 .f32)
    (br : FVec Ideal S4096 .f32) (Wd : FVec Ideal S768x512 .f32) (bd : FVec Ideal S512 .f32) (b : Fin 8192) (u : Fin 512) :
    detArr x (softArr (gateScore (catArr x (sumArr (cubeArr s))) Wr br tauArr)) (cubeArr s) Wd bd (ix3 b u (0 : Fin 1))
      = detectRow (xRow x b) (sRow s b) Wr br Wd bd u := by
  unfold detArr detectRow
  refine (column_apply _ b u).trans ?_
  show Ideal.tanh (_ + _) = _
  rw [biasRow512_apply]
  refine congrArg (fun v => Ideal.tanh (v + bd (ix1 u))) ?_
  simp only [Host.dotGeneral]
  refine (Cert.PlainDot.dotGeneral_apply _ rfl _ _ _ Wd b u).trans ?_
  refine Finset.sum_congr rfl fun k _ => congrArg (· * Wd (ix2 k u)) ?_
  rw [catArr_apply]
  refine congrArg₂ (fun f g => catRow f g k) rfl (funext fun u' => ?_)
  rw [sumArr_apply]
  unfold recallRow
  refine Finset.sum_congr rfl fun m _ => ?_
  rw [mulf_apply, gate_apply, cubeArr_apply, zrow_eq]
  rfl

/-- The mixture at (b, u, m). -/
theorem stepArr_apply (g y : FVec Ideal S8192x512x8 .f32) (d : FVec Ideal S8192x512x1 .f32) (t : FVec Ideal S8 .f32)
    (b : Fin 8192) (u : Fin 512) (m : Fin 8) :
    stepArr g y d t (ix3 b u m)
      = ((one - g (ix3 b u m)) * y (ix3 b u m) + g (ix3 b u m) * d (ix3 b u (0 : Fin 1))) * t (ix1 m) := by
  show ((broadcastInDim S8192x512x8 ![] bcast_S_S8192x512x8 (constant S_ .f32 0x3F800000#32) (ix3 b u m) - g (ix3 b u m)) * y (ix3 b u m)
      + g (ix3 b u m) * broadcastInDim S8192x512x8 ![0, 1, 2] bcast_S8192x512x1_S8192x512x8_0_1_2 d (ix3 b u m)) * tableCube t (ix3 b u m) = _
  rw [spread_apply, tableCube_apply,
    broadcastInDim_apply _ bcast_S_S8192x512x8 (constant (F := Ideal) S_ .f32 0x3F800000#32) (ix3 b u m) ix0 (fun a => a.elim0)]
  rfl

/-- The reference's new state at (b, u, m): the specification's. -/
theorem outCube_apply (x : FVec Ideal S8192x256 .f32) (s : FVec Ideal S8192x4096 .f32) (Wr : FVec Ideal S768x4096 .f32)
    (br : FVec Ideal S4096 .f32) (Ws : FVec Ideal S768x4096 .f32) (bs : FVec Ideal S4096 .f32) (Wd : FVec Ideal S768x512 .f32)
    (bd : FVec Ideal S512 .f32) (b : Fin 8192) (u : Fin 512) (m : Fin 8) :
    outCube x s Wr br Ws bs Wd bd (ix3 b u m) = stepRow (xRow x b) (sRow s b) Wr br Ws bs Wd bd u m := by
  unfold outCube stepRow
  rw [stepArr_apply, gate_apply, detArr_apply, cubeArr_apply, decArr_apply, zrow_eq]
  rfl

/-! ## The two results -/

/-- The reference's new state is the specification's, as batch × unit × bucket arrays. -/
theorem outCube_eq (x : FVec Ideal S8192x256 .f32) (s : FVec Ideal S8192x4096 .f32) (Wr : FVec Ideal S768x4096 .f32)
    (br : FVec Ideal S4096 .f32) (Ws : FVec Ideal S768x4096 .f32) (bs : FVec Ideal S4096 .f32) (Wd : FVec Ideal S768x512 .f32)
    (bd : FVec Ideal S512 .f32) :
    outCube x s Wr br Ws bs Wd bd = newState x s Wr br Ws bs Wd bd := by
  funext i
  obtain ⟨b, u, m, rfl⟩ : ∃ (b : Fin 8192) (u : Fin 512) (m : Fin 8), i = ix3 b u m := ⟨i 0, i 1, i 2, eq_ix3 i⟩
  exact outCube_apply x s Wr br Ws bs Wd bd b u m

/-- Its bucket sums are the specification's new unit values. -/
theorem units_eq (x : FVec Ideal S8192x256 .f32) (s : FVec Ideal S8192x4096 .f32) (Wr : FVec Ideal S768x4096 .f32)
    (br : FVec Ideal S4096 .f32) (Ws : FVec Ideal S768x4096 .f32) (bs : FVec Ideal S4096 .f32) (Wd : FVec Ideal S768x512 .f32)
    (bd : FVec Ideal S512 .f32) :
    sumArr (outCube x s Wr br Ws bs Wd bd) = newUnits x s Wr br Ws bs Wd bd := by
  funext i
  obtain ⟨b, u, rfl⟩ : ∃ (b : Fin 8192) (u : Fin 512), i = ix2 b u := ⟨i 0, i 1, eq_ix2 i⟩
  rw [sumArr_apply]
  exact Finset.sum_congr rfl fun m _ => outCube_apply x s Wr br Ws bs Wd bd b u m

/-- Its flattening is the specification's new state flattened. -/
theorem state_eq (x : FVec Ideal S8192x256 .f32) (s : FVec Ideal S8192x4096 .f32) (Wr : FVec Ideal S768x4096 .f32)
    (br : FVec Ideal S4096 .f32) (Ws : FVec Ideal S768x4096 .f32) (bs : FVec Ideal S4096 .f32) (Wd : FVec Ideal S768x512 .f32)
    (bd : FVec Ideal S512 .f32) :
    flatArr (outCube x s Wr br Ws bs Wd bd)
      = shapeCast S8192x4096 (newState x s Wr br Ws bs Wd bd) Facts₀.shapeCasts_S8192x512x8_S8192x4096 := by
  unfold flatArr
  rw [outCube_eq]

end Cert.ReferenceIdeal.RefRead

end
-- ==== Proof.RefValue.lean ====
/-
  The reference's run read back: its two results are the cell step of `Cert.CtGru` of its arguments.

  The run (module RefRun) leaves the bucket sums and the flattening of the reference's new-state array, a composition
  of named array functions of the arguments; read at an index (module RefRead) that array is the specification's new
  state, so its bucket sums are the new unit values.
-/
import proofs.«154529_j19593640804384_2_alg».proof.Proof.Gen.ReferenceIdeal
import proofs.«154529_j19593640804384_2_alg».proof.Proof.Spec
import proofs.«154529_j19593640804384_2_alg».proof.Proof.RefRun
import proofs.«154529_j19593640804384_2_alg».proof.Proof.RefRead
import Idealize.ShloMosaic.Lib.StableHlo.Run

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Cert.CtGru

/-- Every weakly fair execution of the reference terminates with the new unit values and the new state, flattened
    unit-major, of its arguments, and leaves the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v63)
          = newUnits (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_v64)
          = shapeCast S8192x4096 (newState (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7)))
              Facts₀.shapeCasts_S8192x512x8_S8192x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono
    (fun _ h c => ⟨(h c).1.trans (RefRead.units_eq _ _ _ _ _ _ _ _), (h c).2.1.trans (RefRead.state_eq _ _ _ _ _ _ _ _), (h c).2.2⟩)
    (RefRun.run (F := Ideal) m ρ)

end Cert.ReferenceIdeal.RefValue

end
-- ==== Proof.lean ====
/-
  The certificate of a continuous-time GRU cell step: a kernel that processes 128 batch rows per grid point with
  the eight time-constant buckets of every unit laid out bucket-major, against a reference that keeps them
  unit-major.

  Both programs, read in the extended reals, compute the cell step of `Cert.CtGru` (Proof/Spec.lean) of their
  arguments, row by row: the unit values as sums of buckets, two softmax gates over the buckets, a tanh signal, and
  the decayed mix. The kernel's side (Proof/KHost.lean, KBlocks.lean, Payload.lean, KFinal.lean) reads the staged
  arrays, the body's stored blocks and the blocks' cover of the result arrays; the reference's side
  (Proof/RefValue.lean) reads its straight-line run. The two runs then end at the same two arrays — the new unit
  values, and the new state flattened unit-major — and no precondition is used: the two sides are one formula,
  differently laid out. The three frames are the runs with the results dropped (the word-level kernel's is its
  generated frame); the idealization rewrote nothing, so there is nothing to preserve.
-/
import proofs.«154529_j19593640804384_2_alg».proof.Defs
import proofs.«154529_j19593640804384_2_alg».proof.Proof.Gen.Kernel
import proofs.«154529_j19593640804384_2_alg».proof.Proof.Gen.Kernel.Frame
import proofs.«154529_j19593640804384_2_alg».proof.Proof.Gen.KernelIdeal
import proofs.«154529_j19593640804384_2_alg».proof.Proof.Gen.KernelIdeal.Frame
import proofs.«154529_j19593640804384_2_alg».proof.Proof.Gen.ReferenceIdeal
import proofs.«154529_j19593640804384_2_alg».proof.Proof.Gen.Pre_finite_inputs
import proofs.«154529_j19593640804384_2_alg».proof.Proof.KFinal
import proofs.«154529_j19593640804384_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.RefValue.run m ρ)

/-- Both runs end at the cell step of their arguments; the arguments agree. -/
theorem algebraic : Cert.algebraic_KernelIdeal_ReferenceIdeal := by
  intro m ρ m' ρ' _ hagree
  refine ⟨fun c => Cert.KernelIdeal.KValue.units m c, _, Cert.KernelIdeal.KValue.run m ρ, ?_⟩
  refine (θ_run Cert.ReferenceIdeal.defs _ _).mono (fun _ h c => ?_) (Cert.ReferenceIdeal.RefValue.run m' ρ')
  obtain ⟨e0, e1, e2, e3, e4, e5, e6, e7⟩ := hagree c
  refine ⟨(h c).1.trans ?_, (h c).2.1.trans ?_, (h c).2.2⟩
  · rw [e0, e1, e2, e3, e4, e5, e6, e7]
  · rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
